-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S128 .f32) (main_arg7 : FVec F S128x256 .f32) (main_arg8 : FVec F S256 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) (main_arg7 : FVec F S128x256 .f32) (main_arg8 : FVec F S256 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S10000x128 : Shape := ⟨2, ![10000, 128]⟩
abbrev S2x1x128 : Shape := ⟨3, ![2, 1, 128]⟩
abbrev S1x1x128 : Shape := ⟨3, ![1, 1, 128]⟩
abbrev S1x256 : Shape := ⟨2, ![1, 256]⟩

abbrev nBuf : Space → Nat
  | .hbm => 42
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S1x128, .f32⟩
  | .hbm, ⟨23, _⟩ => ⟨S100000x128, .bf16⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .bf16⟩
  | .hbm, ⟨33, _⟩ => ⟨S1600000x128, .f32⟩
  | .hbm, ⟨34, _⟩ => ⟨S_, .f32⟩
  | .hbm, ⟨35, _⟩ => ⟨S100000x128, .f32⟩
  | .hbm, ⟨36, _⟩ => ⟨S1600000x1, .i32⟩
  | .hbm, ⟨37, _⟩ => ⟨S100000x128, .f32⟩
  | .hbm, ⟨38, _⟩ => ⟨S1x128, .f32⟩
  | .hbm, ⟨39, _⟩ => ⟨S2x1x128, .f32⟩
  | .hbm, ⟨40, _⟩ => ⟨S1x256, .f32⟩
  | .hbm, ⟨41, _⟩ => ⟨S1x256, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .bf16⟩
  | .local _ .vmem, ⟨5, _⟩ => ⟨S10000x128, .bf16⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S1x128, .f32⟩
  | .local _ .vmem, ⟨10, _⟩ => ⟨S1x1x128, .f32⟩
  | .local _ .vmem, ⟨11, _⟩ => ⟨S1x1x128, .f32⟩
  | .local _ .vmem, ⟨12, _⟩ => ⟨S1x128, .f32⟩
  | .local _ .vmem, ⟨13, _⟩ => ⟨S2x1x128, .f32⟩
  | .local _ .vmem, ⟨14, _⟩ => ⟨S128x256, .f32⟩
  | .local _ .vmem, ⟨15, _⟩ => ⟨S1x256, .f32⟩
  | .local _ .vmem, ⟨16, _⟩ => ⟨S1x256, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c_1 : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_3 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc2_stg0_0 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem1_0 : DmaSem sig := 13
abbrev cc2_sem2_0 : DmaSem sig := 14
abbrev cc2_sem3_0 : DmaSem sig := 15

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 5], ![false, false]⟩

def k1_cond2 (i : grid1.Coords) : BitVec 1 :=
  let arg1 : BitVec 32 := BitVec.ofNat 32 (i 1).val
  let c4_i32 : BitVec 32 := 4#32
  let v22 : BitVec 1 := Scalar.cmpi .eq arg1 c4_i32
  let v23 : BitVec 32 := Scalar.extui v22
  let c0_i32_12 : BitVec 32 := 0#32
  let v24 : BitVec 1 := Scalar.cmpi .ne v23 c0_i32_12
  v24

def cc1_transform_0 (i : grid1.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.muli arg0 c5_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![1], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S2x1x128 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S128x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  reduces_S10000x128_S128 : S10000x128.Reduces [0] S128
  shapeCasts_S1x128_S1x1x128 : S1x128.ShapeCasts S1x1x128
  inb_S1x1x128_S1x1x128_0_0_0 : ∀ a, (![0, 0, 0] : Fin 3 → Nat) a + S1x1x128.size a ≤ S1x1x128.size a
  h_S1x1x128 : 0 < S1x1x128.numel
  shapeCasts_S256_S1x256 : S256.ShapeCasts S1x256
  inb_S2x1x128_S2x1x128_0_0_0 : ∀ a, (![0, 0, 0] : Fin 3 → Nat) a + S2x1x128.size a ≤ S2x1x128.size a
  h_S2x1x128 : 0 < S2x1x128.numel
  shapeCasts_S2x1x128_S2x1x128 : S2x1x128.ShapeCasts S2x1x128
  reduces_S2x1x128_S1x128 : S2x1x128.Reduces [0] S1x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S1x128_S128x256_S1x256_1_0_0_1_n_n_wf : DotDims.WF S1x128 S128x256 S1x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .bf16 = 32 ∨ (Rect.block (s := S100000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x128.size a ≤ S2x1x128.size a
  hwx1_3 : ∀ i : grid1.Coords, EltTy.bits .f32 = 32 ∨ (Rect.block (s := S2x1x128) S1x1x128.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S2x1x128.size a ≤ S2x1x128.size a
  hwx2_0 : ∀ i : grid2.Coords, EltTy.bits .f32 = 32 ∨ (Rect.block (s := S2x1x128) S2x1x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x256.size a ≤ S128x256.size a
  hwx2_1 : ∀ i : grid2.Coords, EltTy.bits .f32 = 32 ∨ (Rect.block (s := S128x256) S128x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x256.size a ≤ S1x256.size a
  hwx2_3 : ∀ i : grid2.Coords, EltTy.bits .f32 = 32 ∨ (Rect.block (s := S1x256) S1x256.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf

abbrev win0_0 : Pipeline.Window sig grid0 :=
  Pipeline.Window.ofSpec (Memref.whole main_v9) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v22) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x1x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v24) S2x1x128.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S128x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1x256.size cc2_transform_3 reads2_3 true true 1 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x256 : Shape := ⟨2, ![1, 256]⟩

abbrev nBuf : Space → Nat
  | .hbm => 58
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S_, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S1x256, .f32⟩
  | .hbm, ⟨53, _⟩ => ⟨S1x256, .f32⟩
  | .hbm, ⟨54, _⟩ => ⟨S1x256, .f32⟩
  | .hbm, ⟨55, _⟩ => ⟨S_, .f32⟩
  | .hbm, ⟨56, _⟩ => ⟨S1x256, .f32⟩
  | .hbm, ⟨57, _⟩ => ⟨S1x256, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_call0_cst : Ref sig .tc := ⟨.hbm, 26, rfl⟩
abbrev main_call0_v0 : Ref sig .tc := ⟨.hbm, 27, rfl⟩
abbrev main_v14 : Ref sig .tc := ⟨.hbm, 28, rfl⟩
abbrev main_c_1 : Ref sig .tc := ⟨.hbm, 29, rfl⟩
abbrev main_v15 : Ref sig .tc := ⟨.hbm, 30, rfl⟩
abbrev main_v16 : Ref sig .tc := ⟨.hbm, 31, rfl⟩
abbrev main_c_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call1_cst : Ref sig .tc := ⟨.hbm, 46, rfl⟩
abbrev main_call1_v0 : Ref sig .tc := ⟨.hbm, 47, rfl⟩
abbrev main_v29 : Ref sig .tc := ⟨.hbm, 48, rfl⟩
abbrev main_cst_4 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call2_cst : Ref sig .tc := ⟨.hbm, 55, rfl⟩
abbrev main_call2_v0 : Ref sig .tc := ⟨.hbm, 56, rfl⟩
abbrev main_v35 : Ref sig .tc := ⟨.hbm, 57, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S256_S1x256_1 : S256.BroadcastsInDim S1x256 (![1] : Fin 1 → Fin S1x256.rank)
  bcast_S_S1x256 : S_.BroadcastsInDim S1x256 (![] : Fin 0 → Fin S1x256.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S1x128_S128x256_S1x256_1_0_0_1_n_n_wf : DotDims.WF S1x128 S128x256 S1x256 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf

class Facts : Prop extends Facts₀ where

variable [Facts]
-- ==== Proof.K.Reg0.lean ====
/-
  Region 0 of the program: ten grid points, each taking a block of 10000 node rows of the first aggregation, the
  whole first weight matrix and bias row, and writing the block's rows of `max (a · W + b) 0`.  Stated here, at
  any float instance: what each staging buffer holds after the body at a point, that the body runs there without a
  fault, and the proof data and body obligation the pipeline's launch theorem takes.
-/
import proofs.«135123_j81604378624770_2_alg».proof.Proof.Gen.Kernel.Launch
import proofs.«135123_j81604378624770_2_alg».proof.Proof.Gen.Kernel.Skeleton
import proofs.«135123_j81604378624770_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! # Region 0: the kernel `cc0__linear_relu_kernel` (pipeline 0), entered with the buffers at `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not (where it did not, the block index has not moved), for any proof data over these arrays whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    not (where it did not, the block index has not moved), for any proof data over these arrays whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    not (where it did not, the block index has not moved), for any proof data over these arrays whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each buffer whole -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S10000x128 := Rect.unit (s := S10000x128) ![0, 0] S10000x128.size inb_S10000x128_S10000x128_0_0

/-- What the body leaves in the output window's staging buffer, from the input blocks: its one store, of the
    body's arithmetic (the payload) applied to the three loaded blocks. -/
def out0_3 (x0 : Vec F S10000x128 .f32) (x1 : Vec F S128x128 .f32) (x2 : Vec F S1x128 .f32) : Vec F S10000x128 .bf16 :=
  View.canon [⟨r0_3, k0_pay1 (View.ld x0 r0_0) (View.ld x1 r0_1) (View.ld x2 r0_2)⟩]

/-- The one store covers the whole buffer. -/
theorem cover0_3 (p0 : Vec F S10000x128 .bf16) (y : S10000x128.Idx) :
    ∃ pc ∈ ([⟨r0_3, p0⟩] : List (View.Piece (Elt F) S10000x128 .bf16)), y ∈ pc.1.set :=
  View.cover_of_tiled [⟨r0_3, p0⟩] S10000x128.size (by rfl) y

set_option maxHeartbeats 1000000 in
/-- The body on whole staging buffers — the inputs' at contents `x·`, the output's at anything — runs to its end,
    faults nowhere, leaves the inputs as they were and the output's buffer at `out0_3` of the inputs. -/
theorem sound_kernel0 (c : Dev nD) (E : Set ℕ) (i : grid0.Coords) (arg0 : Memref sig .tc .vmem S10000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S10000x128 .bf16) (harg3 : arg3.IsWhole)
    (x0 : Vec F S10000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_relu_kernel i arg0 harg0 arg1 harg1 arg2 harg2 arg3 harg3) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer still at its block and the output's at `out0_3` of the input blocks; the
    invariant leaves the other scoped buffers and the generator register untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the inputs' buffers hold their blocks, so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.Reg1Runs.lean ====
/- Region 1 of the program (the pooled second layer, grid (2, 5)): what the three cases of its body share — the
   windows' blocks at the region-entry contents, the body's two branch conditions in closed form over the grid,
   where the output window is idle, the staging and scratch memrefs, and the region invariant with the scratch
   accumulator singled out. -/
import proofs.«135123_j81604378624770_2_alg».proof.Proof.Gen.Kernel.Launch
import proofs.«135123_j81604378624770_2_alg».proof.Proof.Gen.Kernel.Skeleton
import proofs.«135123_j81604378624770_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents (`hA`) and whose body leaves the block in place (`hafter`): unfetched,
    the block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents (`hA`) and whose body leaves the block in place (`hafter`): unfetched,
    the block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents (`hA`) and whose body leaves the block in place (`hafter`): unfetched,
    the block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the accumulator is zeroed): the second grid coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 5) — decided over the grid. -/
theorem hcond1_0 : ∀ t : Fin cfg1.N, cond1_0 (grid1.coords t) ↔ t.val % 5 = 0 :=
  (by decide +kernel : ∀ t : Fin grid1.N, cond1_0 (grid1.coords t) ↔ t.val % 5 = 0)

/-- The condition of the body's second conditional (the accumulator is copied out): the second grid coordinate is 4. -/
abbrev cond1_1 (i : grid1.Coords) : Prop := k1_cond2 i = 1#1
/-- It holds at the points ≡ 4 (mod 5) — decided over the grid. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first point of a run of five the output window is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same at the three middle points of a run. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last point of a run the output window is live: the accumulator is stored into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1x1x128 .f32 := (Memref.whole cc1_stg3_0 : Memref sig .tc .vmem S1x1x128 .f32).view
/-- Each window's current staging memref at point `t`, and its wholeness. -/
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S1x128 .f32 := Memref.whole cc1_scratch0
/-- The same as a view: what the accumulator holds is stated through it. -/
abbrev VS1_0 : View sig .tc .vmem S1x128 .f32 := scM1_0.view

/-! ## The region invariant, the accumulator singled out -/

/-- The core's scoped buffers that are staging buffers of the other two regions, each whole at some contents: the
    body never names them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f))

/-- Two assertions that entail each other are equal. -/
theorem eq_of_entails1 {P Q : sProp 𝕄} (h₁ : P ⊢ Q) (h₂ : Q ⊢ P) : P = Q := Idealize.SL.BI.Entails.antisymm h₁ h₂

/-- The region invariant (the scoped buffers that are no staging buffer of this region, at some contents each, and
    the generator register at some state) with the accumulator as a memref owned at some contents. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA others1; rw [scopedRest1_eq]; simp only [scM1_0, owns_whole]
  refine eq_of_entails1 ?_ ?_
  · iintro ⟨⟨R0, R1, R2, R3, R4, R5, HS, R7, R8, R9, R10⟩, Hg⟩
    iframe
  · iintro ⟨⟨HS, R0, R1, R2, R3, R4, R5, R7, R8, R9, R10⟩, Hg⟩
    iframe

end Cert.Kernel.Hand

end
-- ==== Proof.K.Reg1RunA.lean ====
/- Region 1, the body's run at the FIRST point of a run of five (the accumulator is zeroed, then accumulated into; nothing is stored into the output window). -/
import proofs.«135123_j81604378624770_2_alg».proof.Proof.K.Reg1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's staging memref and in the accumulator, as pieces (last
    first), in this case, with the proof that on whole memrefs the body runs to the continuation holding the inputs'
    as they were and each stored buffer with its pieces written: the printed function is its skeleton, each
    conditional decided by the case's hypotheses; the pieces are the witness the run finds. -/
noncomputable def kernelRun1_A (c : Dev nD) (i : grid1.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S128x128 .f32) (x2 : Vec F S1x128 .f32) :
    Σ' (L3 : List (View.Piece (Elt F) S1x1x128 .f32)), { LS0 : List (View.Piece (Elt F) S1x128 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn2_pool_kernel i arg2 harg2 arg3 harg3 arg4 harg4 arg5 harg5 arg6 harg6) K } := by
  refine ⟨[], ?_, fun xi3 E K => ?run⟩
  case run =>
    simp only [cc1__gcn2_pool_kernel_eq_skeleton]; unfold cc1__gcn2_pool_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg1RunB.lean ====
/- Region 1, the body's run at a MIDDLE point of a run of five (accumulated into the accumulator the point before left; nothing is stored into the output window). -/
import proofs.«135123_j81604378624770_2_alg».proof.Proof.K.Reg1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's staging memref and in the accumulator, as pieces (last
    first), in this case, with the proof that on whole memrefs the body runs to the continuation holding the inputs'
    as they were and each stored buffer with its pieces written: the printed function is its skeleton, each
    conditional decided by the case's hypotheses; the pieces are the witness the run finds. -/
noncomputable def kernelRun1_B (c : Dev nD) (i : grid1.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S128x128 .f32) (x2 : Vec F S1x128 .f32) (xs0 : Vec F S1x128 .f32) :
    Σ' (L3 : List (View.Piece (Elt F) S1x1x128 .f32)), { LS0 : List (View.Piece (Elt F) S1x128 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn2_pool_kernel i arg2 harg2 arg3 harg3 arg4 harg4 arg5 harg5 arg6 harg6) K } := by
  refine ⟨[], ?_, fun xi3 E K => ?run⟩
  case run =>
    simp only [cc1__gcn2_pool_kernel_eq_skeleton]; unfold cc1__gcn2_pool_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.Reg1RunC.lean ====
/- Region 1, the body's run at the LAST point of a run of five (accumulated into the accumulator the point before left, which is then copied into the output window). -/
import proofs.«135123_j81604378624770_2_alg».proof.Proof.K.Reg1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's staging memref and in the accumulator, as pieces (last
    first), in this case, with the proof that on whole memrefs the body runs to the continuation holding the inputs'
    as they were and each stored buffer with its pieces written: the printed function is its skeleton, each
    conditional decided by the case's hypotheses; the pieces are the witness the run finds. -/
noncomputable def kernelRun1_C (c : Dev nD) (i : grid1.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S128x128 .f32) (x2 : Vec F S1x128 .f32) (xs0 : Vec F S1x128 .f32) :
    Σ' (L3 : List (View.Piece (Elt F) S1x1x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn2_pool_kernel i arg2 harg2 arg3 harg3 arg4 harg4 arg5 harg5 arg6 harg6) K } := by
  refine ⟨?_, ?_, fun E K => ?run⟩
  case run =>
    simp only [cc1__gcn2_pool_kernel_eq_skeleton]; unfold cc1__gcn2_pool_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.Reg1.lean ====
/- Region 1 of the program (the pooled second layer, grid (2, 5)): what its output window's staging buffer and the
   accumulator hold after each point, the proof data of the pipeline, and the body obligation.

   The body has three cases along a run of five points that share the first grid coordinate: at the first point the
   accumulator is zeroed and the point's block summed into it; at the three middle points the block is summed into
   what the point before left; at the last point the same, and the accumulator is copied into the output window's
   block. The accumulator's contents after each point are therefore stated by recursion on the point's position. -/
import proofs.«135123_j81604378624770_2_alg».proof.Proof.K.Reg1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The case of a point, from its position in its run of five -/

theorem caseA0 (t : Fin cfg1.N) (h0 : t.val % 5 = 0) : cond1_0 (grid1.coords t) := (hcond1_0 t).mpr h0
theorem caseA1 (t : Fin cfg1.N) (h0 : t.val % 5 = 0) : ¬cond1_1 (grid1.coords t) :=
  fun h => by have := (hcond1_1 t).mp h; omega
theorem caseN0 (t : Fin cfg1.N) (h0 : ¬t.val % 5 = 0) : ¬cond1_0 (grid1.coords t) := fun h => h0 ((hcond1_0 t).mp h)
theorem caseN1 (t : Fin cfg1.N) (h1 : ¬t.val % 5 = 4) : ¬cond1_1 (grid1.coords t) := fun h => h1 ((hcond1_1 t).mp h)
theorem caseC1 (t : Fin cfg1.N) (h1 : t.val % 5 = 4) : cond1_1 (grid1.coords t) := (hcond1_1 t).mpr h1

/-! ## The body's run at a point: at the point's staging memrefs, the accumulator and the input blocks -/

/-- At the first point of a run of five. -/
abbrev run1A (c : Dev nD) (t : Fin cfg1.N) (h0 : t.val % 5 = 0) :=
  kernelRun1_A (F := F) c (grid1.coords t) (ms1_0 t) (hs1_0 t) (ms1_1 t) (hs1_1 t) (ms1_2 t) (hs1_2 t) (ms1_3 t) (hs1_3 t) scM1_0 (Memref.isWhole_whole _)
    (caseA0 t h0) (caseA1 t h0) (iblk1 V c 0 t) (iblk1 V c 1 t) (iblk1 V c 2 t)
/-- At a middle point, over the accumulator's contents `xs` the point before left. -/
abbrev run1B (c : Dev nD) (t : Fin cfg1.N) (h0 : ¬t.val % 5 = 0) (h1 : ¬t.val % 5 = 4) (xs : Vec F S1x128 .f32) :=
  kernelRun1_B (F := F) c (grid1.coords t) (ms1_0 t) (hs1_0 t) (ms1_1 t) (hs1_1 t) (ms1_2 t) (hs1_2 t) (ms1_3 t) (hs1_3 t) scM1_0 (Memref.isWhole_whole _)
    (caseN0 t h0) (caseN1 t h1) (iblk1 V c 0 t) (iblk1 V c 1 t) (iblk1 V c 2 t) xs
/-- At the last point, over the accumulator's contents `xs` the point before left. -/
abbrev run1C (c : Dev nD) (t : Fin cfg1.N) (h0 : ¬t.val % 5 = 0) (h1 : t.val % 5 = 4) (xs : Vec F S1x128 .f32) :=
  kernelRun1_C (F := F) c (grid1.coords t) (ms1_0 t) (hs1_0 t) (ms1_1 t) (hs1_1 t) (ms1_2 t) (hs1_2 t) (ms1_3 t) (hs1_3 t) scM1_0 (Memref.isWhole_whole _)
    (caseN0 t h0) (caseC1 t h1) (iblk1 V c 0 t) (iblk1 V c 1 t) (iblk1 V c 2 t) xs

/-! ## What each case leaves -/

/-- The first point's stores into the accumulator (the zeros, then the sum over them) tile it, so they cover it. -/
theorem scover1_A (c : Dev nD) (t : Fin cfg1.N) (h0 : t.val % 5 = 0) (y : S1x128.Idx) :
    ∃ pc ∈ (run1A V c t h0).2.1, y ∈ pc.1.set :=
  View.cover_of_tiledL (run1A V c t h0).2.1 S1x128.size (by sl_kernel_rfl) y
/-- What the first point leaves in the accumulator: its pieces read back. -/
def sout1_A (c : Dev nD) (t : Fin cfg1.N) (h0 : t.val % 5 = 0) : Vec F S1x128 .f32 :=
  VS1_0.read (Elt F) (VS1_0.writes (Elt F) VS1_0.junk (run1A V c t h0).2.1)
/-- The first point stores nothing into the output window (idle there, and not written back): a placeholder that
    nothing consults. -/
def out1_A (c : Dev nD) (t : Fin cfg1.N) (h0 : t.val % 5 = 0) : Vec F S1x1x128 .f32 :=
  VO1_3.read (Elt F) (VO1_3.writes (Elt F) VO1_3.junk (run1A V c t h0).1)

/-- A middle point's one store into the accumulator covers it. -/
theorem scover1_B (c : Dev nD) (t : Fin cfg1.N) (h0 : ¬t.val % 5 = 0) (h1 : ¬t.val % 5 = 4) (xs : Vec F S1x128 .f32) (y : S1x128.Idx) :
    ∃ pc ∈ (run1B V c t h0 h1 xs).2.1, y ∈ pc.1.set :=
  View.cover_of_tiledL (run1B V c t h0 h1 xs).2.1 S1x128.size (by sl_kernel_rfl) y
/-- What a middle point leaves in the accumulator. -/
def sout1_B (c : Dev nD) (t : Fin cfg1.N) (h0 : ¬t.val % 5 = 0) (h1 : ¬t.val % 5 = 4) (xs : Vec F S1x128 .f32) : Vec F S1x128 .f32 :=
  VS1_0.read (Elt F) (VS1_0.writes (Elt F) VS1_0.junk (run1B V c t h0 h1 xs).2.1)
/-- A middle point stores nothing into the output window: a placeholder that nothing consults. -/
def out1_B (c : Dev nD) (t : Fin cfg1.N) (h0 : ¬t.val % 5 = 0) (h1 : ¬t.val % 5 = 4) (xs : Vec F S1x128 .f32) : Vec F S1x1x128 .f32 :=
  VO1_3.read (Elt F) (VO1_3.writes (Elt F) VO1_3.junk (run1B V c t h0 h1 xs).1)

/-- The last point's one store into the accumulator covers it, -/
theorem scover1_C (c : Dev nD) (t : Fin cfg1.N) (h0 : ¬t.val % 5 = 0) (h1 : t.val % 5 = 4) (xs : Vec F S1x128 .f32) (y : S1x128.Idx) :
    ∃ pc ∈ (run1C V c t h0 h1 xs).2.1, y ∈ pc.1.set :=
  View.cover_of_tiledL (run1C V c t h0 h1 xs).2.1 S1x128.size (by sl_kernel_rfl) y
/-- and its one store into the output window's block covers that. -/
theorem cover1_C (c : Dev nD) (t : Fin cfg1.N) (h0 : ¬t.val % 5 = 0) (h1 : t.val % 5 = 4) (xs : Vec F S1x128 .f32) (y : S1x1x128.Idx) :
    ∃ pc ∈ (run1C V c t h0 h1 xs).1, y ∈ pc.1.set :=
  View.cover_of_tiledL (run1C V c t h0 h1 xs).1 S1x1x128.size (by sl_kernel_rfl) y
/-- What the last point leaves in the accumulator, -/
def sout1_C (c : Dev nD) (t : Fin cfg1.N) (h0 : ¬t.val % 5 = 0) (h1 : t.val % 5 = 4) (xs : Vec F S1x128 .f32) : Vec F S1x128 .f32 :=
  VS1_0.read (Elt F) (VS1_0.writes (Elt F) VS1_0.junk (run1C V c t h0 h1 xs).2.1)
/-- and in the output window's staging buffer. -/
def out1_C (c : Dev nD) (t : Fin cfg1.N) (h0 : ¬t.val % 5 = 0) (h1 : t.val % 5 = 4) (xs : Vec F S1x128 .f32) : Vec F S1x1x128 .f32 :=
  VO1_3.read (Elt F) (VO1_3.writes (Elt F) VO1_3.junk (run1C V c t h0 h1 xs).1)

/-! ## What the output window's buffer and the accumulator hold after each point -/

/-- THE ACCUMULATION. What the output window's staging buffer and the accumulator hold after the body at position
    `n` (output block, accumulator): the case the position selects, a middle or last point over what position
    `n - 1` left in the accumulator. -/
def outsAt1 (c : Dev nD) : (n : ℕ) → n < cfg1.N → Vec F S1x1x128 .f32 × Vec F S1x128 .f32
  | 0, hn => (out1_A V c ⟨0, hn⟩ (Nat.zero_mod _), sout1_A V c ⟨0, hn⟩ (Nat.zero_mod _))
  | n + 1, hn =>
    if h0 : (n + 1) % 5 = 0 then
      (out1_A V c ⟨n + 1, hn⟩ h0, sout1_A V c ⟨n + 1, hn⟩ h0)
    else if h1 : (n + 1) % 5 = 4 then
      (out1_C V c ⟨n + 1, hn⟩ h0 h1 (outsAt1 c n (Nat.lt_of_succ_lt hn)).2, sout1_C V c ⟨n + 1, hn⟩ h0 h1 (outsAt1 c n (Nat.lt_of_succ_lt hn)).2)
    else
      (out1_B V c ⟨n + 1, hn⟩ h0 h1 (outsAt1 c n (Nat.lt_of_succ_lt hn)).2, sout1_B V c ⟨n + 1, hn⟩ h0 h1 (outsAt1 c n (Nat.lt_of_succ_lt hn)).2)

/-- At the first point of a run. -/
theorem outsAt1_A (c : Dev nD) (t : Fin cfg1.N) (h0 : t.val % 5 = 0) :
    outsAt1 V c t.val t.isLt = (out1_A V c t h0, sout1_A V c t h0) := by
  obtain ⟨n, hn⟩ := t
  cases n with
  | zero => exact rfl
  | succ n => exact (dif_pos h0).trans rfl

/-- At a middle point: over what the point before left. -/
theorem outsAt1_B (c : Dev nD) (t : Fin cfg1.N) (h0 : ¬t.val % 5 = 0) (h1 : ¬t.val % 5 = 4) :
    outsAt1 V c t.val t.isLt = (out1_B V c t h0 h1 (outsAt1 V c (t.val - 1) (Nat.lt_of_le_of_lt (Nat.sub_le _ _) t.isLt)).2,
      sout1_B V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point of a run: over what the point before left. -/
theorem outsAt1_C (c : Dev nD) (t : Fin cfg1.N) (h0 : ¬t.val % 5 = 0) (h1 : t.val % 5 = 4) :
    outsAt1 V c t.val t.isLt = (out1_C V c t h0 h1 (outsAt1 V c (t.val - 1) (Nat.lt_of_le_of_lt (Nat.sub_le _ _) t.isLt)).2,
      sout1_C V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point the launch's (every scoped buffer that is no
    staging buffer of this region at some contents, the generator register at some state); afterwards the same with
    the accumulator at what the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's position says which case it is in;
    the invariant hands the body the accumulator at what the point before left (at anything at the very first point)
    and takes it back at this point's contents, its stores covering it; where the output window is idle its buffer is
    handed back untouched, at the last point of a run with the covering store's contents; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from (by
    unfold Dat.leavesExact; rw [liveAt1_0 t]), after1_0]
  rw [show (dat1 V c).leavesExact 1 t = owns (c : Thread nD τ) (ms1_1 t) fullShare ((dat1 V c).after 1 t) from (by
    unfold Dat.leavesExact; rw [liveAt1_1 t]), after1_1]
  rw [show (dat1 V c).leavesExact 2 t = owns (c : Thread nD τ) (ms1_2 t) fullShare ((dat1 V c).after 2 t) from (by
    unfold Dat.leavesExact; rw [liveAt1_2 t]), after1_2]
  by_cases h0 : t.val % 5 = 0
  · rw [Dat.leavesExact_idle (dat1 V c) 3 t (idleAt1_3_A t (caseA0 t h0) (caseA1 t h0)) (noFlush1_3_A t (caseA0 t h0) (caseA1 t h0))]
    rw [outsAt1_A V c t h0]
    unfold sout1_A; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((run1A V c t h0).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A V c t h0)
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((run1A V c t h0).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A V c t h0)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 5 = 4
    · rw [show (dat1 V c).leavesExact 3 t = owns (c : Thread nD τ) (ms1_3 t) fullShare ((dat1 V c).after 3 t) from (by
        unfold Dat.leavesExact; rw [liveAt1_3_C t (caseN0 t h0) (caseC1 t h1)]), after1_3]
      rw [outsAt1_C V c t h0 h1]
      unfold out1_C sout1_C; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((run1C V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C V c t h0 h1 _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C V c t h0 h1 _)
    · rw [Dat.leavesExact_idle (dat1 V c) 3 t (idleAt1_3_B t (caseN0 t h0) (caseN1 t h1)) (noFlush1_3_B t (caseN0 t h0) (caseN1 t h1))]
      rw [outsAt1_B V c t h0 h1]
      unfold sout1_B; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((run1B V c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B V c t h0 h1 _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.Kernel.Hand

end
-- ==== Proof.K.Reg2.lean ====
/-
  Region 2 of the program: one grid point, taking the two partial pooled rows, the last weight matrix and bias row
  whole, and writing the single result row `max ((p₀ + p₁) · W + b) 0`.  Stated here, at any float instance: what the
  output's staging buffer holds after the body, that the body runs without a fault, and the proof data and body
  obligation the pipeline's launch theorem takes.
-/
import proofs.«135123_j81604378624770_2_alg».proof.Proof.Gen.Kernel.Launch
import proofs.«135123_j81604378624770_2_alg».proof.Proof.Gen.Kernel.Skeleton
import proofs.«135123_j81604378624770_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! # Region 2: the kernel `cc2__finalize_pool_kernel` (pipeline 2), entered with the buffers at `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (where it did not, the block index has not moved), for any proof data over these arrays whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not (where it did not, the block index has not moved), for any proof data over these arrays whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not (where it did not, the block index has not moved), for any proof data over these arrays whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body loads and stores through: each buffer whole -/

abbrev r2_0 : Rect S2x1x128 := Rect.unit (s := S2x1x128) ![0, 0, 0] S2x1x128.size inb_S2x1x128_S2x1x128_0_0_0
abbrev r2_1 : Rect S128x256 := Rect.unit (s := S128x256) ![0, 0] S128x256.size inb_S128x256_S128x256_0_0
abbrev r2_2 : Rect S1x256 := Rect.unit (s := S1x256) ![0, 0] S1x256.size inb_S1x256_S1x256_0_0
abbrev r2_3 : Rect S1x256 := Rect.unit (s := S1x256) ![0, 0] S1x256.size inb_S1x256_S1x256_0_0

/-- What the body leaves in the output window's staging buffer, from the input blocks: its one store, of the
    body's arithmetic (the payload) applied to the three loaded blocks. -/
def out2_3 (x0 : Vec F S2x1x128 .f32) (x1 : Vec F S128x256 .f32) (x2 : Vec F S1x256 .f32) : Vec F S1x256 .f32 :=
  View.canon [⟨r2_3, k2_pay1 (View.ld x0 r2_0) (View.ld x1 r2_1) (View.ld x2 r2_2)⟩]

/-- The one store covers the whole buffer. -/
theorem cover2_3 (p0 : Vec F S1x256 .f32) (y : S1x256.Idx) :
    ∃ pc ∈ ([⟨r2_3, p0⟩] : List (View.Piece (Elt F) S1x256 .f32)), y ∈ pc.1.set :=
  View.cover_of_tiled [⟨r2_3, p0⟩] S1x256.size (by rfl) y

set_option maxHeartbeats 1000000 in
/-- The body on whole staging buffers — the inputs' at contents `x·`, the output's at anything — runs to its end,
    faults nowhere, leaves the inputs as they were and the output's buffer at `out2_3` of the inputs. -/
theorem sound_kernel2 (c : Dev nD) (E : Set ℕ) (i : grid2.Coords) (arg0 : Memref sig .tc .vmem S2x1x128 .f32) (harg0 : arg0.IsWhole) (arg1 : Memref sig .tc .vmem S128x256 .f32) (harg1 : arg1.IsWhole) (arg2 : Memref sig .tc .vmem S1x256 .f32) (harg2 : arg2.IsWhole) (arg3 : Memref sig .tc .vmem S1x256 .f32) (harg3 : arg3.IsWhole)
    (x0 : Vec F S2x1x128 .f32) (x1 : Vec F S128x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__finalize_pool_kernel i arg0 harg0 arg1 harg1 arg2 harg2 arg3 harg3) K := by
  simp only [cc2__finalize_pool_kernel_eq_skeleton]; unfold cc2__finalize_pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t`
    each input's buffer still at its block and the output's at `out2_3` of the input blocks; the
    invariant leaves the other scoped buffers and the generator register untouched; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' buffers hold their blocks, so `sound_kernel2` applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Region2

end Cert.Kernel.Hand

end
-- ==== Proof.K.Frame.lean ====
/-
  The whole run of the program, at any float instance: its three host stretches and three kernel regions as the
  segments of one run, from the launch to the return.  Between two segments every unscoped buffer of the core is
  held at a named valuation — the launch memory, then each host stretch's operations applied, then each region's
  arrays at what its write-backs leave — so every weakly fair execution terminates without a fault and every
  unscoped buffer ends at the last valuation (`run_all`); the argument arrays are read back through the chain to
  their launch contents (`W6_main_arg·`), which is the frame claim (`frame`).
-/
import proofs.«135123_j81604378624770_2_alg».proof.Proof.Gen.Kernel.Launch
import proofs.«135123_j81604378624770_2_alg».proof.Proof.Gen.Kernel.Skeleton
import proofs.«135123_j81604378624770_2_alg».proof.Proof.Gen.Kernel.Points
import proofs.«135123_j81604378624770_2_alg».proof.Proof.Gen.Kernel.Regions
import proofs.«135123_j81604378624770_2_alg».proof.Proof.K.Reg0
import proofs.«135123_j81604378624770_2_alg».proof.Proof.K.Reg1
import proofs.«135123_j81604378624770_2_alg».proof.Proof.K.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between segments -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its windows' arrays at what the pipeline leaves (an input as entered, an output with its
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's own references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its windows' arrays at what the pipeline leaves (an input as entered, an output with its
    write-backs folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's own references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: its windows' arrays at what the pipeline leaves (an input as entered, an output with its
    write-backs folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's own references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

/-- `main_arg0` holds its launch contents at every boundary: no host operation writes it and no region's write-back changes it. -/
theorem W1_main_arg0 (c : Dev nD) : W1 m ρ c (Proc.devRef .tc main_arg0) = m ((c : Thread nD τ).loc main_arg0) :=
  (StableHlo.after_of_writes_sub hostOps0 _ hostOps0_writes (by decide)).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (StableHlo.after_of_writes_sub hostOps1 _ hostOps1_writes (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_writes_sub hostOps2 _ hostOps2_writes (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)

/-- `main_arg1` holds its launch contents at every boundary: no host operation writes it and no region's write-back changes it. -/
theorem W1_main_arg1 (c : Dev nD) : W1 m ρ c (Proc.devRef .tc main_arg1) = m ((c : Thread nD τ).loc main_arg1) :=
  (StableHlo.after_of_writes_sub hostOps0 _ hostOps0_writes (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_writes_sub hostOps1 _ hostOps1_writes (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_writes_sub hostOps2 _ hostOps2_writes (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)

/-- `main_arg2` holds its launch contents at every boundary: no host operation writes it and no region's write-back changes it. -/
theorem W1_main_arg2 (c : Dev nD) : W1 m ρ c (Proc.devRef .tc main_arg2) = m ((c : Thread nD τ).loc main_arg2) :=
  (StableHlo.after_of_writes_sub hostOps0 _ hostOps0_writes (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_writes_sub hostOps1 _ hostOps1_writes (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_writes_sub hostOps2 _ hostOps2_writes (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)

/-- `main_arg3` holds its launch contents at every boundary: no host operation writes it and no region's write-back changes it. -/
theorem W1_main_arg3 (c : Dev nD) : W1 m ρ c (Proc.devRef .tc main_arg3) = m ((c : Thread nD τ).loc main_arg3) :=
  (StableHlo.after_of_writes_sub hostOps0 _ hostOps0_writes (by decide)).trans rfl
theorem W2_main_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_main_arg3 m ρ c)
theorem W3_main_arg3 (c : Dev nD) : W3 m ρ c (Proc.devRef .tc main_arg3) = m ((c : Thread nD τ).loc main_arg3) :=
  (StableHlo.after_of_writes_sub hostOps1 _ hostOps1_writes (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_writes_sub hostOps2 _ hostOps2_writes (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)

/-- `main_arg4` holds its launch contents at every boundary: no host operation writes it and no region's write-back changes it. -/
theorem W1_main_arg4 (c : Dev nD) : W1 m ρ c (Proc.devRef .tc main_arg4) = m ((c : Thread nD τ).loc main_arg4) :=
  (StableHlo.after_of_writes_sub hostOps0 _ hostOps0_writes (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_writes_sub hostOps1 _ hostOps1_writes (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_writes_sub hostOps2 _ hostOps2_writes (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)

/-- `main_arg5` holds its launch contents at every boundary: no host operation writes it and no region's write-back changes it. -/
theorem W1_main_arg5 (c : Dev nD) : W1 m ρ c (Proc.devRef .tc main_arg5) = m ((c : Thread nD τ).loc main_arg5) :=
  (StableHlo.after_of_writes_sub hostOps0 _ hostOps0_writes (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_writes_sub hostOps1 _ hostOps1_writes (by decide)).trans (W2_main_arg5 m ρ c)
theorem W4_main_arg5 (c : Dev nD) : W4 m ρ c (Proc.devRef .tc main_arg5) = m ((c : Thread nD τ).loc main_arg5) :=
  ((W4_arr m ρ c 1).trans (((dat1 (V3 m ρ) c).arrAt_in 1 rfl _).trans (A_eq1 (V3 m ρ) c 1))).trans (W3_main_arg5 m ρ c)
theorem W5_main_arg5 (c : Dev nD) : W5 m ρ c (Proc.devRef .tc main_arg5) = m ((c : Thread nD τ).loc main_arg5) :=
  (StableHlo.after_of_writes_sub hostOps2 _ hostOps2_writes (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)

/-- `main_arg6` holds its launch contents at every boundary: no host operation writes it and no region's write-back changes it. -/
theorem W1_main_arg6 (c : Dev nD) : W1 m ρ c (Proc.devRef .tc main_arg6) = m ((c : Thread nD τ).loc main_arg6) :=
  (StableHlo.after_of_writes_sub hostOps0 _ hostOps0_writes (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_writes_sub hostOps1 _ hostOps1_writes (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_writes_sub hostOps2 _ hostOps2_writes (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)

/-- `main_arg7` holds its launch contents at every boundary: no host operation writes it and no region's write-back changes it. -/
theorem W1_main_arg7 (c : Dev nD) : W1 m ρ c (Proc.devRef .tc main_arg7) = m ((c : Thread nD τ).loc main_arg7) :=
  (StableHlo.after_of_writes_sub hostOps0 _ hostOps0_writes (by decide)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_writes_sub hostOps1 _ hostOps1_writes (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (StableHlo.after_of_writes_sub hostOps2 _ hostOps2_writes (by decide)).trans (W4_main_arg7 m ρ c)
theorem W6_main_arg7 (c : Dev nD) : W6 m ρ c (Proc.devRef .tc main_arg7) = m ((c : Thread nD τ).loc main_arg7) :=
  ((W6_arr m ρ c 1).trans (((dat2 (V5 m ρ) c).arrAt_in 1 rfl _).trans (A_eq2 (V5 m ρ) c 1))).trans (W5_main_arg7 m ρ c)

/-- `main_arg8` holds its launch contents at every boundary: no host operation writes it and no region's write-back changes it. -/
theorem W1_main_arg8 (c : Dev nD) : W1 m ρ c (Proc.devRef .tc main_arg8) = m ((c : Thread nD τ).loc main_arg8) :=
  (StableHlo.after_of_writes_sub hostOps0 _ hostOps0_writes (by decide)).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_writes_sub hostOps1 _ hostOps1_writes (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (StableHlo.after_of_writes_sub hostOps2 _ hostOps2_writes (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment of the run: entered with every unscoped buffer at `W1`, left with them at `W2`. Its
    windows' arrays are split out of the unscoped buffers at entry and put back, at what the write-backs leave, at
    exit; the generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at `W3`, left with them at `W4`. Its
    windows' arrays are split out of the unscoped buffers at entry and put back, at what the write-backs leave, at
    exit; the generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at `W5`, left with them at `W6`. Its
    windows' arrays are split out of the unscoped buffers at entry and put back, at what the write-backs leave, at
    exit; the generator register goes into the region's invariant and comes back; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has every unscoped buffer of every core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame claim at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c)⟩) (run_all m ρ)

end Cert.Kernel.Hand

end
-- ==== Proof.KI.Reg0.lean ====
/-
  Region 0 of the program: ten grid points, each taking a block of 10000 node rows of the first aggregation, the
  whole first weight matrix and bias row, and writing the block's rows of `max (a · W + b) 0`.  Stated here, at
  any float instance: what each staging buffer holds after the body at a point, that the body runs there without a
  fault, and the proof data and body obligation the pipeline's launch theorem takes.
-/
import proofs.«135123_j81604378624770_2_alg».proof.Proof.Gen.KernelIdeal.Launch
import proofs.«135123_j81604378624770_2_alg».proof.Proof.Gen.KernelIdeal.Skeleton
import proofs.«135123_j81604378624770_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-! # Region 0: the kernel `cc0__linear_relu_kernel` (pipeline 0), entered with the buffers at `V` -/

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the pipeline fetched it there or
    not (where it did not, the block index has not moved), for any proof data over these arrays whose body leaves
    the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the pipeline fetched it there or
    not (where it did not, the block index has not moved), for any proof data over these arrays whose body leaves
    the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the pipeline fetched it there or
    not (where it did not, the block index has not moved), for any proof data over these arrays whose body leaves
    the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The rectangles the body loads and stores through: each buffer whole -/

abbrev r0_0 : Rect S10000x128 := Rect.unit (s := S10000x128) ![0, 0] S10000x128.size inb_S10000x128_S10000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0
abbrev r0_3 : Rect S10000x128 := Rect.unit (s := S10000x128) ![0, 0] S10000x128.size inb_S10000x128_S10000x128_0_0

/-- What the body leaves in the output window's staging buffer, from the input blocks: its one store, of the
    body's arithmetic (the payload) applied to the three loaded blocks. -/
def out0_3 (x0 : Vec F S10000x128 .f32) (x1 : Vec F S128x128 .f32) (x2 : Vec F S1x128 .f32) : Vec F S10000x128 .bf16 :=
  View.canon [⟨r0_3, k0_pay1 (View.ld x0 r0_0) (View.ld x1 r0_1) (View.ld x2 r0_2)⟩]

/-- The one store covers the whole buffer. -/
theorem cover0_3 (p0 : Vec F S10000x128 .bf16) (y : S10000x128.Idx) :
    ∃ pc ∈ ([⟨r0_3, p0⟩] : List (View.Piece (Elt F) S10000x128 .bf16)), y ∈ pc.1.set :=
  View.cover_of_tiled [⟨r0_3, p0⟩] S10000x128.size (by rfl) y

set_option maxHeartbeats 1000000 in
/-- The body on whole staging buffers — the inputs' at contents `x·`, the output's at anything — runs to its end,
    faults nowhere, leaves the inputs as they were and the output's buffer at `out0_3` of the inputs. -/
theorem sound_kernel0 (c : Dev nD) (E : Set ℕ) (i : grid0.Coords) (arg0 : Memref sig .tc .vmem S10000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S10000x128 .bf16) (harg3 : arg3.IsWhole)
    (x0 : Vec F S10000x128 .f32) (x1 : Vec F S128x128 .f32) (x2 : Vec F S1x128 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out0_3 x0 x1 x2)) -∗ K ⟨⟩))
      ⊢ wp frame (wpE (defs₀ (F := F)) Variants.none c none) E (cc0__linear_relu_kernel i arg0 harg0 arg1 harg1 arg2 harg2 arg3 harg3) K := by
  simp only [cc0__linear_relu_kernel_eq_skeleton]; unfold cc0__linear_relu_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t`
    each input's buffer still at its block and the output's at `out0_3` of the input blocks; the
    invariant leaves the other scoped buffers and the generator register untouched; nothing is owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

set_option maxHeartbeats 1000000 in
/-- The body at any point: the inputs' buffers hold their blocks, so `sound_kernel0` applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.Reg1Runs.lean ====
/- Region 1 of the program (the pooled second layer, grid (2, 5)): what the three cases of its body share — the
   windows' blocks at the region-entry contents, the body's two branch conditions in closed form over the grid,
   where the output window is idle, the staging and scratch memrefs, and the region invariant with the scratch
   accumulator singled out. -/
import proofs.«135123_j81604378624770_2_alg».proof.Proof.Gen.KernelIdeal.Launch
import proofs.«135123_j81604378624770_2_alg».proof.Proof.Gen.KernelIdeal.Skeleton
import proofs.«135123_j81604378624770_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: a parameter
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is the entry contents (`hA`) and whose body leaves the block in place (`hafter`): unfetched,
    the block index has not moved; the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is the entry contents (`hA`) and whose body leaves the block in place (`hafter`): unfetched,
    the block index has not moved; the window is uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is the entry contents (`hA`) and whose body leaves the block in place (`hafter`): unfetched,
    the block index has not moved; the window is uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's first conditional (the accumulator is zeroed): the second grid coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 5) — decided over the grid. -/
theorem hcond1_0 : ∀ t : Fin cfg1.N, cond1_0 (grid1.coords t) ↔ t.val % 5 = 0 :=
  (by decide +kernel : ∀ t : Fin grid1.N, cond1_0 (grid1.coords t) ↔ t.val % 5 = 0)

/-- The condition of the body's second conditional (the accumulator is copied out): the second grid coordinate is 4. -/
abbrev cond1_1 (i : grid1.Coords) : Prop := k1_cond2 i = 1#1
/-- It holds at the points ≡ 4 (mod 5) — decided over the grid. -/
theorem hcond1_1 : ∀ t : Fin cfg1.N, cond1_1 (grid1.coords t) ↔ t.val % 5 = 4 :=
  (by decide +kernel : ∀ t : Fin grid1.N, cond1_1 (grid1.coords t) ↔ t.val % 5 = 4)

/-! ## Where the windows are idle -/

/-- The three input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- At the first point of a run of five the output window is idle: nothing is stored into it, -/
theorem idleAt1_3_A : ∀ t : Fin cfg1.N, cond1_0 (grid1.coords t) → ¬cond1_1 (grid1.coords t) → cfg1.idle 3 (grid1.coords t) = true := by decide +kernel
/-- and its block is not written back. -/
theorem noFlush1_3_A : ∀ t : Fin cfg1.N, cond1_0 (grid1.coords t) → ¬cond1_1 (grid1.coords t) → (cfg1.win 3).flush t = false := by decide +kernel
/-- The same at the three middle points of a run. -/
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last point of a run the output window is live: the accumulator is stored into it. -/
theorem liveAt1_3_C : ∀ t : Fin cfg1.N, ¬cond1_0 (grid1.coords t) → cond1_1 (grid1.coords t) → cfg1.idle 3 (grid1.coords t) = false := by decide +kernel

/-! ## The memrefs the body is called with -/

/-- One staging buffer of the output window, through which its contents are stated (the choice does not matter). -/
abbrev VO1_3 : View sig .tc .vmem S1x1x128 .f32 := (Memref.whole cc1_stg3_0 : Memref sig .tc .vmem S1x1x128 .f32).view
/-- Each window's current staging memref at point `t`, and its wholeness. -/
abbrev ms1_0 (t : Fin cfg1.N) : Memref sig .tc .vmem S10000x128 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S128x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1x128 .f32 := win1_3.stage (cfg1.slots t 3)
abbrev hs1_3 (t : Fin cfg1.N) : (ms1_3 t).IsWhole := hstage1_3 ((cfg1.slots t 3).cast nbuf1_3)
/-- The scratch accumulator: a whole scoped buffer of the kernel's own, passed beside the windows. -/
abbrev scM1_0 : Memref sig .tc .vmem S1x128 .f32 := Memref.whole cc1_scratch0
/-- The same as a view: what the accumulator holds is stated through it. -/
abbrev VS1_0 : View sig .tc .vmem S1x128 .f32 := scM1_0.view

/-! ## The region invariant, the accumulator singled out -/

/-- The core's scoped buffers that are staging buffers of the other two regions, each whole at some contents: the
    body never names them. -/
def others1 (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg3_0), ((c : Thread nD τ).loc cc0_stg3_0) ↦{fullShare} f)
    ∗ (∃ f : Buf (Elt F) ((c : Thread nD τ).loc cc0_stg3_1), ((c : Thread nD τ).loc cc0_stg3_1) ↦{fullShare} f)
    ∗ (∃ f : Buf (Elt F) ((c : Thread nD τ).loc cc2_stg0_0), ((c : Thread nD τ).loc cc2_stg0_0) ↦{fullShare} f)
    ∗ (∃ f : Buf (Elt F) ((c : Thread nD τ).loc cc2_stg1_0), ((c : Thread nD τ).loc cc2_stg1_0) ↦{fullShare} f)
    ∗ (∃ f : Buf (Elt F) ((c : Thread nD τ).loc cc2_stg2_0), ((c : Thread nD τ).loc cc2_stg2_0) ↦{fullShare} f)
    ∗ (∃ f : Buf (Elt F) ((c : Thread nD τ).loc cc2_stg3_0), ((c : Thread nD τ).loc cc2_stg3_0) ↦{fullShare} f))

/-- Two assertions that entail each other are equal. -/
theorem eq_of_entails1 {P Q : sProp 𝕄} (h₁ : P ⊢ Q) (h₂ : Q ⊢ P) : P = Q := Idealize.SL.BI.Entails.antisymm h₁ h₂

/-- The region invariant (the scoped buffers that are no staging buffer of this region, at some contents each, and
    the generator register at some state) with the accumulator as a memref owned at some contents. -/
theorem PhiA1_eq (c : Dev nD) :
    (Pipeline.ΦA spec1 c : sProp 𝕄)
      = iprop(iprop((∃ d, owns (c : Thread nD τ) scM1_0 fullShare d) ∗ others1 (F := F) c) ∗ (∃ r, prngReg c r)) := by
  unfold Pipeline.ΦA others1; rw [scopedRest1_eq]; simp only [scM1_0, owns_whole]
  refine eq_of_entails1 ?_ ?_
  · iintro ⟨⟨R0, R1, R2, R3, R4, R5, HS, R7, R8, R9, R10⟩, Hg⟩
    iframe
  · iintro ⟨⟨HS, R0, R1, R2, R3, R4, R5, R7, R8, R9, R10⟩, Hg⟩
    iframe

end Cert.KernelIdeal.Hand

end
-- ==== Proof.KI.Reg1RunA.lean ====
/- Region 1, the body's run at the FIRST point of a run of five (the accumulator is zeroed, then accumulated into; nothing is stored into the output window). -/
import proofs.«135123_j81604378624770_2_alg».proof.Proof.KI.Reg1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's staging memref and in the accumulator, as pieces (last
    first), in this case, with the proof that on whole memrefs the body runs to the continuation holding the inputs'
    as they were and each stored buffer with its pieces written: the printed function is its skeleton, each
    conditional decided by the case's hypotheses; the pieces are the witness the run finds. -/
noncomputable def kernelRun1_A (c : Dev nD) (i : grid1.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x128 .f32) (harg6 : arg6.IsWhole) (hc0 : cond1_0 i) (hc1 : ¬cond1_1 i)
    (x0 : Vec F S10000x128 .f32) (x1 : Vec F S128x128 .f32) (x2 : Vec F S1x128 .f32) :
    Σ' (L3 : List (View.Piece (Elt F) S1x1x128 .f32)), { LS0 : List (View.Piece (Elt F) S1x128 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn2_pool_kernel i arg2 harg2 arg3 harg3 arg4 harg4 arg5 harg5 arg6 harg6) K } := by
  refine ⟨[], ?_, fun xi3 E K => ?run⟩
  case run =>
    simp only [cc1__gcn2_pool_kernel_eq_skeleton]; unfold cc1__gcn2_pool_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg1RunB.lean ====
/- Region 1, the body's run at a MIDDLE point of a run of five (accumulated into the accumulator the point before left; nothing is stored into the output window). -/
import proofs.«135123_j81604378624770_2_alg».proof.Proof.KI.Reg1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's staging memref and in the accumulator, as pieces (last
    first), in this case, with the proof that on whole memrefs the body runs to the continuation holding the inputs'
    as they were and each stored buffer with its pieces written: the printed function is its skeleton, each
    conditional decided by the case's hypotheses; the pieces are the witness the run finds. -/
noncomputable def kernelRun1_B (c : Dev nD) (i : grid1.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x128 .f32) (harg6 : arg6.IsWhole) (hc0 : ¬cond1_0 i) (hc1 : ¬cond1_1 i)
    (x0 : Vec F S10000x128 .f32) (x1 : Vec F S128x128 .f32) (x2 : Vec F S1x128 .f32) (xs0 : Vec F S1x128 .f32) :
    Σ' (L3 : List (View.Piece (Elt F) S1x1x128 .f32)), { LS0 : List (View.Piece (Elt F) S1x128 .f32) //
      ∀ (xi3 : Vec F S1x1x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__gcn2_pool_kernel i arg2 harg2 arg3 harg3 arg4 harg4 arg5 harg5 arg6 harg6) K } := by
  refine ⟨[], ?_, fun xi3 E K => ?run⟩
  case run =>
    simp only [cc1__gcn2_pool_kernel_eq_skeleton]; unfold cc1__gcn2_pool_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.Reg1RunC.lean ====
/- Region 1, the body's run at the LAST point of a run of five (accumulated into the accumulator the point before left, which is then copied into the output window). -/
import proofs.«135123_j81604378624770_2_alg».proof.Proof.KI.Reg1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- What the body's stores leave in the output window's staging memref and in the accumulator, as pieces (last
    first), in this case, with the proof that on whole memrefs the body runs to the continuation holding the inputs'
    as they were and each stored buffer with its pieces written: the printed function is its skeleton, each
    conditional decided by the case's hypotheses; the pieces are the witness the run finds. -/
noncomputable def kernelRun1_C (c : Dev nD) (i : grid1.Coords) (arg2 : Memref sig .tc .vmem S10000x128 .f32) (harg2 : arg2.IsWhole) (arg3 : Memref sig .tc .vmem S128x128 .f32) (harg3 : arg3.IsWhole) (arg4 : Memref sig .tc .vmem S1x128 .f32) (harg4 : arg4.IsWhole) (arg5 : Memref sig .tc .vmem S1x1x128 .f32) (harg5 : arg5.IsWhole) (arg6 : Memref sig .tc .vmem S1x128 .f32) (harg6 : arg6.IsWhole) (hc0 : ¬cond1_0 i) (hc1 : cond1_1 i)
    (x0 : Vec F S10000x128 .f32) (x1 : Vec F S128x128 .f32) (x2 : Vec F S1x128 .f32) (xs0 : Vec F S1x128 .f32) :
    Σ' (L3 : List (View.Piece (Elt F) S1x1x128 .f32)), { LS0 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__gcn2_pool_kernel i arg2 harg2 arg3 harg3 arg4 harg4 arg5 harg5 arg6 harg6) K } := by
  refine ⟨?_, ?_, fun E K => ?run⟩
  case run =>
    simp only [cc1__gcn2_pool_kernel_eq_skeleton]; unfold cc1__gcn2_pool_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.Reg1.lean ====
/- Region 1 of the program (the pooled second layer, grid (2, 5)): what its output window's staging buffer and the
   accumulator hold after each point, the proof data of the pipeline, and the body obligation.

   The body has three cases along a run of five points that share the first grid coordinate: at the first point the
   accumulator is zeroed and the point's block summed into it; at the three middle points the block is summed into
   what the point before left; at the last point the same, and the accumulator is copied into the output window's
   block. The accumulator's contents after each point are therefore stated by recursion on the point's position. -/
import proofs.«135123_j81604378624770_2_alg».proof.Proof.KI.Reg1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The case of a point, from its position in its run of five -/

theorem caseA0 (t : Fin cfg1.N) (h0 : t.val % 5 = 0) : cond1_0 (grid1.coords t) := (hcond1_0 t).mpr h0
theorem caseA1 (t : Fin cfg1.N) (h0 : t.val % 5 = 0) : ¬cond1_1 (grid1.coords t) :=
  fun h => by have := (hcond1_1 t).mp h; omega
theorem caseN0 (t : Fin cfg1.N) (h0 : ¬t.val % 5 = 0) : ¬cond1_0 (grid1.coords t) := fun h => h0 ((hcond1_0 t).mp h)
theorem caseN1 (t : Fin cfg1.N) (h1 : ¬t.val % 5 = 4) : ¬cond1_1 (grid1.coords t) := fun h => h1 ((hcond1_1 t).mp h)
theorem caseC1 (t : Fin cfg1.N) (h1 : t.val % 5 = 4) : cond1_1 (grid1.coords t) := (hcond1_1 t).mpr h1

/-! ## The body's run at a point: at the point's staging memrefs, the accumulator and the input blocks -/

/-- At the first point of a run of five. -/
abbrev run1A (c : Dev nD) (t : Fin cfg1.N) (h0 : t.val % 5 = 0) :=
  kernelRun1_A (F := F) c (grid1.coords t) (ms1_0 t) (hs1_0 t) (ms1_1 t) (hs1_1 t) (ms1_2 t) (hs1_2 t) (ms1_3 t) (hs1_3 t) scM1_0 (Memref.isWhole_whole _)
    (caseA0 t h0) (caseA1 t h0) (iblk1 V c 0 t) (iblk1 V c 1 t) (iblk1 V c 2 t)
/-- At a middle point, over the accumulator's contents `xs` the point before left. -/
abbrev run1B (c : Dev nD) (t : Fin cfg1.N) (h0 : ¬t.val % 5 = 0) (h1 : ¬t.val % 5 = 4) (xs : Vec F S1x128 .f32) :=
  kernelRun1_B (F := F) c (grid1.coords t) (ms1_0 t) (hs1_0 t) (ms1_1 t) (hs1_1 t) (ms1_2 t) (hs1_2 t) (ms1_3 t) (hs1_3 t) scM1_0 (Memref.isWhole_whole _)
    (caseN0 t h0) (caseN1 t h1) (iblk1 V c 0 t) (iblk1 V c 1 t) (iblk1 V c 2 t) xs
/-- At the last point, over the accumulator's contents `xs` the point before left. -/
abbrev run1C (c : Dev nD) (t : Fin cfg1.N) (h0 : ¬t.val % 5 = 0) (h1 : t.val % 5 = 4) (xs : Vec F S1x128 .f32) :=
  kernelRun1_C (F := F) c (grid1.coords t) (ms1_0 t) (hs1_0 t) (ms1_1 t) (hs1_1 t) (ms1_2 t) (hs1_2 t) (ms1_3 t) (hs1_3 t) scM1_0 (Memref.isWhole_whole _)
    (caseN0 t h0) (caseC1 t h1) (iblk1 V c 0 t) (iblk1 V c 1 t) (iblk1 V c 2 t) xs

/-! ## What each case leaves -/

/-- The first point's stores into the accumulator (the zeros, then the sum over them) tile it, so they cover it. -/
theorem scover1_A (c : Dev nD) (t : Fin cfg1.N) (h0 : t.val % 5 = 0) (y : S1x128.Idx) :
    ∃ pc ∈ (run1A V c t h0).2.1, y ∈ pc.1.set :=
  View.cover_of_tiledL (run1A V c t h0).2.1 S1x128.size (by sl_kernel_rfl) y
/-- What the first point leaves in the accumulator: its pieces read back. -/
def sout1_A (c : Dev nD) (t : Fin cfg1.N) (h0 : t.val % 5 = 0) : Vec F S1x128 .f32 :=
  VS1_0.read (Elt F) (VS1_0.writes (Elt F) VS1_0.junk (run1A V c t h0).2.1)
/-- The first point stores nothing into the output window (idle there, and not written back): a placeholder that
    nothing consults. -/
def out1_A (c : Dev nD) (t : Fin cfg1.N) (h0 : t.val % 5 = 0) : Vec F S1x1x128 .f32 :=
  VO1_3.read (Elt F) (VO1_3.writes (Elt F) VO1_3.junk (run1A V c t h0).1)

/-- A middle point's one store into the accumulator covers it. -/
theorem scover1_B (c : Dev nD) (t : Fin cfg1.N) (h0 : ¬t.val % 5 = 0) (h1 : ¬t.val % 5 = 4) (xs : Vec F S1x128 .f32) (y : S1x128.Idx) :
    ∃ pc ∈ (run1B V c t h0 h1 xs).2.1, y ∈ pc.1.set :=
  View.cover_of_tiledL (run1B V c t h0 h1 xs).2.1 S1x128.size (by sl_kernel_rfl) y
/-- What a middle point leaves in the accumulator. -/
def sout1_B (c : Dev nD) (t : Fin cfg1.N) (h0 : ¬t.val % 5 = 0) (h1 : ¬t.val % 5 = 4) (xs : Vec F S1x128 .f32) : Vec F S1x128 .f32 :=
  VS1_0.read (Elt F) (VS1_0.writes (Elt F) VS1_0.junk (run1B V c t h0 h1 xs).2.1)
/-- A middle point stores nothing into the output window: a placeholder that nothing consults. -/
def out1_B (c : Dev nD) (t : Fin cfg1.N) (h0 : ¬t.val % 5 = 0) (h1 : ¬t.val % 5 = 4) (xs : Vec F S1x128 .f32) : Vec F S1x1x128 .f32 :=
  VO1_3.read (Elt F) (VO1_3.writes (Elt F) VO1_3.junk (run1B V c t h0 h1 xs).1)

/-- The last point's one store into the accumulator covers it, -/
theorem scover1_C (c : Dev nD) (t : Fin cfg1.N) (h0 : ¬t.val % 5 = 0) (h1 : t.val % 5 = 4) (xs : Vec F S1x128 .f32) (y : S1x128.Idx) :
    ∃ pc ∈ (run1C V c t h0 h1 xs).2.1, y ∈ pc.1.set :=
  View.cover_of_tiledL (run1C V c t h0 h1 xs).2.1 S1x128.size (by sl_kernel_rfl) y
/-- and its one store into the output window's block covers that. -/
theorem cover1_C (c : Dev nD) (t : Fin cfg1.N) (h0 : ¬t.val % 5 = 0) (h1 : t.val % 5 = 4) (xs : Vec F S1x128 .f32) (y : S1x1x128.Idx) :
    ∃ pc ∈ (run1C V c t h0 h1 xs).1, y ∈ pc.1.set :=
  View.cover_of_tiledL (run1C V c t h0 h1 xs).1 S1x1x128.size (by sl_kernel_rfl) y
/-- What the last point leaves in the accumulator, -/
def sout1_C (c : Dev nD) (t : Fin cfg1.N) (h0 : ¬t.val % 5 = 0) (h1 : t.val % 5 = 4) (xs : Vec F S1x128 .f32) : Vec F S1x128 .f32 :=
  VS1_0.read (Elt F) (VS1_0.writes (Elt F) VS1_0.junk (run1C V c t h0 h1 xs).2.1)
/-- and in the output window's staging buffer. -/
def out1_C (c : Dev nD) (t : Fin cfg1.N) (h0 : ¬t.val % 5 = 0) (h1 : t.val % 5 = 4) (xs : Vec F S1x128 .f32) : Vec F S1x1x128 .f32 :=
  VO1_3.read (Elt F) (VO1_3.writes (Elt F) VO1_3.junk (run1C V c t h0 h1 xs).1)

/-! ## What the output window's buffer and the accumulator hold after each point -/

/-- THE ACCUMULATION. What the output window's staging buffer and the accumulator hold after the body at position
    `n` (output block, accumulator): the case the position selects, a middle or last point over what position
    `n - 1` left in the accumulator. -/
def outsAt1 (c : Dev nD) : (n : ℕ) → n < cfg1.N → Vec F S1x1x128 .f32 × Vec F S1x128 .f32
  | 0, hn => (out1_A V c ⟨0, hn⟩ (Nat.zero_mod _), sout1_A V c ⟨0, hn⟩ (Nat.zero_mod _))
  | n + 1, hn =>
    if h0 : (n + 1) % 5 = 0 then
      (out1_A V c ⟨n + 1, hn⟩ h0, sout1_A V c ⟨n + 1, hn⟩ h0)
    else if h1 : (n + 1) % 5 = 4 then
      (out1_C V c ⟨n + 1, hn⟩ h0 h1 (outsAt1 c n (Nat.lt_of_succ_lt hn)).2, sout1_C V c ⟨n + 1, hn⟩ h0 h1 (outsAt1 c n (Nat.lt_of_succ_lt hn)).2)
    else
      (out1_B V c ⟨n + 1, hn⟩ h0 h1 (outsAt1 c n (Nat.lt_of_succ_lt hn)).2, sout1_B V c ⟨n + 1, hn⟩ h0 h1 (outsAt1 c n (Nat.lt_of_succ_lt hn)).2)

/-- At the first point of a run. -/
theorem outsAt1_A (c : Dev nD) (t : Fin cfg1.N) (h0 : t.val % 5 = 0) :
    outsAt1 V c t.val t.isLt = (out1_A V c t h0, sout1_A V c t h0) := by
  obtain ⟨n, hn⟩ := t
  cases n with
  | zero => exact rfl
  | succ n => exact (dif_pos h0).trans rfl

/-- At a middle point: over what the point before left. -/
theorem outsAt1_B (c : Dev nD) (t : Fin cfg1.N) (h0 : ¬t.val % 5 = 0) (h1 : ¬t.val % 5 = 4) :
    outsAt1 V c t.val t.isLt = (out1_B V c t h0 h1 (outsAt1 V c (t.val - 1) (Nat.lt_of_le_of_lt (Nat.sub_le _ _) t.isLt)).2,
      sout1_B V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At the last point of a run: over what the point before left. -/
theorem outsAt1_C (c : Dev nD) (t : Fin cfg1.N) (h0 : ¬t.val % 5 = 0) (h1 : t.val % 5 = 4) :
    outsAt1 V c t.val t.isLt = (out1_C V c t h0 h1 (outsAt1 V c (t.val - 1) (Nat.lt_of_le_of_lt (Nat.sub_le _ _) t.isLt)).2,
      sout1_C V c t h0 h1 (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, point by point -/

/-- The region invariant before position `n`: before the first point the launch's (every scoped buffer that is no
    staging buffer of this region at some contents, the generator register at some state); afterwards the same with
    the accumulator at what the point before left in it. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2) ∗ others1 (F := F) c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulator at that point's contents. -/
theorem PhiS1_succ (c : Dev nD) (n : ℕ) (hn : n < cfg1.N) :
    PhiS1 V c (n + 1) hn = iprop(iprop(owns (c : Thread nD τ) scM1_0 fullShare ((outsAt1 V c n hn).2) ∗ others1 (F := F) c) ∗ (∃ r, prngReg c r)) := rfl

/-- Before a point that is not the first: the accumulator at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2) ∗ others1 (F := F) c) ∗ (∃ r, prngReg c r)) := by
  cases n with
  | zero => exact absurd rfl hz
  | succ n => rfl

/-! ## The pipeline's proof data -/

/-- The proof data of pipeline 1 on core `c`: the arrays as the region finds them (`V`); after the body at point
    `t` each input's buffer at its block and the output's at `outsAt1`; the invariant `PhiS1`; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at the point's position. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the point's position says which case it is in;
    the invariant hands the body the accumulator at what the point before left (at anything at the very first point)
    and takes it back at this point's contents, its stores covering it; where the output window is idle its buffer is
    handed back untouched, at the last point of a run with the covering store's contents; the core owes nothing
    throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 10 := lt_of_lt_of_eq t.isLt (show cfg1.N = 10 from N_1)
  rw [show (dat1 V c).leavesExact 0 t = owns (c : Thread nD τ) (ms1_0 t) fullShare ((dat1 V c).after 0 t) from (by
    unfold Dat.leavesExact; rw [liveAt1_0 t]), after1_0]
  rw [show (dat1 V c).leavesExact 1 t = owns (c : Thread nD τ) (ms1_1 t) fullShare ((dat1 V c).after 1 t) from (by
    unfold Dat.leavesExact; rw [liveAt1_1 t]), after1_1]
  rw [show (dat1 V c).leavesExact 2 t = owns (c : Thread nD τ) (ms1_2 t) fullShare ((dat1 V c).after 2 t) from (by
    unfold Dat.leavesExact; rw [liveAt1_2 t]), after1_2]
  by_cases h0 : t.val % 5 = 0
  · rw [Dat.leavesExact_idle (dat1 V c) 3 t (idleAt1_3_A t (caseA0 t h0) (caseA1 t h0)) (noFlush1_3_A t (caseA0 t h0) (caseA1 t h0))]
    rw [outsAt1_A V c t h0]
    unfold sout1_A; (try dsimp only)
    by_cases hz : t.val = 0
    · rw [PhiS1_castSucc V c t, PhiS1_zero V c _ _ hz, PhiA1_eq]
      iintro ⟨⟨⟨HS0, Hr⟩, Hg⟩, Ho, ⟨%d0, H0⟩, ⟨%d1, H1⟩, ⟨%d2, H2⟩, ⟨%d3, H3⟩⟩
      iapply ((run1A V c t h0).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A V c t h0)
          iexact Hr
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((run1A V c t h0).2.2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_A V c t h0)
          iexact Hr
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 5 = 4
    · rw [show (dat1 V c).leavesExact 3 t = owns (c : Thread nD τ) (ms1_3 t) fullShare ((dat1 V c).after 3 t) from (by
        unfold Dat.leavesExact; rw [liveAt1_3_C t (caseN0 t h0) (caseC1 t h1)]), after1_3]
      rw [outsAt1_C V c t h0 h1]
      unfold out1_C sout1_C; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((run1C V c t h0 h1 _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_C V c t h0 h1 _)
          iexact Hr
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C V c t h0 h1 _)
    · rw [Dat.leavesExact_idle (dat1 V c) 3 t (idleAt1_3_B t (caseN0 t h0) (caseN1 t h1)) (noFlush1_3_B t (caseN0 t h0) (caseN1 t h1))]
      rw [outsAt1_B V c t h0 h1]
      unfold sout1_B; (try dsimp only)
      rw [PhiS1_castSucc V c t, PhiS1_pos V c _ _ hz]
      iintro ⟨⟨⟨HS0, Hr⟩, Hg⟩, Ho, ⟨%d0, H0⟩, ⟨%d1, H1⟩, ⟨%d2, H2⟩, ⟨%d3, H3⟩⟩
      iapply ((run1B V c t h0 h1 _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover1_B V c t h0 h1 _)
          iexact Hr
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 10 := N_1; omega)

end Cert.KernelIdeal.Hand

end
-- ==== Proof.KI.Reg2.lean ====
/-
  Region 2 of the program: one grid point, taking the two partial pooled rows, the last weight matrix and bias row
  whole, and writing the single result row `max ((p₀ + p₁) · W + b) 0`.  Stated here, at any float instance: what the
  output's staging buffer holds after the body, that the body runs without a fault, and the proof data and body
  obligation the pipeline's launch theorem takes.
-/
import proofs.«135123_j81604378624770_2_alg».proof.Proof.Gen.KernelIdeal.Launch
import proofs.«135123_j81604378624770_2_alg».proof.Proof.Gen.KernelIdeal.Skeleton
import proofs.«135123_j81604378624770_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region2

variable (V : (c : Dev nD) → (b : Ref sig .tc) → Buf (Elt F) ((c : Thread nD τ).loc b))

/-! # Region 2: the kernel `cc2__finalize_pool_kernel` (pipeline 2), entered with the buffers at `V` -/

/-- Window `w`'s block at grid point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, whether the pipeline fetched it there or
    not (where it did not, the block index has not moved), for any proof data over these arrays whose body leaves
    the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, whether the pipeline fetched it there or
    not (where it did not, the block index has not moved), for any proof data over these arrays whose body leaves
    the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, whether the pipeline fetched it there or
    not (where it did not, the block index has not moved), for any proof data over these arrays whose body leaves
    the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The rectangles the body loads and stores through: each buffer whole -/

abbrev r2_0 : Rect S2x1x128 := Rect.unit (s := S2x1x128) ![0, 0, 0] S2x1x128.size inb_S2x1x128_S2x1x128_0_0_0
abbrev r2_1 : Rect S128x256 := Rect.unit (s := S128x256) ![0, 0] S128x256.size inb_S128x256_S128x256_0_0
abbrev r2_2 : Rect S1x256 := Rect.unit (s := S1x256) ![0, 0] S1x256.size inb_S1x256_S1x256_0_0
abbrev r2_3 : Rect S1x256 := Rect.unit (s := S1x256) ![0, 0] S1x256.size inb_S1x256_S1x256_0_0

/-- What the body leaves in the output window's staging buffer, from the input blocks: its one store, of the
    body's arithmetic (the payload) applied to the three loaded blocks. -/
def out2_3 (x0 : Vec F S2x1x128 .f32) (x1 : Vec F S128x256 .f32) (x2 : Vec F S1x256 .f32) : Vec F S1x256 .f32 :=
  View.canon [⟨r2_3, k2_pay1 (View.ld x0 r2_0) (View.ld x1 r2_1) (View.ld x2 r2_2)⟩]

/-- The one store covers the whole buffer. -/
theorem cover2_3 (p0 : Vec F S1x256 .f32) (y : S1x256.Idx) :
    ∃ pc ∈ ([⟨r2_3, p0⟩] : List (View.Piece (Elt F) S1x256 .f32)), y ∈ pc.1.set :=
  View.cover_of_tiled [⟨r2_3, p0⟩] S1x256.size (by rfl) y

set_option maxHeartbeats 1000000 in
/-- The body on whole staging buffers — the inputs' at contents `x·`, the output's at anything — runs to its end,
    faults nowhere, leaves the inputs as they were and the output's buffer at `out2_3` of the inputs. -/
theorem sound_kernel2 (c : Dev nD) (E : Set ℕ) (i : grid2.Coords) (arg0 : Memref sig .tc .vmem S2x1x128 .f32) (harg0 : arg0.IsWhole) (arg1 : Memref sig .tc .vmem S128x256 .f32) (harg1 : arg1.IsWhole) (arg2 : Memref sig .tc .vmem S1x256 .f32) (harg2 : arg2.IsWhole) (arg3 : Memref sig .tc .vmem S1x256 .f32) (harg3 : arg3.IsWhole)
    (x0 : Vec F S2x1x128 .f32) (x1 : Vec F S128x256 .f32) (x2 : Vec F S1x256 .f32) (K : PUnit → sProp 𝕄) :
    iprop(owns (c : Thread nD τ) arg0 fullShare x0 ∗ owns (c : Thread nD τ) arg1 fullShare x1 ∗ owns (c : Thread nD τ) arg2 fullShare x2 ∗ (∃ d, owns (c : Thread nD τ) arg3 fullShare d)
        ∗ (iprop(owns (c : Thread nD τ) arg0 fullShare x0 ∗ owns (c : Thread nD τ) arg1 fullShare x1 ∗ owns (c : Thread nD τ) arg2 fullShare x2 ∗ owns (c : Thread nD τ) arg3 fullShare (out2_3 x0 x1 x2)) -∗ K ⟨⟩))
      ⊢ wp frame (wpE (defs₀ (F := F)) Variants.none c none) E (cc2__finalize_pool_kernel i arg0 harg0 arg1 harg1 arg2 harg2 arg3 harg3) K := by
  simp only [cc2__finalize_pool_kernel_eq_skeleton]; unfold cc2__finalize_pool_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-! ## The pipeline's proof data -/

/-- The proof data of pipeline 2 on core `c`: the arrays as the region finds them; after the body at point `t`
    each input's buffer still at its block and the output's at `out2_3` of the input blocks; the
    invariant leaves the other scoped buffers and the generator register untouched; nothing is owed. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

set_option maxHeartbeats 1000000 in
/-- The body at any point: the inputs' buffers hold their blocks, so `sound_kernel2` applies; the invariant and
    what the core owes pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation at every point. -/
theorem body_obligation2 (c : Dev nD) : BodyObligation (dat2 (F := F) V c) (defs₀ (F := F)) Variants.none () Set.univ := fun t => by
  rw [bigSep_W2, bigSep_W2]
  exact sound_body2 V c t

end Region2

end Cert.KernelIdeal.Hand

end
-- ==== Proof.KI.Frame.lean ====
/-
  The whole run of the program, at any float instance: its three host stretches and three kernel regions as the
  segments of one run, from the launch to the return.  Between two segments every unscoped buffer of the core is
  held at a named valuation — the launch memory, then each host stretch's operations applied, then each region's
  arrays at what its write-backs leave — so every weakly fair execution terminates without a fault and every
  unscoped buffer ends at the last valuation (`run_all`); the argument arrays are read back through the chain to
  their launch contents (`W6_main_arg·`), which is the frame claim (`frame`).
-/
import proofs.«135123_j81604378624770_2_alg».proof.Proof.Gen.KernelIdeal.Launch
import proofs.«135123_j81604378624770_2_alg».proof.Proof.Gen.KernelIdeal.Skeleton
import proofs.«135123_j81604378624770_2_alg».proof.Proof.Gen.KernelIdeal.Points
import proofs.«135123_j81604378624770_2_alg».proof.Proof.Gen.KernelIdeal.Regions
import proofs.«135123_j81604378624770_2_alg».proof.Proof.KI.Reg0
import proofs.«135123_j81604378624770_2_alg».proof.Proof.KI.Reg1
import proofs.«135123_j81604378624770_2_alg».proof.Proof.KI.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary between segments -/

/-- Core `c`'s buffers at launch. -/
abbrev W0 : Dev nD → Valuation τ sig (Elt F) := fun c b => (s₀ m ρ).mem ((c : Dev nD), b)
/-- After the first host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After region 0: its windows' arrays at what the pipeline leaves (an input as entered, an output with its
    write-backs folded in), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's own references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second host stretch (region 1's entry). -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After region 1: its windows' arrays at what the pipeline leaves (an input as entered, an output with its
    write-backs folded in), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the core's own references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the third host stretch (region 2's entry). -/
abbrev W5 : Dev nD → Valuation τ sig (Elt F) := fun c => StableHlo.after hostOps2 (W4 m ρ c)
abbrev V5 : (c : Dev nD) → (b : Ref sig .tc) → Buf (Elt F) ((c : Thread nD τ).loc b) := fun c b => W5 m ρ c b
/-- After region 2: its windows' arrays at what the pipeline leaves (an input as entered, an output with its
    write-backs folded in), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the core's own references. -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ## The arguments end as launched -/

/-- `main_arg0` holds its launch contents at every boundary: no host operation writes it and no region's write-back changes it. -/
theorem W1_main_arg0 (c : Dev nD) : W1 m ρ c (Proc.devRef .tc main_arg0) = m ((c : Thread nD τ).loc main_arg0) :=
  (StableHlo.after_of_writes_sub hostOps0 _ hostOps0_writes (by decide)).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (StableHlo.after_of_writes_sub hostOps1 _ hostOps1_writes (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (StableHlo.after_of_writes_sub hostOps2 _ hostOps2_writes (by decide)).trans (W4_main_arg0 m ρ c)
theorem W6_main_arg0 (c : Dev nD) : W6 m ρ c (Proc.devRef .tc main_arg0) = m ((c : Thread nD τ).loc main_arg0) :=
  (W6_of_ne m ρ c main_arg0 (by decide)).trans (W5_main_arg0 m ρ c)

/-- `main_arg1` holds its launch contents at every boundary: no host operation writes it and no region's write-back changes it. -/
theorem W1_main_arg1 (c : Dev nD) : W1 m ρ c (Proc.devRef .tc main_arg1) = m ((c : Thread nD τ).loc main_arg1) :=
  (StableHlo.after_of_writes_sub hostOps0 _ hostOps0_writes (by decide)).trans rfl
theorem W2_main_arg1 (c : Dev nD) : W2 m ρ c (Proc.devRef .tc main_arg1) = m ((c : Thread nD τ).loc main_arg1) :=
  (W2_of_ne m ρ c main_arg1 (by decide)).trans (W1_main_arg1 m ρ c)
theorem W3_main_arg1 (c : Dev nD) : W3 m ρ c (Proc.devRef .tc main_arg1) = m ((c : Thread nD τ).loc main_arg1) :=
  (StableHlo.after_of_writes_sub hostOps1 _ hostOps1_writes (by decide)).trans (W2_main_arg1 m ρ c)
theorem W4_main_arg1 (c : Dev nD) : W4 m ρ c (Proc.devRef .tc main_arg1) = m ((c : Thread nD τ).loc main_arg1) :=
  (W4_of_ne m ρ c main_arg1 (by decide)).trans (W3_main_arg1 m ρ c)
theorem W5_main_arg1 (c : Dev nD) : W5 m ρ c (Proc.devRef .tc main_arg1) = m ((c : Thread nD τ).loc main_arg1) :=
  (StableHlo.after_of_writes_sub hostOps2 _ hostOps2_writes (by decide)).trans (W4_main_arg1 m ρ c)
theorem W6_main_arg1 (c : Dev nD) : W6 m ρ c (Proc.devRef .tc main_arg1) = m ((c : Thread nD τ).loc main_arg1) :=
  (W6_of_ne m ρ c main_arg1 (by decide)).trans (W5_main_arg1 m ρ c)

/-- `main_arg2` holds its launch contents at every boundary: no host operation writes it and no region's write-back changes it. -/
theorem W1_main_arg2 (c : Dev nD) : W1 m ρ c (Proc.devRef .tc main_arg2) = m ((c : Thread nD τ).loc main_arg2) :=
  (StableHlo.after_of_writes_sub hostOps0 _ hostOps0_writes (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (StableHlo.after_of_writes_sub hostOps1 _ hostOps1_writes (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (StableHlo.after_of_writes_sub hostOps2 _ hostOps2_writes (by decide)).trans (W4_main_arg2 m ρ c)
theorem W6_main_arg2 (c : Dev nD) : W6 m ρ c (Proc.devRef .tc main_arg2) = m ((c : Thread nD τ).loc main_arg2) :=
  (W6_of_ne m ρ c main_arg2 (by decide)).trans (W5_main_arg2 m ρ c)

/-- `main_arg3` holds its launch contents at every boundary: no host operation writes it and no region's write-back changes it. -/
theorem W1_main_arg3 (c : Dev nD) : W1 m ρ c (Proc.devRef .tc main_arg3) = m ((c : Thread nD τ).loc main_arg3) :=
  (StableHlo.after_of_writes_sub hostOps0 _ hostOps0_writes (by decide)).trans rfl
theorem W2_main_arg3 (c : Dev nD) : W2 m ρ c (Proc.devRef .tc main_arg3) = m ((c : Thread nD τ).loc main_arg3) :=
  ((W2_arr m ρ c 1).trans (((dat0 (V1 m ρ) c).arrAt_in 1 rfl _).trans (A_eq0 (V1 m ρ) c 1))).trans (W1_main_arg3 m ρ c)
theorem W3_main_arg3 (c : Dev nD) : W3 m ρ c (Proc.devRef .tc main_arg3) = m ((c : Thread nD τ).loc main_arg3) :=
  (StableHlo.after_of_writes_sub hostOps1 _ hostOps1_writes (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (StableHlo.after_of_writes_sub hostOps2 _ hostOps2_writes (by decide)).trans (W4_main_arg3 m ρ c)
theorem W6_main_arg3 (c : Dev nD) : W6 m ρ c (Proc.devRef .tc main_arg3) = m ((c : Thread nD τ).loc main_arg3) :=
  (W6_of_ne m ρ c main_arg3 (by decide)).trans (W5_main_arg3 m ρ c)

/-- `main_arg4` holds its launch contents at every boundary: no host operation writes it and no region's write-back changes it. -/
theorem W1_main_arg4 (c : Dev nD) : W1 m ρ c (Proc.devRef .tc main_arg4) = m ((c : Thread nD τ).loc main_arg4) :=
  (StableHlo.after_of_writes_sub hostOps0 _ hostOps0_writes (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (StableHlo.after_of_writes_sub hostOps1 _ hostOps1_writes (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (StableHlo.after_of_writes_sub hostOps2 _ hostOps2_writes (by decide)).trans (W4_main_arg4 m ρ c)
theorem W6_main_arg4 (c : Dev nD) : W6 m ρ c (Proc.devRef .tc main_arg4) = m ((c : Thread nD τ).loc main_arg4) :=
  (W6_of_ne m ρ c main_arg4 (by decide)).trans (W5_main_arg4 m ρ c)

/-- `main_arg5` holds its launch contents at every boundary: no host operation writes it and no region's write-back changes it. -/
theorem W1_main_arg5 (c : Dev nD) : W1 m ρ c (Proc.devRef .tc main_arg5) = m ((c : Thread nD τ).loc main_arg5) :=
  (StableHlo.after_of_writes_sub hostOps0 _ hostOps0_writes (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (StableHlo.after_of_writes_sub hostOps1 _ hostOps1_writes (by decide)).trans (W2_main_arg5 m ρ c)
theorem W4_main_arg5 (c : Dev nD) : W4 m ρ c (Proc.devRef .tc main_arg5) = m ((c : Thread nD τ).loc main_arg5) :=
  ((W4_arr m ρ c 1).trans (((dat1 (V3 m ρ) c).arrAt_in 1 rfl _).trans (A_eq1 (V3 m ρ) c 1))).trans (W3_main_arg5 m ρ c)
theorem W5_main_arg5 (c : Dev nD) : W5 m ρ c (Proc.devRef .tc main_arg5) = m ((c : Thread nD τ).loc main_arg5) :=
  (StableHlo.after_of_writes_sub hostOps2 _ hostOps2_writes (by decide)).trans (W4_main_arg5 m ρ c)
theorem W6_main_arg5 (c : Dev nD) : W6 m ρ c (Proc.devRef .tc main_arg5) = m ((c : Thread nD τ).loc main_arg5) :=
  (W6_of_ne m ρ c main_arg5 (by decide)).trans (W5_main_arg5 m ρ c)

/-- `main_arg6` holds its launch contents at every boundary: no host operation writes it and no region's write-back changes it. -/
theorem W1_main_arg6 (c : Dev nD) : W1 m ρ c (Proc.devRef .tc main_arg6) = m ((c : Thread nD τ).loc main_arg6) :=
  (StableHlo.after_of_writes_sub hostOps0 _ hostOps0_writes (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (StableHlo.after_of_writes_sub hostOps1 _ hostOps1_writes (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (StableHlo.after_of_writes_sub hostOps2 _ hostOps2_writes (by decide)).trans (W4_main_arg6 m ρ c)
theorem W6_main_arg6 (c : Dev nD) : W6 m ρ c (Proc.devRef .tc main_arg6) = m ((c : Thread nD τ).loc main_arg6) :=
  (W6_of_ne m ρ c main_arg6 (by decide)).trans (W5_main_arg6 m ρ c)

/-- `main_arg7` holds its launch contents at every boundary: no host operation writes it and no region's write-back changes it. -/
theorem W1_main_arg7 (c : Dev nD) : W1 m ρ c (Proc.devRef .tc main_arg7) = m ((c : Thread nD τ).loc main_arg7) :=
  (StableHlo.after_of_writes_sub hostOps0 _ hostOps0_writes (by decide)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (StableHlo.after_of_writes_sub hostOps1 _ hostOps1_writes (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (StableHlo.after_of_writes_sub hostOps2 _ hostOps2_writes (by decide)).trans (W4_main_arg7 m ρ c)
theorem W6_main_arg7 (c : Dev nD) : W6 m ρ c (Proc.devRef .tc main_arg7) = m ((c : Thread nD τ).loc main_arg7) :=
  ((W6_arr m ρ c 1).trans (((dat2 (V5 m ρ) c).arrAt_in 1 rfl _).trans (A_eq2 (V5 m ρ) c 1))).trans (W5_main_arg7 m ρ c)

/-- `main_arg8` holds its launch contents at every boundary: no host operation writes it and no region's write-back changes it. -/
theorem W1_main_arg8 (c : Dev nD) : W1 m ρ c (Proc.devRef .tc main_arg8) = m ((c : Thread nD τ).loc main_arg8) :=
  (StableHlo.after_of_writes_sub hostOps0 _ hostOps0_writes (by decide)).trans rfl
theorem W2_main_arg8 (c : Dev nD) : W2 m ρ c (Proc.devRef .tc main_arg8) = m ((c : Thread nD τ).loc main_arg8) :=
  (W2_of_ne m ρ c main_arg8 (by decide)).trans (W1_main_arg8 m ρ c)
theorem W3_main_arg8 (c : Dev nD) : W3 m ρ c (Proc.devRef .tc main_arg8) = m ((c : Thread nD τ).loc main_arg8) :=
  (StableHlo.after_of_writes_sub hostOps1 _ hostOps1_writes (by decide)).trans (W2_main_arg8 m ρ c)
theorem W4_main_arg8 (c : Dev nD) : W4 m ρ c (Proc.devRef .tc main_arg8) = m ((c : Thread nD τ).loc main_arg8) :=
  (W4_of_ne m ρ c main_arg8 (by decide)).trans (W3_main_arg8 m ρ c)
theorem W5_main_arg8 (c : Dev nD) : W5 m ρ c (Proc.devRef .tc main_arg8) = m ((c : Thread nD τ).loc main_arg8) :=
  (StableHlo.after_of_writes_sub hostOps2 _ hostOps2_writes (by decide)).trans (W4_main_arg8 m ρ c)
theorem W6_main_arg8 (c : Dev nD) : W6 m ρ c (Proc.devRef .tc main_arg8) = m ((c : Thread nD τ).loc main_arg8) :=
  (W6_of_ne m ρ c main_arg8 (by decide)).trans (W5_main_arg8 m ρ c)

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
/-- A host stretch as a segment over the unscoped references from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference of the core is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 as a segment of the run: entered with every unscoped buffer at `W1`, left with them at `W2`. Its
    windows' arrays are split out of the unscoped buffers at entry and put back, at what the write-backs leave, at
    exit; the generator register goes into the region's invariant and comes back; nothing is owed; the kernel has no
    semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment of the run: entered with every unscoped buffer at `W3`, left with them at `W4`. Its
    windows' arrays are split out of the unscoped buffers at entry and put back, at what the write-backs leave, at
    exit; the generator register goes into the region's invariant and comes back; nothing is owed; the kernel has no
    semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 as a segment of the run: entered with every unscoped buffer at `W5`, left with them at `W6`. Its
    windows' arrays are split out of the unscoped buffers at entry and put back, at what the write-backs leave, at
    exit; the generator register goes into the region's invariant and comes back; nothing is owed; the kernel has no
    semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

/-- The six segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
/-- The program is the run of the segments. -/
theorem main_run (c : Dev nD) : main (F := F) c = Pipeline.Seg.run (segs m ρ) := (main_chain c).trans (by chain_rfl)

set_option backward.isDefEq.respectTransparency.types false in
/-- From any memory with zero counters every weakly fair execution of the program terminates, nothing faulting, and
    every final state has every unscoped buffer of every core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The frame claim at any float instance: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c)⟩) (run_all m ρ)

end Cert.KernelIdeal.Hand

end
-- ==== Proof.Spec.lean ====
/-
  The mathematics both programs compute, as functions of whole arrays over the extended reals.

  A graph-convolution network with two layers and a sum pooling: each layer aggregates, for every node,
  the feature rows of the sources of its incoming edges (`aggregate`: a gather of rows followed by a
  scatter-add into the destinations' rows), applies a dense map `x ↦ x · W + b` and clips at zero
  (`dense`); the node rows are then summed column by column (`pooled`) and a last dense map with clipping
  gives the single output row (`final`).  Sums over the extended reals are commutative and associative, so
  any grouping of the pooled sum is the same number (`pooled_blocks`).
-/
import Idealize.ShloMosaic.PureOps.Ideal
import Idealize.ShloMosaic.PureOps.Ideal.Laws
import Idealize.ShloMosaic.Lib.ValueIdx

noncomputable section

namespace Gcn

open Idealize.ShloMosaic Idealize.ShloMosaic.ValueIdx

/-- Entry `(r, j)` of a dense layer followed by clipping at zero: `max (∑ₖ A[r,k] · W[k,j] + b[j]) 0`. -/
def denseAt {n : Nat} (A : (⟨2, ![n, 128]⟩ : Shape).Idx → EReal) (W : (⟨2, ![128, 128]⟩ : Shape).Idx → EReal)
    (b : (⟨1, ![128]⟩ : Shape).Idx → EReal) (r : Fin n) (j : Fin 128) : EReal :=
  max ((∑ k : Fin 128, A (ix2 r k) * W (ix2 k j)) + b (ix1 j)) 0

/-- The dense layer on a whole array of `n` rows. -/
def dense {n : Nat} (A : (⟨2, ![n, 128]⟩ : Shape).Idx → EReal) (W : (⟨2, ![128, 128]⟩ : Shape).Idx → EReal)
    (b : (⟨1, ![128]⟩ : Shape).Idx → EReal) : (⟨2, ![n, 128]⟩ : Shape).Idx → EReal :=
  fun i => denseAt A W b (i 0) (i 1)

theorem dense_ix2 {n : Nat} (A : (⟨2, ![n, 128]⟩ : Shape).Idx → EReal) (W : (⟨2, ![128, 128]⟩ : Shape).Idx → EReal)
    (b : (⟨1, ![128]⟩ : Shape).Idx → EReal) (r : Fin n) (j : Fin 128) : dense A W b (ix2 r j) = denseAt A W b r j := rfl

/-- Column `j` of the sum of all `n` rows. -/
def pooledAt {n : Nat} (X : (⟨2, ![n, 128]⟩ : Shape).Idx → EReal) (j : Fin 128) : EReal :=
  ∑ r : Fin n, X (ix2 r j)

/-- Entry `j` of the last dense layer, applied to one pooled row `P`: `max (∑ₖ P[k] · W[k,j] + b[j]) 0`. -/
def finalAt (P : Fin 128 → EReal) (W : (⟨2, ![128, 256]⟩ : Shape).Idx → EReal) (b : (⟨1, ![256]⟩ : Shape).Idx → EReal)
    (j : Fin 256) : EReal :=
  max ((∑ k : Fin 128, P k * W (ix2 k j)) + b (ix1 j)) 0

/-- The aggregation of one layer: row `v` of the result is the sum of the rows `x[src e]` over the edges `e` with
    destination `v` — a gather of the source rows and a scatter-add of them into a zero array, as the host computes
    them (the two index arrays are what the host passes to the two operations). -/
def aggregate (gd : GatherDims ⟨2, ![100000, 128]⟩ ⟨2, ![1600000, 1]⟩ ⟨2, ![1600000, 128]⟩)
    (sd : ScatterDims ⟨2, ![100000, 128]⟩ ⟨2, ![1600000, 1]⟩ ⟨2, ![1600000, 128]⟩)
    (x : FVec Ideal ⟨2, ![100000, 128]⟩ .f32) (si di : IVec ⟨2, ![1600000, 1]⟩ 32) : FVec Ideal ⟨2, ![100000, 128]⟩ .f32 :=
  Host.scatterAdd sd (fun _ => (0 : EReal)) di (Host.gather gd x si)

/-- The second layer's node rows (before pooling), from the argument arrays. -/
def hidden2 (gd : GatherDims ⟨2, ![100000, 128]⟩ ⟨2, ![1600000, 1]⟩ ⟨2, ![1600000, 128]⟩)
    (sd : ScatterDims ⟨2, ![100000, 128]⟩ ⟨2, ![1600000, 1]⟩ ⟨2, ![1600000, 128]⟩)
    (feat : FVec Ideal ⟨2, ![100000, 128]⟩ .f32) (si di : IVec ⟨2, ![1600000, 1]⟩ 32)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal) :
    (⟨2, ![100000, 128]⟩ : Shape).Idx → EReal :=
  dense (aggregate gd sd (dense (aggregate gd sd feat si di) W1 b1) si di) W2 b2

/-- The network's result row from a second layer `X`: pooled over all rows, then the last dense layer. -/
def result (X : (⟨2, ![100000, 128]⟩ : Shape).Idx → EReal)
    (W3 : (⟨2, ![128, 256]⟩ : Shape).Idx → EReal) (b3 : (⟨1, ![256]⟩ : Shape).Idx → EReal) :
    (⟨2, ![1, 256]⟩ : Shape).Idx → EReal :=
  fun i => finalAt (pooledAt X) W3 b3 (i 1)

/-- The sum of 100000 rows taken block by block: 2 halves, 5 blocks in each half, 10000 rows in each block
    (row `(5 c + k) · 10000 + q`). Addition on the extended reals is commutative and associative, so the grouping is
    immaterial. -/
theorem sum_blocks (f : Fin 100000 → EReal) :
    ∑ r : Fin 100000, f r
      = ∑ c : Fin 2, ∑ k : Fin 5, ∑ q : Fin 10000,
          f ⟨(5 * c.val + k.val) * 10000 + q.val, by have := c.isLt; have := k.isLt; have := q.isLt; omega⟩ := by
  have e1 : ∑ r : Fin 100000, f r = ∑ p : Fin 10 × Fin 10000,
      f ⟨p.1.val * 10000 + p.2.val, by have := p.1.isLt; have := p.2.isLt; omega⟩ := by
    refine (Fintype.sum_equiv (finProdFinEquiv (m := 10) (n := 10000)).symm _ _ fun r => ?_)
    refine congrArg f (Fin.ext ?_)
    simp only [finProdFinEquiv, Equiv.coe_fn_symm_mk, Fin.divNat, Fin.modNat]
    show r.val = r.val / 10000 * 10000 + r.val % 10000
    omega
  have e2 : ∀ g : Fin 10 → EReal, ∑ t : Fin 10, g t = ∑ c : Fin 2, ∑ k : Fin 5,
      g ⟨5 * c.val + k.val, by have := c.isLt; have := k.isLt; omega⟩ := by
    intro g
    rw [← Fintype.sum_prod_type']
    refine (Fintype.sum_equiv (finProdFinEquiv (m := 2) (n := 5)).symm _ _ fun r => ?_)
    refine congrArg g (Fin.ext ?_)
    simp only [finProdFinEquiv, Equiv.coe_fn_symm_mk, Fin.divNat, Fin.modNat]
    show r.val = 5 * (r.val / 5) + r.val % 5
    omega
  rw [e1, Fintype.sum_prod_type, e2]

end Gcn

end
-- ==== Proof.KI.Host.lean ====
/-
  The host operations between the kernels, read at the buffers the kernels take.

  Before each of the first two kernels the host aggregates node rows along the edges: it turns the source indices into
  row numbers (a negative index counts from the end, so 100000 is added to it), lays both index columns out as
  [1600000, 1] arrays, gathers the source rows and adds each into its destination's row of a zero array. Before every
  kernel it reshapes a bias vector into a one-row matrix. A widening of the float format is the identity on the extended
  reals, so the second aggregation reads the first kernel's narrow output as it is. Every statement is over an arbitrary
  valuation of the buffers the stretch starts from.
-/
import proofs.«135123_j81604378624770_2_alg».proof.Proof.Gen.KernelIdeal.Regions
import proofs.«135123_j81604378624770_2_alg».proof.Proof.Spec
import Idealize.ShloMosaic.Lib.StableHlo.Run
import Idealize.ShloMosaic.Lib.Pipeline.Value
import Idealize.ShloMosaic.PureOps.Ideal.Laws

noncomputable section

namespace Cert.KernelIdeal.HandV

open Idealize.ShloMosaic Idealize.ShloMosaic.ValueIdx Cert.KernelIdeal Cert.KernelIdeal.Gen

/-! ## The two index columns -/

/-- The source rows as the host hands them to the gather: an index below zero has 100000 added, and the vector of
    1600000 indices becomes a column. -/
def srcIdx (a : IVec S1600000 32) : IVec S1600000x1 32 :=
  broadcastInDim S1600000x1 ![0] bcast_S1600000_S1600000x1_0
    (select (cmpi .slt a (broadcastInDim S1600000 ![] bcast_S_S1600000 (constantI S_ 32 0#32)))
      (addi a (broadcastInDim S1600000 ![] bcast_S_S1600000 (constantI S_ 32 100000#32))) a)

/-- The destination rows as the host hands them to the scatter: the vector of 1600000 indices as a column. -/
def dstIdx (a : IVec S1600000 32) : IVec S1600000x1 32 :=
  broadcastInDim S1600000x1 ![0] bcast_S1600000_S1600000x1_0 a

/-- The zero array the scatter adds into: the zero word laid over the whole shape. -/
theorem zeros_eq :
    (broadcastInDim S100000x128 ![] bcast_S_S100000x128 (constant (F := Ideal) S_ .f32 0x00000000#32) : FVec Ideal S100000x128 .f32)
      = fun _ => (0 : EReal) :=
  funext fun _ => Ideal.ofBits_zero_f32

/-! ## Before the first kernel -/

/-- The first kernel's rows: the aggregation of the feature rows. -/
theorem host0_v9 (W : Valuation τ sig (Elt Ideal)) :
    (StableHlo.after (hostOps0 (F := Ideal)) W (Proc.devRef .tc main_v9) : FVec Ideal S100000x128 .f32)
      = Gcn.aggregate gather_S100000x128_S1600000x1_S1600000x128_1_0_n_n_0_1_1128 scatter_S100000x128_S1600000x1_S1600000x128_1_0_0_1
          (W (Proc.devRef .tc main_arg0)) (srcIdx (W (Proc.devRef .tc main_arg1))) (dstIdx (W (Proc.devRef .tc main_arg2))) := by
  have e : (StableHlo.after (hostOps0 (F := Ideal)) W (Proc.devRef .tc main_v9) : FVec Ideal S100000x128 .f32)
      = Host.scatterAdd (F := Ideal) scatter_S100000x128_S1600000x1_S1600000x128_1_0_0_1
          (broadcastInDim S100000x128 ![] bcast_S_S100000x128 (constant (F := Ideal) S_ .f32 0x00000000#32))
          (dstIdx (W (Proc.devRef .tc main_arg2)))
          (Host.gather gather_S100000x128_S1600000x1_S1600000x128_1_0_n_n_0_1_1128 (W (Proc.devRef .tc main_arg0)) (srcIdx (W (Proc.devRef .tc main_arg1)))) := by
    after_results; rfl
  rw [e, zeros_eq]; rfl

/-- The first kernel's bias row at `(0, j)`: entry `j` of the bias vector. -/
theorem host0_v10 (W : Valuation τ sig (Elt Ideal)) (j : Fin 128) :
    (StableHlo.after (hostOps0 (F := Ideal)) W (Proc.devRef .tc main_v10) : FVec Ideal S1x128 .f32) (ix2 0 j)
      = (W (Proc.devRef .tc main_arg4) : FVec Ideal S128 .f32) (ix1 j) := by
  have e : (StableHlo.after (hostOps0 (F := Ideal)) W (Proc.devRef .tc main_v10) : FVec Ideal S1x128 .f32)
      = shapeCast S1x128 (W (Proc.devRef .tc main_arg4) : FVec Ideal S128 .f32) shapeCasts_S128_S1x128 := by
    after_results; rfl
  rw [e]
  exact shapeCast_apply _ _ (ix2 0 j) (ix1 j) (by
    rw [Shape.rowMajor_val_one, Shape.rowMajor_val_two]; show j.val = 0 * 128 + j.val; omega)

/-- The first kernel's bias row, read back as a vector, is the bias vector. -/
theorem host0_bias (W : Valuation τ sig (Elt Ideal)) :
    (fun i : S128.Idx => (StableHlo.after (hostOps0 (F := Ideal)) W (Proc.devRef .tc main_v10) : FVec Ideal S1x128 .f32) (ix2 0 (i 0)))
      = (W (Proc.devRef .tc main_arg4) : FVec Ideal S128 .f32) :=
  funext fun i => (host0_v10 W (i 0)).trans (congrArg (W (Proc.devRef .tc main_arg4) : FVec Ideal S128 .f32) (eq_ix1 i).symm)

/-- A buffer the first stretch does not write keeps its contents. -/
theorem host0_keep (W : Valuation τ sig (Elt Ideal)) (r : Ref sig .tc) (h : r ∉ hostOps0_W) :
    StableHlo.after (hostOps0 (F := Ideal)) W (Proc.devRef .tc r) = W (Proc.devRef .tc r) :=
  StableHlo.after_of_writes_sub hostOps0 _ hostOps0_writes h

/-! ## Before the second kernel -/

/-- The second kernel's rows: the aggregation of the first kernel's output rows (read as extended reals: the widening
    after the gather changes nothing). -/
theorem host1_v22 (W : Valuation τ sig (Elt Ideal)) :
    (StableHlo.after (hostOps1 (F := Ideal)) W (Proc.devRef .tc main_v22) : FVec Ideal S100000x128 .f32)
      = Gcn.aggregate gather_S100000x128_S1600000x1_S1600000x128_1_0_n_n_0_1_1128 scatter_S100000x128_S1600000x1_S1600000x128_1_0_0_1
          (W (Proc.devRef .tc main_v11)) (srcIdx (W (Proc.devRef .tc main_arg1))) (dstIdx (W (Proc.devRef .tc main_arg2))) := by
  have e : (StableHlo.after (hostOps1 (F := Ideal)) W (Proc.devRef .tc main_v22) : FVec Ideal S100000x128 .f32)
      = Host.scatterAdd (F := Ideal) scatter_S100000x128_S1600000x1_S1600000x128_1_0_0_1
          (broadcastInDim S100000x128 ![] bcast_S_S100000x128 (constant (F := Ideal) S_ .f32 0x00000000#32))
          (dstIdx (W (Proc.devRef .tc main_arg2)))
          (extf .f32 (Host.gather gather_S100000x128_S1600000x1_S1600000x128_1_0_n_n_0_1_1128 (W (Proc.devRef .tc main_v11) : FVec Ideal S100000x128 .bf16) (srcIdx (W (Proc.devRef .tc main_arg1))) : FVec Ideal S1600000x128 .bf16) bitsLt_bf16_f32) := by
    after_results; rfl
  rw [e, zeros_eq]; rfl

/-- The second kernel's bias row at `(0, j)`. -/
theorem host1_v23 (W : Valuation τ sig (Elt Ideal)) (j : Fin 128) :
    (StableHlo.after (hostOps1 (F := Ideal)) W (Proc.devRef .tc main_v23) : FVec Ideal S1x128 .f32) (ix2 0 j)
      = (W (Proc.devRef .tc main_arg6) : FVec Ideal S128 .f32) (ix1 j) := by
  have e : (StableHlo.after (hostOps1 (F := Ideal)) W (Proc.devRef .tc main_v23) : FVec Ideal S1x128 .f32)
      = shapeCast S1x128 (W (Proc.devRef .tc main_arg6) : FVec Ideal S128 .f32) shapeCasts_S128_S1x128 := by
    after_results; rfl
  rw [e]
  exact shapeCast_apply _ _ (ix2 0 j) (ix1 j) (by
    rw [Shape.rowMajor_val_one, Shape.rowMajor_val_two]; show j.val = 0 * 128 + j.val; omega)

/-- The second kernel's bias row, read back as a vector, is the bias vector. -/
theorem host1_bias (W : Valuation τ sig (Elt Ideal)) :
    (fun i : S128.Idx => (StableHlo.after (hostOps1 (F := Ideal)) W (Proc.devRef .tc main_v23) : FVec Ideal S1x128 .f32) (ix2 0 (i 0)))
      = (W (Proc.devRef .tc main_arg6) : FVec Ideal S128 .f32) :=
  funext fun i => (host1_v23 W (i 0)).trans (congrArg (W (Proc.devRef .tc main_arg6) : FVec Ideal S128 .f32) (eq_ix1 i).symm)

/-- A buffer the second stretch does not write keeps its contents. -/
theorem host1_keep (W : Valuation τ sig (Elt Ideal)) (r : Ref sig .tc) (h : r ∉ hostOps1_W) :
    StableHlo.after (hostOps1 (F := Ideal)) W (Proc.devRef .tc r) = W (Proc.devRef .tc r) :=
  StableHlo.after_of_writes_sub hostOps1 _ hostOps1_writes h

/-! ## Before the last kernel -/

/-- The last kernel's bias row at `(0, j)`. -/
theorem host2_v25 (W : Valuation τ sig (Elt Ideal)) (j : Fin 256) :
    (StableHlo.after (hostOps2 (F := Ideal)) W (Proc.devRef .tc main_v25) : FVec Ideal S1x256 .f32) (ix2 0 j)
      = (W (Proc.devRef .tc main_arg8) : FVec Ideal S256 .f32) (ix1 j) := by
  have e : (StableHlo.after (hostOps2 (F := Ideal)) W (Proc.devRef .tc main_v25) : FVec Ideal S1x256 .f32)
      = shapeCast S1x256 (W (Proc.devRef .tc main_arg8) : FVec Ideal S256 .f32) shapeCasts_S256_S1x256 := by
    after_results; rfl
  rw [e]
  exact shapeCast_apply _ _ (ix2 0 j) (ix1 j) (by
    rw [Shape.rowMajor_val_one, Shape.rowMajor_val_two]; show j.val = 0 * 256 + j.val; omega)

/-- The last kernel's bias row, read back as a vector, is the bias vector. -/
theorem host2_bias (W : Valuation τ sig (Elt Ideal)) :
    (fun i : S256.Idx => (StableHlo.after (hostOps2 (F := Ideal)) W (Proc.devRef .tc main_v25) : FVec Ideal S1x256 .f32) (ix2 0 (i 0)))
      = (W (Proc.devRef .tc main_arg8) : FVec Ideal S256 .f32) :=
  funext fun i => (host2_v25 W (i 0)).trans (congrArg (W (Proc.devRef .tc main_arg8) : FVec Ideal S256 .f32) (eq_ix1 i).symm)

/-- A buffer the last stretch does not write keeps its contents. -/
theorem host2_keep (W : Valuation τ sig (Elt Ideal)) (r : Ref sig .tc) (h : r ∉ hostOps2_W) :
    StableHlo.after (hostOps2 (F := Ideal)) W (Proc.devRef .tc r) = W (Proc.devRef .tc r) :=
  StableHlo.after_of_writes_sub hostOps2 _ hostOps2_writes h

end Cert.KernelIdeal.HandV

end
-- ==== Proof.KI.Pay.lean ====
/-
  The arithmetic of the three kernel bodies, read at an index over the extended reals.

  Every body applies one dense map with clipping, `x ↦ max (x · W + b) 0`: a product of a block of rows with a square
  matrix into a zero accumulator, the bias row laid along every row, and the maximum with zero. A change of float
  format is the identity on the extended reals, so the narrowing before the product and after the clipping leave no
  trace. The last body first adds its two partial rows (a sum over an axis of extent 2) and uses a 128 × 256 matrix.
-/
import proofs.«135123_j81604378624770_2_alg».proof.Proof.Gen.KernelIdeal.Skeleton
import proofs.«135123_j81604378624770_2_alg».proof.Proof.Spec
import Idealize.ShloMosaic.Lib.ValueLayout
import Idealize.ShloMosaic.Lib.Pipeline.Value
import Idealize.ShloMosaic.PureOps.Ideal.Laws

noncomputable section

namespace Cert.KernelIdeal.HandV

open Idealize.ShloMosaic Idealize.ShloMosaic.ValueIdx Cert.KernelIdeal Cert.KernelIdeal.Gen

/-! ## The block product -/

/-- A block of 10000 rows times a 128 × 128 matrix, into the zero accumulator: entry `(r, j)` is the sum over the
    contracted coordinate of the products of the entries, whatever the two operands' formats. -/
theorem matmul_rows_apply {φ₁ φ₂ : FTy} (A : FVec Ideal S10000x128 φ₁) (W : FVec Ideal S128x128 φ₂)
    (r : Fin 10000) (j : Fin 128) :
    matmul dot_S10000x128_S128x128_S10000x128_1_0_0_1_n_n none A W (constant (F := Ideal) S10000x128 .f32 0x00000000#32) (ix2 r j)
      = ∑ k : Fin 128, A (ix2 r k) * W (ix2 k j) := by
  show FloatOps.matmul _ none A W _ (ix2 r j) = _
  rw [Ideal.matmul_constant_zero_apply,
    ← Equiv.sum_comp (contrEquiv1 dot_S10000x128_S128x128_S10000x128_1_0_0_1_n_n 128 rfl rfl).symm]
  refine Finset.sum_congr rfl fun c _ => ?_
  have c2 := contrEquiv1_symm_val dot_S10000x128_S128x128_S10000x128_1_0_0_1_n_n 128 rfl rfl c
  have l2 : dot_S10000x128_S128x128_S10000x128_1_0_0_1_n_n.lhsIdx (ix2 r j) ((contrEquiv1 _ 128 rfl rfl).symm c) = ix2 r c := by
    funext ax; apply Fin.ext
    match ax with
    | ⟨0, _⟩ => simp [DotDims.lhsIdx, dot_S10000x128_S128x128_S10000x128_1_0_0_1_n_n]; rfl
    | ⟨1, _⟩ => simp [DotDims.lhsIdx, dot_S10000x128_S128x128_S10000x128_1_0_0_1_n_n]; exact c2
  have r2 : dot_S10000x128_S128x128_S10000x128_1_0_0_1_n_n.rhsIdx (ix2 r j) ((contrEquiv1 _ 128 rfl rfl).symm c) = ix2 c j := by
    funext ax; apply Fin.ext
    match ax with
    | ⟨0, _⟩ => simp [DotDims.rhsIdx, dot_S10000x128_S128x128_S10000x128_1_0_0_1_n_n]; exact c2
    | ⟨1, _⟩ => simp [DotDims.rhsIdx, dot_S10000x128_S128x128_S10000x128_1_0_0_1_n_n]; rfl
  rw [l2, r2]

/-! ## The dense map with clipping, as the first two bodies spell it -/

/-- The rows `x0` narrowed, times the narrowed matrix `x1` into zero, plus the bias row `x2` laid along every row, clipped
    at zero: entry `(r, j)` is the specification's dense entry. Both the first body (which stores it) and the second
    (which sums its rows) apply exactly this term to their three loads. -/
def denseRows (x0 : Vec Ideal S10000x128 .f32) (x1 : Vec Ideal S128x128 .f32) (x2 : Vec Ideal S1x128 .f32) :
    FVec Ideal S10000x128 .f32 :=
  maximumf
    (addf
      (matmul dot_S10000x128_S128x128_S10000x128_1_0_0_1_n_n none
        (truncf .bf16 (shapeCast S10000x128 x0 shapeCasts_S10000x128_S10000x128 : FVec Ideal S10000x128 .f32) bitsLt_bf16_f32 : FVec Ideal S10000x128 .bf16)
        (truncf .bf16 (x1 : FVec Ideal S128x128 .f32) bitsLt_bf16_f32 : FVec Ideal S128x128 .bf16)
        (constant (F := Ideal) S10000x128 .f32 0x00000000#32))
      (broadcastTo S10000x128 (shapeCast S1x128 x2 shapeCasts_S1x128_S1x128 : FVec Ideal S1x128 .f32) broadcasts_S1x128_S10000x128))
    (broadcast S10000x128 (Scalar.ofBits (F := Ideal) .f32 0x00000000#32))

theorem denseRows_apply (x0 : Vec Ideal S10000x128 .f32) (x1 : Vec Ideal S128x128 .f32) (x2 : Vec Ideal S1x128 .f32)
    (r : Fin 10000) (j : Fin 128) :
    denseRows x0 x1 x2 (ix2 r j) = Gcn.denseAt x0 x1 (fun i => x2 (ix2 0 (i 0))) r j := by
  unfold denseRows Gcn.denseAt
  refine (maximumf_apply _ _ (ix2 r j)).trans ?_
  refine congrArg₂ max ?_ ?_
  · refine (addf_apply _ _ (ix2 r j)).trans ?_
    refine congrArg₂ (· + ·) ?_ ?_
    · refine (matmul_rows_apply _ _ r j).trans ?_
      refine Finset.sum_congr rfl fun k _ => ?_
      refine congrArg₂ (· * ·) ?_ rfl
      exact congrFun (shapeCast_self x0 shapeCasts_S10000x128_S10000x128) (ix2 r k)
    · refine (broadcastTo_1b_ab_apply _ broadcasts_S1x128_S10000x128 r j).trans ?_
      exact congrFun (shapeCast_self x2 shapeCasts_S1x128_S1x128) (ix2 (0 : Fin 1) j)
  · exact Ideal.ofBits_zero_f32

/-- The first body's stored value at `(r, j)`: the dense entry (the final narrowing is the identity). -/
theorem pay0_apply (x0 : Vec Ideal S10000x128 .f32) (x1 : Vec Ideal S128x128 .f32) (x2 : Vec Ideal S1x128 .f32)
    (r : Fin 10000) (j : Fin 128) :
    k0_pay1 (F := Ideal) x0 x1 x2 (ix2 r j) = Gcn.denseAt x0 x1 (fun i => x2 (ix2 0 (i 0))) r j :=
  denseRows_apply x0 x1 x2 r j

/-- The second body's dense term is the same one: what its row sum is taken over. -/
theorem pay1_dense_eq (x0 : Vec Ideal S10000x128 .f32) (x1 : Vec Ideal S128x128 .f32) (x2 : Vec Ideal S1x128 .f32)
    (acc : Vec Ideal S1x128 .f32) :
    k1_pay2 (F := Ideal) x0 x1 x2 acc
      = shapeCast S1x128 (addf (acc : FVec Ideal S1x128 .f32)
          (shapeCast S1x128 (multiReduction .add [0] S128 (denseRows x0 x1 x2) 0x00000000#32 reduces_S10000x128_S128 (.inl rfl) rfl : FVec Ideal S128 .f32)
            shapeCasts_S128_S1x128)) shapeCasts_S1x128_S1x128 := rfl

/-! ## The last body -/

/-- One row times the 128 × 256 matrix, into the zero accumulator. -/
theorem matmul_row_apply {φ₁ φ₂ : FTy} (P : FVec Ideal S1x128 φ₁) (W : FVec Ideal S128x256 φ₂) (j : Fin 256) :
    matmul dot_S1x128_S128x256_S1x256_1_0_0_1_n_n (some .fp32) P W (constant (F := Ideal) S1x256 .f32 0x00000000#32) (ix2 0 j)
      = ∑ k : Fin 128, P (ix2 0 k) * W (ix2 k j) := by
  show FloatOps.matmul _ (some .fp32) P W _ (ix2 0 j) = _
  rw [Ideal.matmul_constant_zero_apply,
    ← Equiv.sum_comp (contrEquiv1 dot_S1x128_S128x256_S1x256_1_0_0_1_n_n 128 rfl rfl).symm]
  refine Finset.sum_congr rfl fun c _ => ?_
  have c2 := contrEquiv1_symm_val dot_S1x128_S128x256_S1x256_1_0_0_1_n_n 128 rfl rfl c
  have l2 : dot_S1x128_S128x256_S1x256_1_0_0_1_n_n.lhsIdx (ix2 0 j) ((contrEquiv1 _ 128 rfl rfl).symm c) = ix2 0 c := by
    funext ax; apply Fin.ext
    match ax with
    | ⟨0, _⟩ => simp [DotDims.lhsIdx, dot_S1x128_S128x256_S1x256_1_0_0_1_n_n]
    | ⟨1, _⟩ => simp [DotDims.lhsIdx, dot_S1x128_S128x256_S1x256_1_0_0_1_n_n]; exact c2
  have r2 : dot_S1x128_S128x256_S1x256_1_0_0_1_n_n.rhsIdx (ix2 0 j) ((contrEquiv1 _ 128 rfl rfl).symm c) = ix2 c j := by
    funext ax; apply Fin.ext
    match ax with
    | ⟨0, _⟩ => simp [DotDims.rhsIdx, dot_S1x128_S128x256_S1x256_1_0_0_1_n_n]; exact c2
    | ⟨1, _⟩ => simp [DotDims.rhsIdx, dot_S1x128_S128x256_S1x256_1_0_0_1_n_n]; rfl
  rw [l2, r2]

/-- The sum of the two partial rows: a sum over the leading axis, of extent 2, read at `(0, k)`. -/
theorem sum_partials_apply (x : FVec Ideal S2x1x128 .f32) (hφ : FKind.Formats .f32)
    (hacc : (0x00000000#32 : BitVec 32) = 0x00000000#32) (k : Fin 128) :
    multiReduction .add [0] S1x128 x 0x00000000#32 reduces_S2x1x128_S1x128 hφ hacc (ix2 0 k)
      = x (ix3 0 0 k) + x (ix3 1 0 k) := by
  refine (Ideal.multiReduction_add_single x 0x00000000#32 reduces_S2x1x128_S1x128 hφ hacc (ix2 0 k)).trans ?_
  refine (Fin.sum_univ_two (fun q : Fin 2 => x (reduces_S2x1x128_S1x128.lift (ix2 0 k) q))).trans ?_
  refine congrArg₂ (· + ·) (congrArg x ?_) (congrArg x ?_)
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl
    | ⟨2, _⟩ => rfl

/-- The last body's stored value at `(0, j)`: the final dense entry of the sum of the two partial rows. -/
theorem pay2_apply (x0 : Vec Ideal S2x1x128 .f32) (x1 : Vec Ideal S128x256 .f32) (x2 : Vec Ideal S1x256 .f32) (j : Fin 256) :
    k2_pay1 (F := Ideal) x0 x1 x2 (ix2 0 j)
      = Gcn.finalAt (fun k => x0 (ix3 0 0 k) + x0 (ix3 1 0 k)) x1 (fun i => x2 (ix2 0 (i 0))) j := by
  unfold k2_pay1 Gcn.finalAt
  refine (maximumf_apply _ _ (ix2 0 j)).trans ?_
  refine congrArg₂ max ?_ ?_
  · refine (addf_apply _ _ (ix2 0 j)).trans ?_
    refine congrArg₂ (· + ·) ?_ ?_
    · refine (matmul_row_apply _ _ j).trans ?_
      refine Finset.sum_congr rfl fun k _ => ?_
      refine congrArg₂ (· * ·) ?_ rfl
      refine (sum_partials_apply _ _ _ k).trans ?_
      rw [shapeCast_self x0 shapeCasts_S2x1x128_S2x1x128]
    · exact congrFun (shapeCast_self x2 shapeCasts_S1x256_S1x256) (ix2 (0 : Fin 1) j)
  · exact Ideal.ofBits_zero_f32

end Cert.KernelIdeal.HandV

end
-- ==== Proof.KI.Val0.lean ====
/-
  The first kernel's output array as one function of the arrays it is entered with.

  The kernel visits ten grid points. At point `t` it takes rows `10000 t … 10000 t + 9999` of the aggregated features, the
  whole weight matrix and the whole bias row, and writes the same rows of the output: entry `(r, j)` of the block is the
  dense entry `max (∑ₖ a[10000 t + r, k] · w[k, j] + b[j]) 0` of the whole arrays. Row `R` of the output lies in the block
  of point `R / 10000`, so the ten blocks cover the array and it ends holding the dense layer of the whole input.
-/
import proofs.«135123_j81604378624770_2_alg».proof.Proof.KI.Reg0
import proofs.«135123_j81604378624770_2_alg».proof.Proof.KI.Pay
import Idealize.ShloMosaic.Lib.Pipeline.Value

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## One block, over plain arrays -/

/-- If a block of 10000 rows is rows `10000 t …` of `A`, the dense entry of the block at `(p, q)` is the dense entry of `A`
    at `(10000 t + p, q)`. -/
theorem dense_block (A : (⟨2, ![100000, 128]⟩ : Shape).Idx → EReal) (W : (⟨2, ![128, 128]⟩ : Shape).Idx → EReal)
    (B : (⟨2, ![1, 128]⟩ : Shape).Idx → EReal)
    (x0 : Vec Ideal S10000x128 .f32) (x1 : Vec Ideal S128x128 .f32) (x2 : Vec Ideal S1x128 .f32)
    (tv : Nat)
    (h0 : ∀ (p : Fin 10000) (k : Fin 128) (R : Fin 100000), R.val = tv * 10000 + p.val → x0 (ix2 p k) = A (ix2 R k))
    (h1 : x1 = W) (h2 : x2 = B)
    (p : Fin 10000) (q : Fin 128) (R : Fin 100000) (hR : R.val = tv * 10000 + p.val) :
    k0_pay1 (F := Ideal) x0 x1 x2 (ix2 p q) = Gcn.dense A W (fun i => B (ix2 0 (i 0))) (ix2 R q) := by
  subst h1; subst h2
  rw [pay0_apply, Gcn.dense_ix2]
  unfold Gcn.denseAt
  refine congrArg (fun s => max (s + _) 0) ?_
  exact Finset.sum_congr rfl fun k _ => congrArg (· * _) (h0 p k R hR)

/-! ## The printed index maps over the grid -/

theorem hz2 : (![0, 0] : Fin 2 → Nat) = fun _ => 0 := funext fun a => by fin_cases a <;> rfl

/-- The row blocks move with the grid point, the matrix and the bias row stay. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-! ## The blocks at a point, read off the whole arrays -/

variable (V : (c : Dev nD) → (b : Ref sig .tc) → Buf (Elt Ideal) ((c : Thread nD τ).loc b))

/-- The block of rows at point `t` is rows `10000 t …` of the aggregated features. -/
theorem iblk0_0_apply (c : Dev nD) (t : Fin cfg0.N) (p : Fin 10000) (k : Fin 128) (R : Fin 100000)
    (hR : R.val = t.val * 10000 + p.val) :
    (iblk0 V c 0 t : Vec Ideal S10000x128 .f32) (ix2 p k) = (V c main_v9 : S100000x128.Idx → EReal) (ix2 R k) := by
  obtain ⟨e0, e1, -⟩ := idx_facts0 t
  unfold iblk0
  rw [View.read_apply]
  show V c main_v9 _ = V c main_v9 _
  refine congrArg (V c main_v9) (funext fun a => Fin.ext ?_)
  match a with
  | ⟨0, _⟩ => show win0_0.index t (0 : Fin 2) * 10000 + 1 * p.val = R.val; rw [e0, hR]; omega
  | ⟨1, _⟩ => show win0_0.index t (1 : Fin 2) * 128 + 1 * k.val = k.val; rw [e1]; omega

/-- The matrix block at every point is the whole matrix. -/
theorem iblk0_1_eq (c : Dev nD) (t : Fin cfg0.N) :
    (iblk0 V c 1 t : Vec Ideal S128x128 .f32) = (V c main_arg3 : S128x128.Idx → EReal) := by
  obtain ⟨-, -, e0, e1, -⟩ := idx_facts0 t
  funext x
  unfold iblk0
  rw [View.read_apply]
  show V c main_arg3 _ = V c main_arg3 x
  refine congrArg (V c main_arg3) (funext fun a => Fin.ext ?_)
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- The bias block at every point is the whole bias row. -/
theorem iblk0_2_eq (c : Dev nD) (t : Fin cfg0.N) :
    (iblk0 V c 2 t : Vec Ideal S1x128 .f32) = (V c main_v10 : S1x128.Idx → EReal) := by
  obtain ⟨-, -, -, -, e0, e1, -⟩ := idx_facts0 t
  funext x
  unfold iblk0
  rw [View.read_apply]
  show V c main_v10 _ = V c main_v10 x
  refine congrArg (V c main_v10) (funext fun a => Fin.ext ?_)
  match a with
  | ⟨0, _⟩ => show win0_2.index t (0 : Fin 2) * 1 + 1 * (x 0).val = (x 0).val; rw [e0]; omega
  | ⟨1, _⟩ => show win0_2.index t (1 : Fin 2) * 128 + 1 * (x 1).val = (x 1).val; rw [e1]; omega

/-! ## The output array -/

/-- The dense layer of the whole aggregated array, with the weights and the bias row the kernel is entered with. -/
def layer1 (c : Dev nD) : S100000x128.Idx → EReal :=
  Gcn.dense (V c main_v9 : S100000x128.Idx → EReal) (V c main_arg3 : S128x128.Idx → EReal)
    (fun i => (V c main_v10 : S1x128.Idx → EReal) (ix2 0 (i 0)))

/-- What point `t` writes back is block `t` of the dense layer of the whole arrays. -/
theorem flushed0_3_eq (c : Dev nD) (t : Fin cfg0.N) :
    (dat0 V c).flushed 3 t = ((cfg0.win 3).blk t).view.read (Elt Ideal) (layer1 V c) := by
  show (cfg0.win 3).cut (grid0.coords t) ((dat0 V c).after 3 t) = _
  rw [after0_3]
  unfold out0_3
  rw [View.canon_unit_zero hz2]
  simp only [View.ld_unit_zero (S := S10000x128) hz2, View.ld_unit_zero (S := S128x128) hz2, View.ld_unit_zero (S := S1x128) hz2]
  obtain ⟨-, -, -, -, -, -, e0, e1⟩ := idx_facts0 t
  funext j
  obtain ⟨p, q, rfl⟩ : ∃ (p : Fin 10000) (q : Fin 128), j = ix2 p q := ⟨j 0, j 1, eq_ix2 j⟩
  have hN : t.val < 10 := lt_of_lt_of_eq t.isLt N_0
  show k0_pay1 (F := Ideal) (iblk0 V c 0 t) (iblk0 V c 1 t) (iblk0 V c 2 t) (ix2 p q)
      = layer1 V c (((cfg0.win 3).blk t).view.emb (ix2 p q))
  have hemb : ((cfg0.win 3).blk t).view.emb (ix2 p q)
      = (ix2 (⟨t.val * 10000 + p.val, by have := p.isLt; omega⟩ : Fin 100000) q : S100000x128.Idx) := by
    funext a; apply Fin.ext
    match a with
    | ⟨0, _⟩ => show win0_3.index t (0 : Fin 2) * 10000 + 1 * p.val = t.val * 10000 + p.val; rw [e0]; omega
    | ⟨1, _⟩ => show win0_3.index t (1 : Fin 2) * 128 + 1 * q.val = q.val; rw [e1]; omega
  rw [hemb]
  exact dense_block _ _ _ (iblk0 V c 0 t) (iblk0 V c 1 t) (iblk0 V c 2 t) t.val
    (fun p' k R hR => iblk0_0_apply V c t p' k R hR) (iblk0_1_eq V c t) (iblk0_2_eq V c t) p q _ rfl

/-- An index of the array is in point `t`'s block iff each coordinate is in the block's range on its axis. -/
theorem mem_blk0_3 (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v11).slice (win0_3.rect t)).set ↔ _
  rw [View.set_slice_whole, Rect.mem_set_unit]
  exact Iff.rfl

/-- Row `R` lies in the block of point `R / 10000`: the ten blocks cover the array. -/
theorem cover0_3_arr (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  let t : Fin cfg0.N := ⟨(i 0).val / 10000, by rw [hN]; omega⟩
  refine ⟨t, flush0_3 t, ?_⟩
  obtain ⟨-, -, -, -, -, -, e0, e1⟩ := idx_facts0 t
  rw [mem_blk0_3]
  intro a
  match a with
  | ⟨0, _⟩ =>
    show win0_3.index t (0 : Fin 2) * 10000 ≤ (i 0).val ∧ (i 0).val < win0_3.index t (0 : Fin 2) * 10000 + 10000
    rw [e0]; show (i 0).val / 10000 * 10000 ≤ (i 0).val ∧ (i 0).val < (i 0).val / 10000 * 10000 + 10000; omega
  | ⟨1, _⟩ =>
    show win0_3.index t (1 : Fin 2) * 128 ≤ (i 1).val ∧ (i 1).val < win0_3.index t (1 : Fin 2) * 128 + 128
    rw [e1]; omega

/-- The first kernel's output array after its run: the dense layer of the whole aggregated array. -/
theorem arr0_3 (c : Dev nD) :
    (dat0 (F := Ideal) V c).arrAt 3 cfg0.N
      = Gcn.dense (V c main_v9 : S100000x128.Idx → EReal) (V c main_arg3 : S128x128.Idx → EReal)
          (fun i => (V c main_v10 : S1x128.Idx → EReal) (ix2 0 (i 0))) :=
  (dat0 V c).arrAt_eq_of_cover 3 (layer1 V c) (fun t _ => flushed0_3_eq V c t) cover0_3_arr

end Cert.KernelIdeal.HandV

end
-- ==== Proof.KI.Val1Pieces.lean ====
/- Region 1: what each case of the body leaves in the accumulator and in the output window's buffer, as the body's
   arithmetic applied to the point's input blocks and to what the accumulator held — the pieces the runs found, read
   back. The first point of a run leaves the row sum of the clipped dense map of its block added to the zero row;
   a later point adds its block's row sum to what the point before left; the last point copies that sum out. -/
import proofs.«135123_j81604378624770_2_alg».proof.Proof.KI.Reg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The stores' and loads' offsets are all zero. -/
theorem zeroOffs2_r1 : (![0, 0] : Fin 2 → Nat) = fun _ => 0 := funext fun a => by fin_cases a <;> rfl
theorem zeroOffs3_r1 : (![0, 0, 0] : Fin 3 → Nat) = fun _ => 0 := funext fun a => by fin_cases a <;> rfl

/-- A MIDDLE point leaves in the accumulator the body's sum applied to the point's three input blocks and to what the
    accumulator held: its one covering store's payload, whose loads read the whole buffers. -/
theorem sout1_B_eq (c : Dev nD) (t : Fin cfg1.N) (h0 : ¬t.val % 5 = 0) (h1 : ¬t.val % 5 = 4) (xs : Vec F S1x128 .f32) :
    sout1_B V c t h0 h1 xs = k1_pay2 (iblk1 V c 0 t) (iblk1 V c 1 t) (iblk1 V c 2 t) xs := by
  unfold sout1_B
  rw [View.read_writes_eq_canon _ _ _ (scover1_B V c t h0 h1 xs)]
  unfold run1B kernelRun1_B
  dsimp only
  rw [View.canon_unit_zero zeroOffs2_r1]
  simp only [View.readAt_eq_ld, (hs1_0 t).read_unread, (hs1_1 t).read_unread, (hs1_2 t).read_unread,
    Memref.IsWhole.read_unread, View.ld_unit_zero (S := S10000x128) zeroOffs2_r1, View.ld_unit_zero (S := S128x128) zeroOffs2_r1,
    View.ld_unit_zero (S := S1x128) zeroOffs2_r1]
  exact congrArg (k1_pay2 (iblk1 V c 0 t) (iblk1 V c 1 t) (iblk1 V c 2 t)) ((Memref.isWhole_whole cc1_scratch0).read_unread xs)

/-- The FIRST point of a run stores the zero row, reads it back, and leaves the body's sum over it. -/
theorem sout1_A_eq (c : Dev nD) (t : Fin cfg1.N) (h0 : t.val % 5 = 0) :
    sout1_A V c t h0 = k1_pay2 (iblk1 V c 0 t) (iblk1 V c 1 t) (iblk1 V c 2 t) (k1_pay1 (F := F)) := by
  unfold sout1_A
  rw [View.read_writes_eq_canon _ _ _ (scover1_A V c t h0)]
  unfold run1A kernelRun1_A
  dsimp only
  sl_unfold_words
  rw [View.canon_cons_unit_zero (S := S1x128) zeroOffs2_r1, View.readCov_unit_zero (S := S1x128) _ zeroOffs2_r1]
  simp only [View.readAt_eq_ld, (hs1_0 t).read_unread, (hs1_1 t).read_unread, (hs1_2 t).read_unread,
    Memref.IsWhole.read_unread, View.ld_unit_zero (S := S10000x128) zeroOffs2_r1, View.ld_unit_zero (S := S128x128) zeroOffs2_r1,
    View.ld_unit_zero (S := S1x128) zeroOffs2_r1]

/-- The LAST point of a run leaves in the accumulator what a middle point would, -/
theorem sout1_C_eq (c : Dev nD) (t : Fin cfg1.N) (h0 : ¬t.val % 5 = 0) (h1 : t.val % 5 = 4) (xs : Vec F S1x128 .f32) :
    sout1_C V c t h0 h1 xs = k1_pay2 (iblk1 V c 0 t) (iblk1 V c 1 t) (iblk1 V c 2 t) xs := by
  unfold sout1_C
  rw [View.read_writes_eq_canon _ _ _ (scover1_C V c t h0 h1 xs)]
  unfold run1C kernelRun1_C
  dsimp only
  sl_unfold_words
  rw [View.canon_unit_zero zeroOffs2_r1]
  simp only [View.readAt_eq_ld, (hs1_0 t).read_unread, (hs1_1 t).read_unread, (hs1_2 t).read_unread,
    Memref.IsWhole.read_unread, View.ld_unit_zero (S := S10000x128) zeroOffs2_r1, View.ld_unit_zero (S := S128x128) zeroOffs2_r1,
    View.ld_unit_zero (S := S1x128) zeroOffs2_r1]
  exact congrArg (k1_pay2 (iblk1 V c 0 t) (iblk1 V c 1 t) (iblk1 V c 2 t)) ((Memref.isWhole_whole cc1_scratch0).read_unread xs)

/-- and in the output window's buffer that row, with a unit axis in front. -/
theorem out1_C_eq (c : Dev nD) (t : Fin cfg1.N) (h0 : ¬t.val % 5 = 0) (h1 : t.val % 5 = 4) (xs : Vec F S1x128 .f32) :
    out1_C V c t h0 h1 xs = k1_pay3 (k1_pay2 (iblk1 V c 0 t) (iblk1 V c 1 t) (iblk1 V c 2 t) xs) := by
  unfold out1_C
  rw [View.read_writes_eq_canon _ _ _ (cover1_C V c t h0 h1 xs)]
  unfold run1C kernelRun1_C
  dsimp only
  sl_unfold_words
  rw [View.canon_unit_zero zeroOffs3_r1, View.readCov_unit_zero (S := S1x128) _ zeroOffs2_r1]
  simp only [View.readAt_eq_ld, (hs1_0 t).read_unread, (hs1_1 t).read_unread, (hs1_2 t).read_unread,
    Memref.IsWhole.read_unread, View.ld_unit_zero (S := S10000x128) zeroOffs2_r1, View.ld_unit_zero (S := S128x128) zeroOffs2_r1,
    View.ld_unit_zero (S := S1x128) zeroOffs2_r1]
  exact congrArg (fun a => k1_pay3 (k1_pay2 (iblk1 V c 0 t) (iblk1 V c 1 t) (iblk1 V c 2 t) a)) ((Memref.isWhole_whole cc1_scratch0).read_unread xs)

end Cert.KernelIdeal.Hand

end
-- ==== Proof.KI.Val1.lean ====
/-
  The second kernel's output array as one function of the arrays it is entered with.

  The kernel visits ten grid points, two runs of five. At point `t` it takes rows `10000 t … 10000 t + 9999` of the
  aggregated hidden features, the whole weight matrix and the whole bias row, applies the dense map with clipping to the
  block and adds, column by column, the block's 10000 rows into an accumulator row that it zeroes at the first point of
  each run. At the last point of run `c'` (point `5 c' + 4`) the accumulator, which then holds the column sums over
  the run's five blocks, is copied to row `c'` of the output. Only those two points write the output back, and their two
  blocks are its two rows.
-/
import proofs.«135123_j81604378624770_2_alg».proof.Proof.KI.Val1Pieces
import proofs.«135123_j81604378624770_2_alg».proof.Proof.KI.Pay
import proofs.«135123_j81604378624770_2_alg».proof.Proof.Spec
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The body's arithmetic at an index -/

/-- The row the accumulator is reset to is zero everywhere. -/
theorem k1_zero_apply (j : Fin 128) : k1_pay1 (F := Ideal) (ix2 0 j) = 0 := by
  unfold k1_pay1
  refine (congrFun (shapeCast_self _ shapeCasts_S1x128_S1x128) (ix2 0 j)).trans ?_
  exact Ideal.ofBits_zero_f32

/-- The body's sum at column `j`: what the accumulator held there plus the column's sum, over the block's 10000 rows,
    of the clipped dense map. -/
theorem k1_acc_apply (x0 : Vec Ideal S10000x128 .f32) (x1 : Vec Ideal S128x128 .f32) (x2 : Vec Ideal S1x128 .f32)
    (acc : Vec Ideal S1x128 .f32) (j : Fin 128) :
    k1_pay2 (F := Ideal) x0 x1 x2 acc (ix2 0 j)
      = acc (ix2 0 j) + ∑ q : Fin 10000, Gcn.denseAt x0 x1 (fun i => x2 (ix2 0 (i 0))) q j := by
  rw [pay1_dense_eq]
  refine (congrFun (shapeCast_self _ shapeCasts_S1x128_S1x128) (ix2 0 j)).trans ?_
  refine (addf_apply _ _ (ix2 0 j)).trans ?_
  refine congrArg₂ (· + ·) rfl ?_
  refine (shapeCast_a_1a_apply _ shapeCasts_S128_S1x128 0 j).trans ?_
  refine (Ideal.multiReduction_add_single (denseRows x0 x1 x2) 0x00000000#32 reduces_S10000x128_S128 (.inl rfl) rfl (ix1 j)).trans ?_
  refine Finset.sum_congr rfl fun q _ => ?_
  refine (congrArg (denseRows x0 x1 x2) ?_).trans (denseRows_apply x0 x1 x2 q j)
  funext a; apply Fin.ext
  match a with
  | ⟨0, _⟩ => rfl
  | ⟨1, _⟩ => rfl

/-- The copy into the output block puts a unit axis in front. -/
theorem k1_copy_apply (v : Vec Ideal S1x128 .f32) (j : Fin 128) : k1_pay3 (F := Ideal) v (ix3 0 0 j) = v (ix2 0 j) := by
  unfold k1_pay3
  exact shapeCast_ab_1ab_apply v shapeCasts_S1x128_S1x1x128 0 0 j

/-- If a block of 10000 rows is rows `10000 tv …` of `A`, the dense entry of the block at `(p, q)` is the dense
    entry of `A` at `(10000 tv + p, q)`. -/
theorem denseAt_block1 (A : (⟨2, ![100000, 128]⟩ : Shape).Idx → EReal) (W : (⟨2, ![128, 128]⟩ : Shape).Idx → EReal)
    (B : (⟨2, ![1, 128]⟩ : Shape).Idx → EReal)
    (x0 : Vec Ideal S10000x128 .f32) (x1 : Vec Ideal S128x128 .f32) (x2 : Vec Ideal S1x128 .f32) (tv : Nat)
    (h0 : ∀ (p : Fin 10000) (k : Fin 128) (R : Fin 100000), R.val = tv * 10000 + p.val → x0 (ix2 p k) = A (ix2 R k))
    (h1 : x1 = W) (h2 : x2 = B) (p : Fin 10000) (q : Fin 128) (R : Fin 100000) (hR : R.val = tv * 10000 + p.val) :
    Gcn.denseAt x0 x1 (fun i => x2 (ix2 0 (i 0))) p q = Gcn.denseAt A W (fun i => B (ix2 0 (i 0))) R q := by
  subst h1; subst h2
  unfold Gcn.denseAt
  refine congrArg (fun s => max (s + _) 0) ?_
  exact Finset.sum_congr rfl fun k _ => congrArg (· * _) (h0 p k R hR)

/-! ## The printed index maps over the grid -/

/-- The row blocks move with the grid point, the matrix and the bias row stay, and the output's block is the run's. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) = t.val / 5 ∧ win1_3.index t (1 : Fin 3) = 0 ∧ win1_3.index t (2 : Fin 3) = 0 :=
  (by decide +kernel : ∀ t : Fin grid1.N, _)

/-! ## The blocks at a point, read off the whole arrays -/

variable (V : (c : Dev nD) → (b : Ref sig .tc) → Buf (Elt Ideal) ((c : Thread nD τ).loc b))

/-- The block of rows at point `t` is rows `10000 t …` of the aggregated hidden features. -/
theorem iblk1_0_apply (c : Dev nD) (t : Fin cfg1.N) (p : Fin 10000) (k : Fin 128) (R : Fin 100000)
    (hR : R.val = t.val * 10000 + p.val) :
    (iblk1 V c 0 t : Vec Ideal S10000x128 .f32) (ix2 p k) = (V c main_v22 : S100000x128.Idx → EReal) (ix2 R k) := by
  obtain ⟨e0, e1, -⟩ := idx_facts1 t
  unfold iblk1
  rw [View.read_apply]
  show V c main_v22 _ = V c main_v22 _
  refine congrArg (V c main_v22) (funext fun a => Fin.ext ?_)
  match a with
  | ⟨0, _⟩ => show win1_0.index t (0 : Fin 2) * 10000 + 1 * p.val = R.val; rw [e0, hR]; omega
  | ⟨1, _⟩ => show win1_0.index t (1 : Fin 2) * 128 + 1 * k.val = k.val; rw [e1]; omega

/-- The matrix block at every point is the whole matrix. -/
theorem iblk1_1_eq (c : Dev nD) (t : Fin cfg1.N) :
    (iblk1 V c 1 t : Vec Ideal S128x128 .f32) = (V c main_arg5 : S128x128.Idx → EReal) := by
  obtain ⟨-, -, e0, e1, -⟩ := idx_facts1 t
  funext x
  unfold iblk1
  rw [View.read_apply]
  show V c main_arg5 _ = V c main_arg5 x
  refine congrArg (V c main_arg5) (funext fun a => Fin.ext ?_)
  match a with
  | ⟨0, _⟩ => show win1_1.index t (0 : Fin 2) * 128 + 1 * (x 0).val = (x 0).val; rw [e0]; omega
  | ⟨1, _⟩ => show win1_1.index t (1 : Fin 2) * 128 + 1 * (x 1).val = (x 1).val; rw [e1]; omega

/-- The bias block at every point is the whole bias row. -/
theorem iblk1_2_eq (c : Dev nD) (t : Fin cfg1.N) :
    (iblk1 V c 2 t : Vec Ideal S1x128 .f32) = (V c main_v23 : S1x128.Idx → EReal) := by
  obtain ⟨-, -, -, -, e0, e1, -⟩ := idx_facts1 t
  funext x
  unfold iblk1
  rw [View.read_apply]
  show V c main_v23 _ = V c main_v23 x
  refine congrArg (V c main_v23) (funext fun a => Fin.ext ?_)
  match a with
  | ⟨0, _⟩ => show win1_2.index t (0 : Fin 2) * 1 + 1 * (x 0).val = (x 0).val; rw [e0]; omega
  | ⟨1, _⟩ => show win1_2.index t (1 : Fin 2) * 128 + 1 * (x 1).val = (x 1).val; rw [e1]; omega

/-! ## The accumulator, point by point -/

/-- Column `j` of the sum, over the 10000 rows of point `t`'s block, of the clipped dense map of the whole arrays. -/
def blockSum1 (c : Dev nD) (t : Fin cfg1.N) (j : Fin 128) : EReal :=
  ∑ q : Fin 10000, Gcn.denseAt (V c main_v22 : S100000x128.Idx → EReal) (V c main_arg5 : S128x128.Idx → EReal)
      (fun i => (V c main_v23 : S1x128.Idx → EReal) (ix2 0 (i 0)))
      ⟨t.val * 10000 + q.val, by have := lt_of_lt_of_eq t.isLt N_1; have := q.isLt; omega⟩ j

/-- The body's sum at a point adds the point's block sum to what the accumulator held. -/
theorem point_sum1 (c : Dev nD) (t : Fin cfg1.N) (acc : Vec Ideal S1x128 .f32) (j : Fin 128) :
    k1_pay2 (F := Ideal) (iblk1 V c 0 t) (iblk1 V c 1 t) (iblk1 V c 2 t) acc (ix2 0 j)
      = acc (ix2 0 j) + blockSum1 V c t j := by
  refine (k1_acc_apply (iblk1 V c 0 t) (iblk1 V c 1 t) (iblk1 V c 2 t) acc j).trans ?_
  refine congrArg (acc (ix2 0 j) + ·) ?_
  unfold blockSum1
  exact Finset.sum_congr rfl fun q _ => denseAt_block1 _ _ _ (iblk1 V c 0 t) (iblk1 V c 1 t) (iblk1 V c 2 t) t.val
    (fun p k R hR => iblk1_0_apply V c t p k R hR) (iblk1_1_eq V c t) (iblk1_2_eq V c t) q j _ rfl

/-- The running sum after position `n`: restarted at the first point of each run of five. -/
def accAt1 (c : Dev nD) : (n : ℕ) → n < cfg1.N → Fin 128 → EReal
  | 0, h => fun j => blockSum1 V c ⟨0, h⟩ j
  | n + 1, h => fun j =>
    if (n + 1) % 5 = 0 then blockSum1 V c ⟨n + 1, h⟩ j
    else accAt1 c n (Nat.lt_of_succ_lt h) j + blockSum1 V c ⟨n + 1, h⟩ j

theorem accAt1_zero (c : Dev nD) (h : 0 < cfg1.N) (j : Fin 128) : accAt1 V c 0 h j = blockSum1 V c ⟨0, h⟩ j := rfl
theorem accAt1_succ (c : Dev nD) (n : ℕ) (h : n + 1 < cfg1.N) (j : Fin 128) :
    accAt1 V c (n + 1) h j = if (n + 1) % 5 = 0 then blockSum1 V c ⟨n + 1, h⟩ j
      else accAt1 V c n (Nat.lt_of_succ_lt h) j + blockSum1 V c ⟨n + 1, h⟩ j := rfl

/-- What the accumulator holds after each point is the running sum: by induction on the point's position. -/
theorem acc_eq1 (c : Dev nD) : ∀ (n : ℕ) (h : n < cfg1.N) (j : Fin 128),
    (outsAt1 V c n h).2 (ix2 0 j) = accAt1 V c n h j
  | 0, h, j => by
    have e : (outsAt1 V c 0 h).2 = sout1_A V c ⟨0, h⟩ (Nat.zero_mod 5) :=
      congrArg Prod.snd (outsAt1_A V c ⟨0, h⟩ (Nat.zero_mod 5))
    rw [e, sout1_A_eq]
    refine (point_sum1 V c ⟨0, h⟩ _ j).trans ?_
    rw [k1_zero_apply, zero_add]
    rfl
  | n + 1, h, j => by
    by_cases h0 : (n + 1) % 5 = 0
    · rw [show outsAt1 V c (n + 1) h = _ from outsAt1_A V c ⟨n + 1, h⟩ h0]
      dsimp only
      rw [sout1_A_eq]
      refine (point_sum1 V c ⟨n + 1, h⟩ _ j).trans ?_
      rw [k1_zero_apply, zero_add]
      show _ = if (n + 1) % 5 = 0 then _ else _
      rw [if_pos h0]
    · have ih := acc_eq1 c n (Nat.lt_of_succ_lt h) j
      by_cases h1 : (n + 1) % 5 = 4
      · rw [show outsAt1 V c (n + 1) h = _ from outsAt1_C V c ⟨n + 1, h⟩ h0 h1]
        dsimp only
        rw [sout1_C_eq]
        refine (point_sum1 V c ⟨n + 1, h⟩ _ j).trans ?_
        show (outsAt1 V c n _).2 (ix2 0 j) + _ = if (n + 1) % 5 = 0 then _ else _
        rw [if_neg h0, ih]
      · rw [show outsAt1 V c (n + 1) h = _ from outsAt1_B V c ⟨n + 1, h⟩ h0 h1]
        dsimp only
        rw [sout1_B_eq]
        refine (point_sum1 V c ⟨n + 1, h⟩ _ j).trans ?_
        show (outsAt1 V c n _).2 (ix2 0 j) + _ = if (n + 1) % 5 = 0 then _ else _
        rw [if_neg h0, ih]

/-- At the last point of a run the output block holds the accumulator's row. -/
theorem out_eq1 (c : Dev nD) (t : Fin cfg1.N) (h1 : t.val % 5 = 4) (j : Fin 128) :
    (outsAt1 V c t.val t.isLt).1 (ix3 0 0 j) = accAt1 V c t.val t.isLt j := by
  have h0 : ¬t.val % 5 = 0 := by omega
  have e2 := acc_eq1 V c t.val t.isLt j
  rw [outsAt1_C V c t h0 h1] at e2 ⊢
  dsimp only at e2 ⊢
  rw [sout1_C_eq] at e2
  rw [out1_C_eq]
  exact (k1_copy_apply _ j).trans e2

/-- After the last point of run `r` the running sum is the sum of the run's five block sums. -/
theorem accAt1_last (c : Dev nD) (r : Fin 2) (h : 5 * r.val + 4 < cfg1.N) (j : Fin 128) :
    accAt1 V c (5 * r.val + 4) h j
      = ∑ k : Fin 5, blockSum1 V c ⟨5 * r.val + k.val, by have := lt_of_lt_of_eq h N_1; have := k.isLt; omega⟩ j := by
  rw [Fin.sum_univ_five]
  match r with
  | ⟨0, _⟩ =>
    show accAt1 V c 4 h j = _
    rw [accAt1_succ V c 3, if_neg (by decide), accAt1_succ V c 2, if_neg (by decide), accAt1_succ V c 1, if_neg (by decide),
      accAt1_succ V c 0, if_neg (by decide), accAt1_zero]
    rfl
  | ⟨1, _⟩ =>
    show accAt1 V c 9 h j = _
    rw [accAt1_succ V c 8, if_neg (by decide), accAt1_succ V c 7, if_neg (by decide), accAt1_succ V c 6, if_neg (by decide),
      accAt1_succ V c 5, if_neg (by decide), accAt1_succ V c 4, if_pos (by decide)]
    rfl

/-! ## The output array -/

/-- Row `c'`, column `j` of the pooled partial sums: the clipped dense map of the whole arrays summed over the rows
    of the five blocks of run `c'`. -/
def pooled1 (c : Dev nD) : S2x1x128.Idx → EReal := fun i =>
  ∑ k : Fin 5, ∑ q : Fin 10000, Gcn.denseAt (V c main_v22 : S100000x128.Idx → EReal) (V c main_arg5 : S128x128.Idx → EReal)
      (fun i => (V c main_v23 : S1x128.Idx → EReal) (ix2 0 (i 0)))
      ⟨(5 * (i 0).val + k.val) * 10000 + q.val, by
        have h0 : (i 0).val < 2 := (i 0).isLt; have := k.isLt; have := q.isLt; omega⟩ (i 2)

/-- What a point that writes back (the last of a run) writes is its run's row of the pooled partial sums. -/
theorem flushed1_3_eq (c : Dev nD) (t : Fin cfg1.N) (hf : (cfg1.win 3).flush t = true) :
    (dat1 V c).flushed 3 t = ((cfg1.win 3).blk t).view.read (Elt Ideal) (pooled1 V c) := by
  have h4 : t.val % 5 = 4 := (flush1_3 t).mp hf
  have hN : t.val < 10 := lt_of_lt_of_eq t.isLt N_1
  obtain ⟨-, -, -, -, -, -, e0, e1, e2⟩ := idx_facts1 t
  show (cfg1.win 3).cut (grid1.coords t) ((dat1 V c).after 3 t) = _
  rw [after1_3]
  funext y
  obtain ⟨u, v, j, rfl⟩ : ∃ (u : Fin 1) (v : Fin 1) (j : Fin 128), y = ix3 u v j := ⟨y 0, y 1, y 2, eq_ix3 y⟩
  obtain rfl : u = 0 := Subsingleton.elim _ _
  obtain rfl : v = 0 := Subsingleton.elim _ _
  show (outsAt1 V c t.val t.isLt).1 (ix3 0 0 j) = pooled1 V c (((cfg1.win 3).blk t).view.emb (ix3 0 0 j))
  have hemb : ((cfg1.win 3).blk t).view.emb (ix3 0 0 j)
      = (ix3 (⟨t.val / 5, by omega⟩ : Fin 2) (0 : Fin 1) j : S2x1x128.Idx) := by
    funext a; apply Fin.ext
    match a with
    | ⟨0, _⟩ => show win1_3.index t (0 : Fin 3) * 1 + 1 * 0 = t.val / 5; rw [e0]; omega
    | ⟨1, _⟩ => show win1_3.index t (1 : Fin 3) * 1 + 1 * 0 = 0; rw [e1]
    | ⟨2, _⟩ => show win1_3.index t (2 : Fin 3) * 128 + 1 * j.val = j.val; rw [e2]; omega
  rw [hemb, out_eq1 V c t h4 j]
  obtain ⟨tv, ht⟩ := t
  obtain ⟨r, hr⟩ : ∃ r : Fin 2, tv = 5 * r.val + 4 := ⟨⟨tv / 5, by dsimp only at hN; omega⟩, by dsimp only at h4 ⊢; omega⟩
  subst hr
  refine (accAt1_last V c r ht j).trans ?_
  unfold pooled1 blockSum1
  refine Finset.sum_congr rfl fun k _ => Finset.sum_congr rfl fun q _ => ?_
  refine congrArg (fun R => Gcn.denseAt _ _ _ R j) (Fin.ext ?_)
  show (5 * r.val + k.val) * 10000 + q.val = (5 * ((5 * r.val + 4) / 5) + k.val) * 10000 + q.val
  have : (5 * r.val + 4) / 5 = r.val := by omega
  rw [this]

/-- An index of the array is in point `t`'s block iff each coordinate is in the block's range on its axis. -/
theorem mem_blkP1 (t : Fin cfg1.N) (i : S2x1x128.Idx) :
    i ∈ ((cfg1.win 3).blk t).view.set ↔ ∀ a : Fin 3, win1_3.index t a * S1x1x128.size a ≤ (i a).val ∧ (i a).val < win1_3.index t a * S1x1x128.size a + S1x1x128.size a := by
  show i ∈ ((View.whole main_v24).slice (win1_3.rect t)).set ↔ _
  rw [View.set_slice_whole, Rect.mem_set_unit]
  exact Iff.rfl

/-- Row `c'` of the output is the block of the last point of run `c'`: the two flushed blocks cover the array. -/
theorem coverP1_arr (i : S2x1x128.Idx) :
    ∃ t : Fin cfg1.N, (cfg1.win 3).flush t = true ∧ i ∈ ((cfg1.win 3).blk t).view.set := by
  have hi0 : (i 0).val < 2 := (i 0).isLt
  have hi1 : (i 1).val < 1 := (i 1).isLt
  have hi2 : (i 2).val < 128 := (i 2).isLt
  have hN : cfg1.N = 10 := N_1
  let t : Fin cfg1.N := ⟨5 * (i 0).val + 4, by rw [hN]; omega⟩
  refine ⟨t, (flush1_3 t).mpr (by show (5 * (i 0).val + 4) % 5 = 4; omega), ?_⟩
  obtain ⟨-, -, -, -, -, -, e0, e1, e2⟩ := idx_facts1 t
  rw [mem_blkP1]
  intro a
  match a with
  | ⟨0, _⟩ =>
    show win1_3.index t (0 : Fin 3) * 1 ≤ (i 0).val ∧ (i 0).val < win1_3.index t (0 : Fin 3) * 1 + 1
    rw [e0]; show (5 * (i 0).val + 4) / 5 * 1 ≤ (i 0).val ∧ (i 0).val < (5 * (i 0).val + 4) / 5 * 1 + 1; omega
  | ⟨1, _⟩ =>
    show win1_3.index t (1 : Fin 3) * 1 ≤ (i 1).val ∧ (i 1).val < win1_3.index t (1 : Fin 3) * 1 + 1
    rw [e1]; omega
  | ⟨2, _⟩ =>
    show win1_3.index t (2 : Fin 3) * 128 ≤ (i 2).val ∧ (i 2).val < win1_3.index t (2 : Fin 3) * 128 + 128
    rw [e2]; omega

/-- The second kernel's output array after its run: row `c'` holds, column by column, the clipped dense map of the
    whole aggregated hidden features summed over the 50000 rows of run `c'`. -/
theorem arr1_3 (c : Dev nD) :
    (dat1 (F := Ideal) V c).arrAt 3 cfg1.N
      = fun i : S2x1x128.Idx => ∑ k : Fin 5, ∑ q : Fin 10000, Gcn.denseAt (V c main_v22 : S100000x128.Idx → EReal) (V c main_arg5 : S128x128.Idx → EReal)
      (fun i => (V c main_v23 : S1x128.Idx → EReal) (ix2 0 (i 0)))
          ⟨(5 * (i 0).val + k.val) * 10000 + q.val, by
            have h0 : (i 0).val < 2 := (i 0).isLt; have := k.isLt; have := q.isLt; omega⟩ (i 2) :=
  (dat1 V c).arrAt_eq_of_cover 3 (pooled1 V c) (fun t hf => flushed1_3_eq V c t hf) coverP1_arr

end Cert.KernelIdeal.HandV

end
-- ==== Proof.KI.Val2.lean ====
/-
  The last kernel's output row as one function of the arrays it is entered with.

  The kernel has one grid point and takes every array whole: the two partial rows, the 128 × 256 weight matrix and the
  bias row. Its one store leaves, at `(0, j)`, the final dense entry of the sum of the two partial rows, and its one
  write-back covers the whole output row.
-/
import proofs.«135123_j81604378624770_2_alg».proof.Proof.KI.Reg2
import proofs.«135123_j81604378624770_2_alg».proof.Proof.KI.Pay
import Idealize.ShloMosaic.Lib.Pipeline.Value

noncomputable section

namespace Cert.KernelIdeal.HandV

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-! ## The printed index maps over the grid -/

theorem hz2' : (![0, 0] : Fin 2 → Nat) = fun _ => 0 := funext fun a => by fin_cases a <;> rfl
theorem hz3' : (![0, 0, 0] : Fin 3 → Nat) = fun _ => 0 := funext fun a => by fin_cases a <;> rfl

/-- Every window's block index is zero on every axis: each block is its whole array. -/
theorem idx_facts2 : ∀ t : Fin cfg2.N, win2_0.index t (0 : Fin 3) = 0 ∧ win2_0.index t (1 : Fin 3) = 0 ∧ win2_0.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0 :=
  (by decide +kernel : ∀ t : Fin grid2.N, _)

/-! ## The blocks, read off the whole arrays -/

variable (V : (c : Dev nD) → (b : Ref sig .tc) → Buf (Elt Ideal) ((c : Thread nD τ).loc b))

/-- The block of partial rows is the whole array of the two partial rows. -/
theorem iblk2_0_eq (c : Dev nD) (t : Fin cfg2.N) :
    (iblk2 V c 0 t : Vec Ideal S2x1x128 .f32) = (V c main_v24 : S2x1x128.Idx → EReal) := by
  obtain ⟨e0, e1, e2, -⟩ := idx_facts2 t
  funext x
  unfold iblk2
  rw [View.read_apply]
  show V c main_v24 _ = V c main_v24 x
  refine congrArg (V c main_v24) (funext fun a => Fin.ext ?_)
  match a with
  | ⟨0, _⟩ => show win2_0.index t (0 : Fin 3) * 2 + 1 * (x 0).val = (x 0).val; rw [e0]; omega
  | ⟨1, _⟩ => show win2_0.index t (1 : Fin 3) * 1 + 1 * (x 1).val = (x 1).val; rw [e1]; omega
  | ⟨2, _⟩ => show win2_0.index t (2 : Fin 3) * 128 + 1 * (x 2).val = (x 2).val; rw [e2]; omega

/-- The matrix block is the whole matrix. -/
theorem iblk2_1_eq (c : Dev nD) (t : Fin cfg2.N) :
    (iblk2 V c 1 t : Vec Ideal S128x256 .f32) = (V c main_arg7 : S128x256.Idx → EReal) := by
  obtain ⟨-, -, -, e0, e1, -⟩ := idx_facts2 t
  funext x
  unfold iblk2
  rw [View.read_apply]
  show V c main_arg7 _ = V c main_arg7 x
  refine congrArg (V c main_arg7) (funext fun a => Fin.ext ?_)
  match a with
  | ⟨0, _⟩ => show win2_1.index t (0 : Fin 2) * 128 + 1 * (x 0).val = (x 0).val; rw [e0]; omega
  | ⟨1, _⟩ => show win2_1.index t (1 : Fin 2) * 256 + 1 * (x 1).val = (x 1).val; rw [e1]; omega

/-- The bias block is the whole bias row. -/
theorem iblk2_2_eq (c : Dev nD) (t : Fin cfg2.N) :
    (iblk2 V c 2 t : Vec Ideal S1x256 .f32) = (V c main_v25 : S1x256.Idx → EReal) := by
  obtain ⟨-, -, -, -, -, e0, e1, -⟩ := idx_facts2 t
  funext x
  unfold iblk2
  rw [View.read_apply]
  show V c main_v25 _ = V c main_v25 x
  refine congrArg (V c main_v25) (funext fun a => Fin.ext ?_)
  match a with
  | ⟨0, _⟩ => show win2_2.index t (0 : Fin 2) * 1 + 1 * (x 0).val = (x 0).val; rw [e0]; omega
  | ⟨1, _⟩ => show win2_2.index t (1 : Fin 2) * 256 + 1 * (x 1).val = (x 1).val; rw [e1]; omega

/-! ## The output row -/

/-- The sum of the two partial rows, column by column. -/
def sumTwo (P : (⟨3, ![2, 1, 128]⟩ : Shape).Idx → EReal) : Fin 128 → EReal :=
  fun k => P (ix3 0 0 k) + P (ix3 1 0 k)

/-- The final dense layer of the sum of the two partial rows, with the weights and the bias row the kernel is entered
    with. -/
def lastRow (c : Dev nD) : S1x256.Idx → EReal :=
  fun i => Gcn.finalAt (sumTwo (V c main_v24 : S2x1x128.Idx → EReal))
    (V c main_arg7 : S128x256.Idx → EReal) (fun i => (V c main_v25 : S1x256.Idx → EReal) (ix2 0 (i 0))) (i 1)

/-- What the one point writes back is the whole row. -/
theorem flushed2_3_eq (c : Dev nD) (t : Fin cfg2.N) :
    (dat2 V c).flushed 3 t = ((cfg2.win 3).blk t).view.read (Elt Ideal) (lastRow V c) := by
  show (cfg2.win 3).cut (grid2.coords t) ((dat2 V c).after 3 t) = _
  rw [after2_3]
  unfold out2_3
  rw [View.canon_unit_zero hz2']
  simp only [View.ld_unit_zero (S := S2x1x128) hz3', View.ld_unit_zero (S := S128x256) hz2', View.ld_unit_zero (S := S1x256) hz2']
  rw [iblk2_0_eq V c t, iblk2_1_eq V c t, iblk2_2_eq V c t]
  obtain ⟨-, -, -, -, -, -, -, e0, e1⟩ := idx_facts2 t
  funext j
  obtain ⟨p, q, rfl⟩ : ∃ (p : Fin 1) (q : Fin 256), j = ix2 p q := ⟨j 0, j 1, eq_ix2 j⟩
  obtain rfl : p = 0 := Subsingleton.elim _ _
  show k2_pay1 (F := Ideal) (V c main_v24) (V c main_arg7) (V c main_v25) (ix2 0 q)
      = lastRow V c (((cfg2.win 3).blk t).view.emb (ix2 0 q))
  have hemb : ((cfg2.win 3).blk t).view.emb (ix2 0 q) = (ix2 (0 : Fin 1) q : S1x256.Idx) := by
    funext a; apply Fin.ext
    match a with
    | ⟨0, _⟩ => show win2_3.index t (0 : Fin 2) * 1 + 1 * 0 = 0; rw [e0]
    | ⟨1, _⟩ => show win2_3.index t (1 : Fin 2) * 256 + 1 * q.val = q.val; rw [e1]; omega
  rw [hemb]
  exact pay2_apply (V c main_v24) (V c main_arg7) (V c main_v25) q

/-- An index of the row is in the point's block iff each coordinate is in the block's range on its axis. -/
theorem mem_blk2_3 (t : Fin cfg2.N) (i : S1x256.Idx) :
    i ∈ ((cfg2.win 3).blk t).view.set ↔ ∀ a : Fin 2, win2_3.index t a * S1x256.size a ≤ (i a).val ∧ (i a).val < win2_3.index t a * S1x256.size a + S1x256.size a := by
  show i ∈ ((View.whole main_v26).slice (win2_3.rect t)).set ↔ _
  rw [View.set_slice_whole, Rect.mem_set_unit]
  exact Iff.rfl

/-- The one block covers the row. -/
theorem cover2_3_arr (i : S1x256.Idx) :
    ∃ t : Fin cfg2.N, (cfg2.win 3).flush t = true ∧ i ∈ ((cfg2.win 3).blk t).view.set := by
  have hi0 : (i 0).val < 1 := (i 0).isLt
  have hi1 : (i 1).val < 256 := (i 1).isLt
  refine ⟨t2_0, flush2_3 t2_0, ?_⟩
  obtain ⟨-, -, -, -, -, -, -, e0, e1⟩ := idx_facts2 t2_0
  rw [mem_blk2_3]
  intro a
  match a with
  | ⟨0, _⟩ =>
    show win2_3.index t2_0 (0 : Fin 2) * 1 ≤ (i 0).val ∧ (i 0).val < win2_3.index t2_0 (0 : Fin 2) * 1 + 1
    rw [e0]; omega
  | ⟨1, _⟩ =>
    show win2_3.index t2_0 (1 : Fin 2) * 256 ≤ (i 1).val ∧ (i 1).val < win2_3.index t2_0 (1 : Fin 2) * 256 + 256
    rw [e1]; omega

/-- The last kernel's output row after its run: the final dense layer of the sum of the two partial rows. -/
theorem arr2_3 (c : Dev nD) :
    (dat2 (F := Ideal) V c).arrAt 3 cfg2.N
      = fun i => Gcn.finalAt (sumTwo (V c main_v24 : S2x1x128.Idx → EReal))
          (V c main_arg7 : S128x256.Idx → EReal) (fun i => (V c main_v25 : S1x256.Idx → EReal) (ix2 0 (i 0))) (i 1) :=
  (dat2 V c).arrAt_eq_of_cover 3 (lastRow V c) (fun t _ => flushed2_3_eq V c t) cover2_3_arr

end Cert.KernelIdeal.HandV

end
-- ==== Proof.KI.Value.lean ====
/-
  The kernel program's result as a function of its arguments, on the extended reals: the last boundary's contents
  of the result buffer, read back region by region and stretch by stretch to the launch memory, are the network of
  the specification.  The first region leaves the dense layer of the first aggregation; the second stretch
  aggregates that; the second region leaves, per half, the column sums of the second dense layer over the half's
  50000 rows, five blocks of 10000; the last region adds the two halves — the sum over all 100000 rows, whatever
  the grouping — and applies the last dense layer.
-/
import proofs.«135123_j81604378624770_2_alg».proof.Proof.KI.Frame
import proofs.«135123_j81604378624770_2_alg».proof.Proof.KI.Host
import proofs.«135123_j81604378624770_2_alg».proof.Proof.KI.Val0
import proofs.«135123_j81604378624770_2_alg».proof.Proof.KI.Val1
import proofs.«135123_j81604378624770_2_alg».proof.Proof.KI.Val2

noncomputable section

namespace Cert.KernelIdeal.HandV

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ) (ρ : Dev nD → PrngReg)

/-- The first aggregation, as the first region finds it. -/
theorem V1_v9 (c : Dev nD) : (V1 m ρ c main_v9 : FVec Ideal S100000x128 .f32)
    = Gcn.aggregate gather_S100000x128_S1600000x1_S1600000x128_1_0_n_n_0_1_1128 scatter_S100000x128_S1600000x1_S1600000x128_1_0_0_1
        (m ((c.tc : Thread nD τ).loc main_arg0)) (srcIdx (m ((c.tc : Thread nD τ).loc main_arg1))) (dstIdx (m ((c.tc : Thread nD τ).loc main_arg2))) :=
  host0_v9 (W0 m ρ c)

/-- The first region's bias row is the first bias vector. -/
theorem V1_bias (c : Dev nD) : (fun i : S128.Idx => (V1 m ρ c main_v10 : FVec Ideal S1x128 .f32) (ix2 0 (i 0))) = (m ((c.tc : Thread nD τ).loc main_arg4)) :=
  funext fun i => (host0_v10 (W0 m ρ c) (i 0)).trans (congrArg (m ((c.tc : Thread nD τ).loc main_arg4)) (eq_ix1 i).symm)

/-- The first layer's rows after the first region. -/
theorem W2_v11 (c : Dev nD) : (W2 m ρ c (Proc.devRef .tc main_v11) : FVec Ideal S100000x128 .bf16)
    = Gcn.dense (Gcn.aggregate gather_S100000x128_S1600000x1_S1600000x128_1_0_n_n_0_1_1128 scatter_S100000x128_S1600000x1_S1600000x128_1_0_0_1
        (m ((c.tc : Thread nD τ).loc main_arg0)) (srcIdx (m ((c.tc : Thread nD τ).loc main_arg1))) (dstIdx (m ((c.tc : Thread nD τ).loc main_arg2)))) (m ((c.tc : Thread nD τ).loc main_arg3)) (m ((c.tc : Thread nD τ).loc main_arg4)) := by
  refine (W2_arr m ρ c 3).trans ((arr0_3 (V1 m ρ) c).trans ?_)
  rw [V1_v9 m ρ c, V1_bias m ρ c]
  exact congrArg (fun w => Gcn.dense _ w _) (W1_main_arg3 m ρ c)

/-- The second aggregation, as the second region finds it. -/
theorem V3_v22 (c : Dev nD) : (V3 m ρ c main_v22 : FVec Ideal S100000x128 .f32)
    = Gcn.aggregate gather_S100000x128_S1600000x1_S1600000x128_1_0_n_n_0_1_1128 scatter_S100000x128_S1600000x1_S1600000x128_1_0_0_1
        (Gcn.dense (Gcn.aggregate gather_S100000x128_S1600000x1_S1600000x128_1_0_n_n_0_1_1128 scatter_S100000x128_S1600000x1_S1600000x128_1_0_0_1
          (m ((c.tc : Thread nD τ).loc main_arg0)) (srcIdx (m ((c.tc : Thread nD τ).loc main_arg1))) (dstIdx (m ((c.tc : Thread nD τ).loc main_arg2)))) (m ((c.tc : Thread nD τ).loc main_arg3)) (m ((c.tc : Thread nD τ).loc main_arg4)))
        (srcIdx (m ((c.tc : Thread nD τ).loc main_arg1))) (dstIdx (m ((c.tc : Thread nD τ).loc main_arg2))) := by
  refine (host1_v22 (W2 m ρ c)).trans ?_
  rw [W2_v11 m ρ c, W2_main_arg1 m ρ c, W2_main_arg2 m ρ c]

/-- The second region's bias row is the second bias vector. -/
theorem V3_bias (c : Dev nD) : (fun i : S128.Idx => (V3 m ρ c main_v23 : FVec Ideal S1x128 .f32) (ix2 0 (i 0))) = (m ((c.tc : Thread nD τ).loc main_arg6)) :=
  funext fun i => ((host1_v23 (W2 m ρ c) (i 0)).trans (congrFun (W2_main_arg6 m ρ c) _)).trans
    (congrArg (m ((c.tc : Thread nD τ).loc main_arg6)) (eq_ix1 i).symm)

/-- The last region's bias row is the last bias vector. -/
theorem V5_bias (c : Dev nD) : (fun i : S256.Idx => (V5 m ρ c main_v25 : FVec Ideal S1x256 .f32) (ix2 0 (i 0))) = (m ((c.tc : Thread nD τ).loc main_arg8)) :=
  funext fun i => ((host2_v25 (W4 m ρ c) (i 0)).trans (congrFun (W4_main_arg8 m ρ c) _)).trans
    (congrArg (m ((c.tc : Thread nD τ).loc main_arg8)) (eq_ix1 i).symm)

/-- The pooled row from the two halves' partial rows: the sum over all 100000 rows, taken 2 × 5 × 10000. -/
theorem pooled_of_partials (X : S100000x128.Idx → EReal) (P : S2x1x128.Idx → EReal)
    (hP : ∀ (c' : Fin 2) (j : Fin 128), P (ix3 c' 0 j) = ∑ k : Fin 5, ∑ q : Fin 10000,
      X (ix2 (⟨(5 * c'.val + k.val) * 10000 + q.val, by have := c'.isLt; have := k.isLt; have := q.isLt; omega⟩ : Fin 100000) j)) :
    sumTwo P = Gcn.pooledAt X := by
  funext j
  unfold sumTwo Gcn.pooledAt
  rw [Gcn.sum_blocks (fun r => X (ix2 r j)), Fin.sum_univ_two, hP 0 j, hP 1 j]

/-- The second region's weight matrix is the argument. -/
theorem V3_w (c : Dev nD) : (V3 m ρ c main_arg5 : S128x128.Idx → EReal) = (m ((c.tc : Thread nD τ).loc main_arg5)) := W3_main_arg5 m ρ c

/-- The two partial rows after the second region, as the last region finds them. -/
theorem V5_v24 (c : Dev nD) (c' : Fin 2) (j : Fin 128) : (V5 m ρ c main_v24 : S2x1x128.Idx → EReal) (ix3 c' 0 j)
    = ∑ k : Fin 5, ∑ q : Fin 10000, (Gcn.hidden2 gather_S100000x128_S1600000x1_S1600000x128_1_0_n_n_0_1_1128 scatter_S100000x128_S1600000x1_S1600000x128_1_0_0_1
        (m ((c.tc : Thread nD τ).loc main_arg0)) (srcIdx (m ((c.tc : Thread nD τ).loc main_arg1))) (dstIdx (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6)))
        (ix2 (⟨(5 * c'.val + k.val) * 10000 + q.val, by have := c'.isLt; have := k.isLt; have := q.isLt; omega⟩ : Fin 100000) j) := by
  have e : (V5 m ρ c main_v24 : S2x1x128.Idx → EReal) = (dat1 (F := Ideal) (V3 m ρ) c).arrAt 3 cfg1.N :=
    (host2_keep (W4 m ρ c) main_v24 (by decide)).trans (W4_arr m ρ c 3)
  rw [e, arr1_3 (V3 m ρ) c, V3_v22 m ρ c, V3_bias m ρ c, V3_w m ρ c]
  rfl

/-- The result buffer after the whole run: the network of the specification, of the launch memory's arguments. -/
theorem W6_v26 (c : Dev nD) : (W6 m ρ c (Proc.devRef .tc main_v26) : S1x256.Idx → EReal)
    = Gcn.result (Gcn.hidden2 gather_S100000x128_S1600000x1_S1600000x128_1_0_n_n_0_1_1128 scatter_S100000x128_S1600000x1_S1600000x128_1_0_0_1 (m ((c.tc : Thread nD τ).loc main_arg0)) (srcIdx (m ((c.tc : Thread nD τ).loc main_arg1))) (dstIdx (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8)) := by
  refine (W6_arr m ρ c 3).trans ((arr2_3 (V5 m ρ) c).trans ?_)
  rw [V5_bias m ρ c, pooled_of_partials _ _ (V5_v24 m ρ c)]
  funext i
  exact congrArg (fun w => Gcn.finalAt _ w _ (i 1)) (W5_main_arg7 m ρ c)

/-- Every weakly fair execution of the kernel program terminates with the result array at the specification of the
    launch memory's arguments, the arguments unchanged. -/
theorem run_spec : θ_run (defs (F := Ideal)) (onTc (τ := τ) (main (F := Ideal))) ⟨m, fun _ => 0, ρ⟩ fun r => ∀ c : Dev nD,
      r.2.mem ((c.tc : Thread nD τ).loc main_v26)
        = Gcn.result (Gcn.hidden2 gather_S100000x128_S1600000x1_S1600000x128_1_0_n_n_0_1_1128 scatter_S100000x128_S1600000x1_S1600000x128_1_0_0_1 (m ((c.tc : Thread nD τ).loc main_arg0)) (srcIdx (m ((c.tc : Thread nD τ).loc main_arg1))) (dstIdx (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun r h c => ⟨(h c _ (mem_uc main_v26 (by decide))).trans (W6_v26 m ρ c),
    (h c _ (mem_uc main_arg0 (by decide))).trans (W6_main_arg0 m ρ c),
    (h c _ (mem_uc main_arg1 (by decide))).trans (W6_main_arg1 m ρ c),
    (h c _ (mem_uc main_arg2 (by decide))).trans (W6_main_arg2 m ρ c),
    (h c _ (mem_uc main_arg3 (by decide))).trans (W6_main_arg3 m ρ c),
    (h c _ (mem_uc main_arg4 (by decide))).trans (W6_main_arg4 m ρ c),
    (h c _ (mem_uc main_arg5 (by decide))).trans (W6_main_arg5 m ρ c),
    (h c _ (mem_uc main_arg6 (by decide))).trans (W6_main_arg6 m ρ c),
    (h c _ (mem_uc main_arg7 (by decide))).trans (W6_main_arg7 m ρ c),
    (h c _ (mem_uc main_arg8 (by decide))).trans (W6_main_arg8 m ρ c)⟩) (run_all (F := Ideal) m ρ)

end Cert.KernelIdeal.HandV

end
-- ==== Proof.RefFrame.lean ====
/-
  The reference program runs to its end, faults nowhere and leaves its nine argument arrays as it found them: its
  run read back, with the result array's value dropped. The precondition is not needed.
-/
import proofs.«135123_j81604378624770_2_alg».proof.Defs
import proofs.«135123_j81604378624770_2_alg».proof.Proof.Gen.ReferenceIdeal.Run
import proofs.«135123_j81604378624770_2_alg».proof.Proof.Gen.Pre_finite_inputs

noncomputable section

namespace Cert.ReferenceIdeal.RefValue

open Idealize.ShloMosaic Idealize.SL.Sem

/-- The reference's frame: every weakly fair execution terminates with the argument arrays unchanged. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.RefValue.lean ====
/-
  The reference program's result is the shared specification of the network.

  The reference computes, on the host, two graph-convolution layers and a pooled read-out. Each layer gathers the
  feature rows of the edges' sources, adds them into the rows of the edges' destinations (a scatter-add into a zero
  array), multiplies by a weight matrix, adds a bias row and clips at zero; the node rows are then summed column by
  column and a last dense map with clipping gives the single output row. Read index by index on the extended reals:
  a `dot_general` element is the sum over the contracted coordinate of the products, a broadcast bias reads `b` at
  the column, the clip is `max · 0` (the zero splat is the extended real `0`), and the host's sum over the rows is
  its zero initial value plus the sum. The gather and the scatter-add are never opened: both programs apply them to
  the same index arrays, and they stay inside `Gcn.aggregate`.
-/
import proofs.«135123_j81604378624770_2_alg».proof.Proof.Gen.ReferenceIdeal.Read
import proofs.«135123_j81604378624770_2_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-! ## The two index arrays -/

/-- The start indices of the gathers: the edge sources, a negative one wrapped once by the number of nodes, as a
    column `[1600000, 1]`. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- The scatter indices: the edge destinations as a column `[1600000, 1]`. -/
def dstIdx (dst : IVec S1600000 32) : IVec S1600000x1 32 :=
  broadcastInDim S1600000x1 ![0] bcast_S1600000_S1600000x1_0 dst

/-! ## The pieces, read at an index -/

/-- A splat of the f32 zero word is the zero array of extended reals. -/
theorem zeros_eq (S : Shape) (h : S_.BroadcastsInDim S (![] : Fin 0 → Fin S.rank)) :
    (broadcastInDim S ![] h (constant (F := Ideal) S_ .f32 0x00000000#32) : FVec Ideal S .f32) = fun _ => (0 : EReal) :=
  funext fun _ => Ideal.ofBits_zero_f32

/-- Entry `(r, j)` of the product of a `[100000, 128]` array with a `[128, 128]` matrix is `∑ₖ A[r,k] · W[k,j]`:
    the contraction has one axis, and its index is that axis's coordinate. -/
theorem dot_apply (A : FVec Ideal S100000x128 .f32) (W : FVec Ideal S128x128 .f32) (r : Fin 100000) (j : Fin 128) :
    Host.dotGeneral (F := Ideal) dot_S100000x128_S128x128_S100000x128_1_0_0_1_n_n none A W (ix2 r j)
      = ∑ k : Fin 128, A (ix2 r k) * W (ix2 k j) := by
  simp only [Host.dotGeneral]
  rw [Ideal.dotGeneral_apply, ← Equiv.sum_comp (contrEquiv1 dot_S100000x128_S128x128_S100000x128_1_0_0_1_n_n 128 rfl rfl).symm]
  refine Finset.sum_congr rfl fun k _ => ?_
  have hk := contrEquiv1_symm_val dot_S100000x128_S128x128_S100000x128_1_0_0_1_n_n 128 rfl rfl k
  have el : dot_S100000x128_S128x128_S100000x128_1_0_0_1_n_n.lhsIdx (ix2 r j) ((contrEquiv1 dot_S100000x128_S128x128_S100000x128_1_0_0_1_n_n 128 rfl rfl).symm k) = ix2 r k :=
    funext fun a => Fin.ext (by
      match a with
      | ⟨0, _⟩ => exact lhs_main_v10_0 _ _
      | ⟨1, _⟩ => exact (lhs_main_v10_1 _ _).trans hk)
  have er : dot_S100000x128_S128x128_S100000x128_1_0_0_1_n_n.rhsIdx (ix2 r j) ((contrEquiv1 dot_S100000x128_S128x128_S100000x128_1_0_0_1_n_n 128 rfl rfl).symm k) = ix2 k j :=
    funext fun a => Fin.ext (by
      match a with
      | ⟨0, _⟩ => exact (rhs_main_v10_0 _ _).trans hk
      | ⟨1, _⟩ => exact rhs_main_v10_1 _ _)
  rw [el, er]

/-- A bias row broadcast first to `[1, 128]` and then down the 100000 rows reads `b[j]` at `(r, j)`. -/
theorem bias_apply (b : FVec Ideal S128 .f32) (r : Fin 100000) (j : Fin 128) :
    broadcastInDim S100000x128 ![0, 1] bcast_S1x128_S100000x128_0_1 (broadcastInDim S1x128 ![1] bcast_S128_S1x128_1 b) (ix2 r j)
      = b (ix1 j) := by
  refine ((val_main_v12_apply (F := Ideal) b (ix2 r j)).trans (val_main_v11_apply (F := Ideal) b _)).trans (congrArg b ?_)
  funext a
  match a with
  | ⟨0, _⟩ => rfl

/-- One layer's dense part as the host writes it — product, broadcast bias, maximum with the zero splat — is the
    specification's `dense`. -/
theorem dense_eq (A : FVec Ideal S100000x128 .f32) (W : FVec Ideal S128x128 .f32) (b : FVec Ideal S128 .f32) :
    maximumf (addf (Host.dotGeneral (F := Ideal) dot_S100000x128_S128x128_S100000x128_1_0_0_1_n_n none A W)
        (broadcastInDim S100000x128 ![0, 1] bcast_S1x128_S100000x128_0_1 (broadcastInDim S1x128 ![1] bcast_S128_S1x128_1 b)))
      (broadcastInDim S100000x128 ![] bcast_S_S100000x128 (constant (F := Ideal) S_ .f32 0x00000000#32))
    = Gcn.dense A W b := by
  funext i
  obtain ⟨r, j, rfl⟩ : ∃ (r : Fin 100000) (j : Fin 128), i = ix2 r j := ⟨i 0, i 1, eq_ix2 i⟩
  rw [Gcn.dense_ix2, maximumf_apply, addf_apply, dot_apply, bias_apply, zeros_eq]
  rfl

/-! ## The stages of the reference -/

/-- The first aggregation: the scatter-add of the gathered feature rows into the zero array. -/
theorem agg1_eq (a0 : FVec Ideal S100000x128 .f32) (a1 a2 : IVec S1600000 32) :
    val_main_v9 (F := Ideal) a0 a1 a2 = Gcn.aggregate gather_S100000x128_S1600000x1_S1600000x128_1_0_n_n_0_1_1128 scatter_S100000x128_S1600000x1_S1600000x128_1_0_0_1 a0 (srcIdx a1) (dstIdx a2) := by
  unfold val_main_v9 Gcn.aggregate
  rw [show val_main_v7 (F := Ideal) = fun _ => (0 : EReal) from zeros_eq _ _]
  rfl

/-- The first layer's node rows. -/
theorem hidden1_eq (a0 : FVec Ideal S100000x128 .f32) (a1 a2 : IVec S1600000 32) (a3 : FVec Ideal S128x128 .f32) (a4 : FVec Ideal S128 .f32) :
    val_main_v14 (F := Ideal) a0 a1 a2 a3 a4
      = Gcn.dense (Gcn.aggregate gather_S100000x128_S1600000x1_S1600000x128_1_0_n_n_0_1_1128 scatter_S100000x128_S1600000x1_S1600000x128_1_0_0_1 a0 (srcIdx a1) (dstIdx a2)) a3 a4 :=
  (show val_main_v14 (F := Ideal) a0 a1 a2 a3 a4 = Gcn.dense (val_main_v9 (F := Ideal) a0 a1 a2) a3 a4 from dense_eq _ _ _).trans
    (by rw [agg1_eq])

/-- The second aggregation applies the same gather and scatter-add, over the same index arrays, to the first
    layer's rows. -/
theorem agg2_eq (a0 : FVec Ideal S100000x128 .f32) (a1 a2 : IVec S1600000 32) (a3 : FVec Ideal S128x128 .f32) (a4 : FVec Ideal S128 .f32) :
    val_main_v24 (F := Ideal) a0 a1 a2 a3 a4
      = Gcn.aggregate gather_S100000x128_S1600000x1_S1600000x128_1_0_n_n_0_1_1128 scatter_S100000x128_S1600000x1_S1600000x128_1_0_0_1 (val_main_v14 (F := Ideal) a0 a1 a2 a3 a4) (srcIdx a1) (dstIdx a2) := by
  unfold val_main_v24 Gcn.aggregate
  rw [show val_main_v22 (F := Ideal) = fun _ => (0 : EReal) from zeros_eq _ _]
  rfl

/-- The second layer's node rows are the specification's `hidden2`. -/
theorem hidden2_eq (a0 : FVec Ideal S100000x128 .f32) (a1 a2 : IVec S1600000 32) (a3 : FVec Ideal S128x128 .f32) (a4 : FVec Ideal S128 .f32) (a5 : FVec Ideal S128x128 .f32) (a6 : FVec Ideal S128 .f32) :
    val_main_v29 (F := Ideal) a0 a1 a2 a3 a4 a5 a6
      = Gcn.hidden2 gather_S100000x128_S1600000x1_S1600000x128_1_0_n_n_0_1_1128 scatter_S100000x128_S1600000x1_S1600000x128_1_0_0_1 a0 (srcIdx a1) (dstIdx a2) a3 a4 a5 a6 :=
  (show val_main_v29 (F := Ideal) a0 a1 a2 a3 a4 a5 a6 = Gcn.dense (val_main_v24 (F := Ideal) a0 a1 a2 a3 a4) a5 a6 from dense_eq _ _ _).trans
    (by unfold Gcn.hidden2; rw [agg2_eq, hidden1_eq])

/-- Column `k` of the pooled row: the host's sum over the 100000 node rows, from the zero initial value. -/
theorem pooled_apply (a0 : FVec Ideal S100000x128 .f32) (a1 a2 : IVec S1600000 32) (a3 : FVec Ideal S128x128 .f32) (a4 : FVec Ideal S128 .f32) (a5 : FVec Ideal S128x128 .f32) (a6 : FVec Ideal S128 .f32) (z : Fin 1) (k : Fin 128) :
    val_main_v31 (F := Ideal) a0 a1 a2 a3 a4 a5 a6 (ix2 z k)
      = Gcn.pooledAt (Gcn.hidden2 gather_S100000x128_S1600000x1_S1600000x128_1_0_n_n_0_1_1128 scatter_S100000x128_S1600000x1_S1600000x128_1_0_0_1 a0 (srcIdx a1) (dstIdx a2) a3 a4 a5 a6) k := by
  rw [val_main_v31_apply, val_main_v30_apply, val_main_cst_4_apply, hidden2_eq, Ideal.ofBits_def, Ideal.ofBits_zero_f32, zero_add]
  unfold Gcn.pooledAt
  refine Finset.sum_congr rfl fun r _ => congrArg _ ?_
  funext a
  match a with
  | ⟨0, _⟩ => rfl
  | ⟨1, _⟩ => rfl

/-- The reference's last stage is the specification's result row. -/
theorem final_eq (a0 : FVec Ideal S100000x128 .f32) (a1 a2 : IVec S1600000 32) (a3 : FVec Ideal S128x128 .f32) (a4 : FVec Ideal S128 .f32) (a5 : FVec Ideal S128x128 .f32) (a6 : FVec Ideal S128 .f32) (a7 : FVec Ideal S128x256 .f32) (a8 : FVec Ideal S256 .f32) :
    val_main_v35 (F := Ideal) a0 a1 a2 a3 a4 a5 a6 a7 a8
      = Gcn.result (Gcn.hidden2 gather_S100000x128_S1600000x1_S1600000x128_1_0_n_n_0_1_1128 scatter_S100000x128_S1600000x1_S1600000x128_1_0_0_1 a0 (srcIdx a1) (dstIdx a2) a3 a4 a5 a6) a7 a8 := by
  funext i
  obtain ⟨z, j, rfl⟩ : ∃ (z : Fin 1) (j : Fin 256), i = ix2 z j := ⟨i 0, i 1, eq_ix2 i⟩
  rw [val_main_v35_apply, val_main_v34_apply, val_main_v32_apply, val_main_v33_apply, val_main_call2_v0_apply,
    val_main_call2_cst_apply, Ideal.ofBits_def, Ideal.ofBits_zero_f32, Ideal.maximumf_def, Ideal.addf_def]
  show _ = Gcn.finalAt _ a7 a8 j
  unfold Gcn.finalAt
  refine congrArg (max · 0) (congrArg₂ (· + ·) (Finset.sum_congr rfl fun k _ => ?_) (congrArg a8 ?_))
  · rw [show lidx_main_v32 (ix2 z j) k = ix2 z k from funext fun a => by match a with | ⟨0, _⟩ => rfl | ⟨1, _⟩ => rfl,
      pooled_apply]
    exact congrArg (_ * a7 ·) (funext fun a => by match a with | ⟨0, _⟩ => rfl | ⟨1, _⟩ => rfl)
  · funext a
    match a with
    | ⟨0, _⟩ => rfl

/-- The reference run's result term is the specification, as a function of the nine argument arrays. -/
theorem result_eq (a0 : FVec Ideal S100000x128 .f32) (a1 a2 : IVec S1600000 32) (a3 : FVec Ideal S128x128 .f32) (a4 : FVec Ideal S128 .f32) (a5 : FVec Ideal S128x128 .f32) (a6 : FVec Ideal S128 .f32) (a7 : FVec Ideal S128x256 .f32) (a8 : FVec Ideal S256 .f32) :
    maximumf (addf (Host.dotGeneral (F := Ideal) dot_S1x128_S128x256_S1x256_1_0_0_1_n_n none (broadcastInDim S1x128 ![1] bcast_S128_S1x128_1 (Host.reduceAdd (F := Ideal) (maximumf (addf (Host.dotGeneral (F := Ideal) dot_S100000x128_S128x128_S100000x128_1_0_0_1_n_n none (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 a2) (Host.gather gather_S100000x128_S1600000x1_S1600000x128_1_0_n_n_0_1_1128 (maximumf (addf (Host.dotGeneral (F := Ideal) dot_S100000x128_S128x128_S100000x128_1_0_0_1_n_n none (Host.scatterAdd (F := Ideal) scatter_S100000x128_S1600000x1_S1600000x128_1_0_0_1 (broadcastInDim S100000x128 ![] bcast_S_S100000x128 (constant (F := Ideal) S_ .f32 0x00000000#32)) (broadcastInDim S1600000x1 ![0] bcast_S1600000_S1600000x1_0 a2) (Host.gather gather_S100000x128_S1600000x1_S1600000x128_1_0_n_n_0_1_1128 a0 (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1)))) a3) (broadcastInDim S100000x128 ![0, 1] bcast_S1x128_S100000x128_0_1 (broadcastInDim S1x128 ![1] bcast_S128_S1x128_1 a4))) (broadcastInDim S100000x128 ![] bcast_S_S100000x128 (constant (F := Ideal) S_ .f32 0x00000000#32))) (broadcastInDim S1600000x1 ![0] bcast_S1600000_S1600000x1_0 (select (cmpi .slt a1 (broadcastInDim S1600000 ![] bcast_S_S1600000 (constantI S_ 32 0#32))) (addi a1 (broadcastInDim S1600000 ![] bcast_S_S1600000 (constantI S_ 32 100000#32))) a1)))) a5) (broadcastInDim S100000x128 ![0, 1] bcast_S1x128_S100000x128_0_1 (broadcastInDim S1x128 ![1] bcast_S128_S1x128_1 a6))) (broadcastInDim S100000x128 ![] bcast_S_S100000x128 (constant (F := Ideal) S_ .f32 0x00000000#32))) (constant (F := Ideal) S_ .f32 0x00000000#32) reducesTo_S100000x128_S128_d0 h_S_)) a7) (broadcastInDim S1x256 ![1] bcast_S256_S1x256_1 a8)) (broadcastInDim S1x256 ![] bcast_S_S1x256 (constant (F := Ideal) S_ .f32 0x00000000#32))
      = Gcn.result (Gcn.hidden2 gather_S100000x128_S1600000x1_S1600000x128_1_0_n_n_0_1_1128 scatter_S100000x128_S1600000x1_S1600000x128_1_0_0_1 a0 (srcIdx a1) (dstIdx a2) a3 a4 a5 a6) a7 a8 :=
  (val_main_v35_eq (F := Ideal) a0 a1 a2 a3 a4 a5 a6 a7 a8).trans (final_eq a0 a1 a2 a3 a4 a5 a6 a7 a8)

/-! ## The reference's run -/

/-- Every weakly fair execution of the reference terminates with the result array at the specification of the
    launch memory's arguments, the arguments unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v35)
        = Gcn.result (Gcn.hidden2 gather_S100000x128_S1600000x1_S1600000x128_1_0_n_n_0_1_1128 scatter_S100000x128_S1600000x1_S1600000x128_1_0_0_1 (m ((c.tc : Thread nD τ).loc main_arg0)) (srcIdx (m ((c.tc : Thread nD τ).loc main_arg1))) (dstIdx (m ((c.tc : Thread nD τ).loc main_arg2))) (m ((c.tc : Thread nD τ).loc main_arg3)) (m ((c.tc : Thread nD τ).loc main_arg4)) (m ((c.tc : Thread nD τ).loc main_arg5)) (m ((c.tc : Thread nD τ).loc main_arg6))) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c).1.trans (result_eq _ _ _ _ _ _ _ _ _), (h c).2⟩)
    (Cert.ReferenceIdeal.Value.run (F := Ideal) m ρ)

end Cert.ReferenceIdeal.RefValue

end
-- ==== Proof.RefAgree.lean ====
/-
  The reference's side of the comparison: run from a memory that agrees with the kernel program's memory on the
  nine argument arrays, the reference ends with its result array at the specification of the KERNEL program's
  arguments, its own arguments unchanged.
-/
import proofs.«135123_j81604378624770_2_alg».proof.Defs
import proofs.«135123_j81604378624770_2_alg».proof.Proof.RefValue

noncomputable section

namespace Cert.ReferenceIdeal.RefValue

open Idealize.ShloMosaic Idealize.SL.Sem

/-- The specification's result row, of the kernel program's argument arrays in a memory `m`. -/
def specOfKernelArgs (m : (ℓ : Loc Cert.KernelIdeal.nD Cert.KernelIdeal.τ Cert.KernelIdeal.sig) → Buf (Elt Ideal) ℓ)
    (c : Dev Cert.KernelIdeal.nD) : (⟨2, ![1, 256]⟩ : Shape).Idx → EReal :=
  Gcn.result (Gcn.hidden2 Cert.ReferenceIdeal.gather_S100000x128_S1600000x1_S1600000x128_1_0_n_n_0_1_1128 Cert.ReferenceIdeal.scatter_S100000x128_S1600000x1_S1600000x128_1_0_0_1 (m ((c.tc : Thread Cert.KernelIdeal.nD Cert.KernelIdeal.τ).loc Cert.KernelIdeal.main_arg0)) (srcIdx (m ((c.tc : Thread Cert.KernelIdeal.nD Cert.KernelIdeal.τ).loc Cert.KernelIdeal.main_arg1))) (dstIdx (m ((c.tc : Thread Cert.KernelIdeal.nD Cert.KernelIdeal.τ).loc Cert.KernelIdeal.main_arg2))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8))

/-- From memories agreeing on the arguments, the reference's result is the specification of the kernel program's
    arguments. -/
theorem run_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (g' : Dev Cert.ReferenceIdeal.nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v35) = specOfKernelArgs m c
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)) :=
  (θ_run Cert.ReferenceIdeal.defs _ _).mono (fun _ h c => ⟨(h c).1.trans (by
      obtain ⟨h0, h1, h2, h3, h4, h5, h6, h7, h8⟩ := hagree c
      unfold specOfKernelArgs
      rw [h0, h1, h2, h3, h4, h5, h6, h7, h8]), (h c).2⟩)
    (run_spec m' g')

end Cert.ReferenceIdeal.RefValue

end
-- ==== Proof.lean ====
/-
  The certificate's five claims for a two-layer graph convolution with sum pooling, computed by a program of three
  kernels among host operations, against its array-level reference.

  Frames.  The kernel program, read at words and read at the extended reals, is one run of six segments — three host
  stretches and three kernel regions — from the launch to the return; between two segments every buffer of the core is
  at a named valuation, and the argument arrays are read back through them to their launch contents.  The middle
  region carries an accumulator between its grid points, so its invariant names the accumulator's contents after each
  point.  The reference's frame is its run with the result dropped.

  Values.  On the extended reals a change of float format is the identity and a sum does not depend on its grouping, so
  the kernels' blockwise matrix products, the per-half accumulation over five blocks of 10000 rows and the final sum
  of the two halves are the reference's whole-array products and its one sum over 100000 rows; the gathers and
  scatter-adds are the same host operations on both sides and are never opened.  Both programs end at one function
  of the arguments (`Gcn.result` of `Gcn.hidden2`).  Finiteness of the inputs is not used.

  The idealization rewrote nothing, so the preservation claim has no conjunct.
-/
import proofs.«135123_j81604378624770_2_alg».proof.Defs
import proofs.«135123_j81604378624770_2_alg».proof.Proof.Gen.Kernel
import proofs.«135123_j81604378624770_2_alg».proof.Proof.Gen.KernelIdeal
import proofs.«135123_j81604378624770_2_alg».proof.Proof.Gen.ReferenceIdeal
import proofs.«135123_j81604378624770_2_alg».proof.Proof.Gen.Pre_finite_inputs
import proofs.«135123_j81604378624770_2_alg».proof.Proof.K.Frame
import proofs.«135123_j81604378624770_2_alg».proof.Proof.KI.Value
import proofs.«135123_j81604378624770_2_alg».proof.Proof.RefFrame
import proofs.«135123_j81604378624770_2_alg».proof.Proof.RefAgree

noncomputable section

namespace Cert.Proof

open Idealize.ShloMosaic Idealize.SL.Sem

/-- The word-level kernel program terminates, faults nowhere and leaves its arguments unchanged. -/
theorem frame_k : Cert.frame_Kernel := fun m ρ _ => Cert.Kernel.Hand.frame m ρ

/-- The same of the program read at the extended reals. -/
theorem frame_ki : Cert.frame_KernelIdeal := fun m ρ _ => Cert.KernelIdeal.Hand.frame m ρ

/-- From memories agreeing on the arguments both idealized programs end with the network's result row of those
    arguments: the kernel program by its run read back region by region, the reference by its run read back operation
    by operation. -/
theorem algebraic : Cert.algebraic_KernelIdeal_ReferenceIdeal := fun m ρ m' ρ' _ hagree =>
  ⟨fun c => Cert.ReferenceIdeal.RefValue.specOfKernelArgs m c, Cert.KernelIdeal.HandV.run_spec m ρ,
    Cert.ReferenceIdeal.RefValue.run_agree m m' ρ' hagree⟩

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
